-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x2048 : Shape := ⟨3, ![128, 256, 2048]⟩
abbrev S128 : Shape := ⟨1, ![128]⟩
abbrev S_ : Shape := ⟨0, ![]⟩

class Facts : Prop where
  bcast_S_S128x256x2048 : S_.BroadcastsInDim S128x256x2048 (![] : Fin 0 → Fin S128x256x2048.rank)
  reducesTo_S128x256x2048_S_d0_1_2 : S128x256x2048.ReducesTo [0, 1, 2] S_
  h_S_ : 0 < S_.numel

variable [Facts]

def fn {F : FTy → Type} [FloatOps F] (main_arg0 : FVec F S128x256x2048 .f32) (main_arg1 : FVec F S128x256x2048 .f32) (main_arg2 : IVec S128 32) : IVec S_ 1 :=
  let main_v0 : FVec F S128x256x2048 .f32 := Host.absf main_arg0
  let main_cst : FVec F S_ .f32 := constant S_ .f32 0x7F800000#32
  let main_v1 : FVec F S128x256x2048 .f32 := broadcastInDim S128x256x2048 ![] bcast_S_S128x256x2048 main_cst
  let main_v2 : IVec S128x256x2048 1 := cmpf .olt main_v0 main_v1
  let main_c : IVec S_ 1 := constantI S_ 1 1#1
  let main_v3 : IVec S_ 1 := (fun x v => Host.reduce IntOp.andi x v reducesTo_S128x256x2048_S_d0_1_2 h_S_) main_v2 main_c
  let main_v4 : FVec F S128x256x2048 .f32 := Host.absf main_arg1
  let main_cst_0 : FVec F S_ .f32 := constant S_ .f32 0x7F800000#32
  let main_v5 : FVec F S128x256x2048 .f32 := broadcastInDim S128x256x2048 ![] bcast_S_S128x256x2048 main_cst_0
  let main_v6 : IVec S128x256x2048 1 := cmpf .olt main_v4 main_v5
  let main_c_1 : IVec S_ 1 := constantI S_ 1 1#1
  let main_v7 : IVec S_ 1 := (fun x v => Host.reduce IntOp.andi x v reducesTo_S128x256x2048_S_d0_1_2 h_S_) main_v6 main_c_1
  let main_v8 : IVec S_ 1 := andi main_v3 main_v7
  main_v8
-- ==== Kernel.lean ====
abbrev S128x256x2048 : Shape := ⟨3, ![128, 256, 2048]⟩
abbrev S128 : Shape := ⟨1, ![128]⟩
abbrev S2048 : Shape := ⟨1, ![2048]⟩
abbrev S_ : Shape := ⟨0, ![]⟩
abbrev S128x256x1 : Shape := ⟨3, ![128, 256, 1]⟩
abbrev S128x256x2049 : Shape := ⟨3, ![128, 256, 2049]⟩
abbrev S2048x1 : Shape := ⟨2, ![2048, 1]⟩
abbrev S1 : Shape := ⟨1, ![1]⟩
abbrev S1x1 : Shape := ⟨2, ![1, 1]⟩
abbrev S128x256 : Shape := ⟨2, ![128, 256]⟩
abbrev S32768 : Shape := ⟨1, ![32768]⟩
abbrev S67108864 : Shape := ⟨1, ![67108864]⟩
abbrev S16777216 : Shape := ⟨1, ![16777216]⟩
abbrev S67108864x1 : Shape := ⟨2, ![67108864, 1]⟩
abbrev S128x256x512 : Shape := ⟨3, ![128, 256, 512]⟩
abbrev S512 : Shape := ⟨1, ![512]⟩
abbrev S1x1x512 : Shape := ⟨3, ![1, 1, 512]⟩
abbrev S128x256x1x1 : Shape := ⟨4, ![128, 256, 1, 1]⟩
abbrev S1x1x1x1 : Shape := ⟨4, ![1, 1, 1, 1]⟩
abbrev S256 : Shape := ⟨1, ![256]⟩
abbrev S1x256 : Shape := ⟨2, ![1, 256]⟩
abbrev S128x1 : Shape := ⟨2, ![128, 1]⟩
abbrev S32768x2048 : Shape := ⟨2, ![32768, 2048]⟩
abbrev S32768x1 : Shape := ⟨2, ![32768, 1]⟩
abbrev S512x2048 : Shape := ⟨2, ![512, 2048]⟩
abbrev S512x1 : Shape := ⟨2, ![512, 1]⟩

abbrev nBuf : Space → Nat
  | .hbm => 185
  | .vmem => 12
  | .smem => 0
  | _ => 0

abbrev hbmTy0_0 (i : Nat) : BufTy := match i % 128 with
  | 0 => ⟨S128x256x2048, .f32⟩
  | 1 => ⟨S128x256x2048, .f32⟩
  | 2 => ⟨S128, .i32⟩
  | 3 => ⟨S2048, .i32⟩
  | 4 => ⟨S_, .f32⟩
  | 5 => ⟨S128x256x2048, .f32⟩
  | 6 => ⟨S128x256x2048, .i1⟩
  | 7 => ⟨S128x256x2048, .i32⟩
  | 8 => ⟨S_, .i32⟩
  | 9 => ⟨S128x256x1, .i32⟩
  | 10 => ⟨S_, .i32⟩
  | 11 => ⟨S_, .i32⟩
  | 12 => ⟨S128x256x2048, .i32⟩
  | 13 => ⟨S128x256x2049, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S128x256x2048, .i32⟩
  | 21 => ⟨S_, .i32⟩
  | 22 => ⟨S2048, .i32⟩
  | 23 => ⟨S2048, .i1⟩
  | 24 => ⟨S_, .i32⟩
  | 25 => ⟨S2048, .i32⟩
  | 26 => ⟨S2048, .i32⟩
  | 27 => ⟨S2048, .i32⟩
  | 28 => ⟨S2048x1, .i32⟩
  | 29 => ⟨S1, .i32⟩
  | 30 => ⟨S_, .i32⟩
  | 31 => ⟨S2048x1, .i32⟩
  | 32 => ⟨S2048x1, .i1⟩
  | 33 => ⟨S1x1, .i32⟩
  | 34 => ⟨S2048x1, .i32⟩
  | 35 => ⟨S2048x1, .i1⟩
  | 36 => ⟨S2048x1, .i1⟩
  | 37 => ⟨S_, .i1⟩
  | 38 => ⟨S2048, .i1⟩
  | 39 => ⟨S128x256x2048, .i32⟩
  | 40 => ⟨S128x256x2048, .i1⟩
  | 41 => ⟨S_, .i32⟩
  | 42 => ⟨S128x256x2048, .i32⟩
  | 43 => ⟨S128x256x2048, .i32⟩
  | 44 => ⟨S128x256x2048, .i32⟩
  | 45 => ⟨S_, .i32⟩
  | 46 => ⟨S128x256x2048, .i32⟩
  | 47 => ⟨S128x256x2048, .i1⟩
  | 48 => ⟨S128x256x2048, .i1⟩
  | 49 => ⟨S128x256x2048, .i32⟩
  | 50 => ⟨S_, .i32⟩
  | 51 => ⟨S128x256, .i32⟩
  | 52 => ⟨S128x256x2048, .i32⟩
  | 53 => ⟨S_, .i32⟩
  | 54 => ⟨S_, .i32⟩
  | 55 => ⟨S128x256x2048, .i32⟩
  | 56 => ⟨S_, .i32⟩
  | 57 => ⟨S128x256x2048, .i32⟩
  | 58 => ⟨S128x256x2048, .i32⟩
  | 59 => ⟨S_, .i32⟩
  | 60 => ⟨S_, .i32⟩
  | 61 => ⟨S_, .i32⟩
  | 62 => ⟨S128x256x2048, .i32⟩
  | 63 => ⟨S128x256x2048, .i32⟩
  | 64 => ⟨S_, .i32⟩
  | 65 => ⟨S128x256x2048, .i32⟩
  | 66 => ⟨S128x256x2048, .i32⟩
  | 67 => ⟨S32768, .i32⟩
  | 68 => ⟨S128x256x1, .i32⟩
  | 69 => ⟨S_, .i32⟩
  | 70 => ⟨S128x256x1, .i32⟩
  | 71 => ⟨S128x256x1, .i32⟩
  | 72 => ⟨S128x256x2048, .i32⟩
  | 73 => ⟨S128x256x2048, .i32⟩
  | 74 => ⟨S67108864, .i32⟩
  | 75 => ⟨S128x256x2048, .i32⟩
  | 76 => ⟨S67108864, .i32⟩
  | 77 => ⟨S_, .i32⟩
  | 78 => ⟨S16777216, .i32⟩
  | 79 => ⟨S67108864x1, .i32⟩
  | 80 => ⟨S16777216, .i32⟩
  | 81 => ⟨S128x256x512, .i32⟩
  | 82 => ⟨S_, .i32⟩
  | 83 => ⟨S_, .i32⟩
  | 84 => ⟨S128x256x2048, .i32⟩
  | 85 => ⟨S128x256x2048, .i32⟩
  | 86 => ⟨S67108864, .i32⟩
  | 87 => ⟨S_, .i32⟩
  | 88 => ⟨S16777216, .i32⟩
  | 89 => ⟨S67108864x1, .i32⟩
  | 90 => ⟨S16777216, .i32⟩
  | 91 => ⟨S128x256x512, .i32⟩
  | 92 => ⟨S_, .i32⟩
  | 93 => ⟨S_, .i32⟩
  | 94 => ⟨S128x256x2048, .i32⟩
  | 95 => ⟨S128x256x2048, .i32⟩
  | 96 => ⟨S67108864, .i32⟩
  | 97 => ⟨S_, .i32⟩
  | 98 => ⟨S16777216, .i32⟩
  | 99 => ⟨S67108864x1, .i32⟩
  | 100 => ⟨S16777216, .i32⟩
  | 101 => ⟨S128x256x512, .i32⟩
  | 102 => ⟨S512, .i32⟩
  | 103 => ⟨S1x1x512, .i32⟩
  | 104 => ⟨S128x256x1, .i32⟩
  | 105 => ⟨S128x256x512, .i32⟩
  | 106 => ⟨S128x256x512, .i32⟩
  | 107 => ⟨S128x256x512, .i1⟩
  | 108 => ⟨S_, .i32⟩
  | 109 => ⟨S_, .i32⟩
  | 110 => ⟨S128x256x512, .i32⟩
  | 111 => ⟨S128x256x512, .i32⟩
  | 112 => ⟨S128x256x512, .i32⟩
  | 113 => ⟨S_, .i32⟩
  | 114 => ⟨S_, .i32⟩
  | 115 => ⟨S128x256, .i32⟩
  | 116 => ⟨S128x256, .i32⟩
  | 117 => ⟨S128x256x1, .i32⟩
  | 118 => ⟨S_, .i32⟩
  | 119 => ⟨S128x256x1, .i32⟩
  | 120 => ⟨S128x256x1, .i1⟩
  | 121 => ⟨S_, .i32⟩
  | 122 => ⟨S128x256x1, .i32⟩
  | 123 => ⟨S128x256x1, .i32⟩
  | 124 => ⟨S128x256x1, .i32⟩
  | 125 => ⟨S128x256x1x1, .i32⟩
  | 126 => ⟨S1, .i32⟩
  | 127 => ⟨S_, .i32⟩
  | _ => ⟨S128x256x2048, .f32⟩

abbrev hbmTy0_1 (i : Nat) : BufTy := match i % 128 with
  | 0 => ⟨S128x256x1x1, .i32⟩
  | 1 => ⟨S128x256x1x1, .i1⟩
  | 2 => ⟨S1x1x1x1, .i32⟩
  | 3 => ⟨S128x256x1x1, .i32⟩
  | 4 => ⟨S128x256x1x1, .i1⟩
  | 5 => ⟨S128x256x1x1, .i1⟩
  | 6 => ⟨S_, .i1⟩
  | 7 => ⟨S128x256x1, .i1⟩
  | 8 => ⟨S128x256x1, .i32⟩
  | 9 => ⟨S_, .i32⟩
  | 10 => ⟨S128x256x1, .i32⟩
  | 11 => ⟨S128x256x1, .i32⟩
  | 12 => ⟨S128x256, .i32⟩
  | 13 => ⟨S128x256x1, .i32⟩
  | 14 => ⟨S_, .i32⟩
  | 15 => ⟨S128x256x1, .i32⟩
  | 16 => ⟨S128x256x1, .i1⟩
  | 17 => ⟨S_, .i32⟩
  | 18 => ⟨S128x256x1, .i32⟩
  | 19 => ⟨S128x256x1, .i32⟩
  | 20 => ⟨S128x256x1, .i32⟩
  | 21 => ⟨S128x256x1x1, .i32⟩
  | 22 => ⟨S1, .i32⟩
  | 23 => ⟨S_, .i32⟩
  | 24 => ⟨S128x256x1x1, .i32⟩
  | 25 => ⟨S128x256x1x1, .i1⟩
  | 26 => ⟨S1x1x1x1, .i32⟩
  | 27 => ⟨S128x256x1x1, .i32⟩
  | 28 => ⟨S128x256x1x1, .i1⟩
  | 29 => ⟨S128x256x1x1, .i1⟩
  | 30 => ⟨S_, .i1⟩
  | 31 => ⟨S128x256x1, .i1⟩
  | 32 => ⟨S128x256x1, .i32⟩
  | 33 => ⟨S_, .i32⟩
  | 34 => ⟨S128x256x1, .i32⟩
  | 35 => ⟨S128x256x1, .i32⟩
  | 36 => ⟨S128x256, .i32⟩
  | 37 => ⟨S_, .i32⟩
  | 38 => ⟨S128x256, .i32⟩
  | 39 => ⟨S128x256, .i1⟩
  | 40 => ⟨S128x256, .i32⟩
  | 41 => ⟨S256, .i32⟩
  | 42 => ⟨S1x256, .i32⟩
  | 43 => ⟨S128x1, .i32⟩
  | 44 => ⟨S128x256, .i32⟩
  | 45 => ⟨S128x256, .i32⟩
  | 46 => ⟨S128x256, .i1⟩
  | 47 => ⟨S128x256, .i32⟩
  | 48 => ⟨S32768x2048, .f32⟩
  | 49 => ⟨S32768x1, .i32⟩
  | 50 => ⟨S32768x1, .i32⟩
  | 51 => ⟨S32768x1, .i32⟩
  | 52 => ⟨S32768x1, .i32⟩
  | 53 => ⟨S32768x1, .f32⟩
  | 54 => ⟨S_, .f32⟩
  | 55 => ⟨S_, .f32⟩
  | 56 => ⟨S128x256, .f32⟩
  | _ => ⟨S128x256x2048, .f32⟩

abbrev hbmTy (i : Nat) : BufTy := match i / 128 with
  | 0 => hbmTy0_0 i
  | 1 => hbmTy0_1 i
  | _ => ⟨S128x256x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S512x1, .i32⟩
  | .local _ .vmem, ⟨9, _⟩ => ⟨S512x1, .i32⟩
  | .local _ .vmem, ⟨10, _⟩ => ⟨S512x1, .f32⟩
  | .local _ .vmem, ⟨11, _⟩ => ⟨S512x1, .f32⟩
  | _, _ => ⟨S128x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_c_4 : Ref sig .tc := ⟨.hbm, 41, rfl⟩
abbrev main_call1_v15 : Ref sig .tc := ⟨.hbm, 42, rfl⟩
abbrev main_v12 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_call2_call0_c : Ref sig .tc := ⟨.hbm, 53, rfl⟩
abbrev main_call2_call0_v0 : Ref sig .tc := ⟨.hbm, 54, rfl⟩
abbrev main_v20 : Ref sig .tc := ⟨.hbm, 55, rfl⟩
abbrev main_c_4 : Ref sig .tc := ⟨.hbm, 56, rfl⟩
abbrev main_v21 : Ref sig .tc := ⟨.hbm, 57, rfl⟩
abbrev main_v22 : Ref sig .tc := ⟨.hbm, 58, rfl⟩
abbrev main_c_5 : Ref sig .tc := ⟨.hbm, 59, rfl⟩
abbrev main_c_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_7 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_8 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_c_9 : Ref sig .tc := ⟨.hbm, 82, rfl⟩
abbrev main_call4_v0 : Ref sig .tc := ⟨.hbm, 83, rfl⟩
abbrev main_call4_v1 : Ref sig .tc := ⟨.hbm, 84, rfl⟩
abbrev main_v37 : Ref sig .tc := ⟨.hbm, 85, rfl⟩
abbrev main_v38 : Ref sig .tc := ⟨.hbm, 86, rfl⟩
abbrev main_c_10 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c_11 : Ref sig .tc := ⟨.hbm, 92, rfl⟩
abbrev main_call5_v0 : Ref sig .tc := ⟨.hbm, 93, rfl⟩
abbrev main_call5_v1 : Ref sig .tc := ⟨.hbm, 94, rfl⟩
abbrev main_v43 : Ref sig .tc := ⟨.hbm, 95, rfl⟩
abbrev main_v44 : Ref sig .tc := ⟨.hbm, 96, rfl⟩
abbrev main_c_12 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_c_13 : Ref sig .tc := ⟨.hbm, 108, rfl⟩
abbrev main_call6_v0 : Ref sig .tc := ⟨.hbm, 109, rfl⟩
abbrev main_call6_v1 : Ref sig .tc := ⟨.hbm, 110, rfl⟩
abbrev main_v55 : Ref sig .tc := ⟨.hbm, 111, rfl⟩
abbrev main_call7_v0 : Ref sig .tc := ⟨.hbm, 112, rfl⟩
abbrev main_call7_c : Ref sig .tc := ⟨.hbm, 113, rfl⟩
abbrev main_call7_c_0 : Ref sig .tc := ⟨.hbm, 114, rfl⟩
abbrev main_call7_v1_0 : Ref sig .tc := ⟨.hbm, 115, rfl⟩
abbrev main_v56 : Ref sig .tc := ⟨.hbm, 116, rfl⟩
abbrev main_v57 : Ref sig .tc := ⟨.hbm, 117, rfl⟩
abbrev main_call8_c : Ref sig .tc := ⟨.hbm, 118, rfl⟩
abbrev main_call8_v0 : Ref sig .tc := ⟨.hbm, 119, rfl⟩
abbrev main_call8_v1 : Ref sig .tc := ⟨.hbm, 120, rfl⟩
abbrev main_call8_c_0 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_call8_v5 : Ref sig .tc := ⟨.hbm, 125, rfl⟩
abbrev main_call8_c_1 : Ref sig .tc := ⟨.hbm, 126, rfl⟩
abbrev main_call8_c_2 : Ref sig .tc := ⟨.hbm, 127, rfl⟩
abbrev main_call8_v6 : Ref sig .tc := ⟨.hbm, 128, rfl⟩
abbrev main_call8_v7 : Ref sig .tc := ⟨.hbm, 129, rfl⟩
abbrev main_call8_v8 : Ref sig .tc := ⟨.hbm, 130, rfl⟩
abbrev main_call8_v9 : Ref sig .tc := ⟨.hbm, 131, rfl⟩
abbrev main_call8_v10 : Ref sig .tc := ⟨.hbm, 132, rfl⟩
abbrev main_call8_v11 : Ref sig .tc := ⟨.hbm, 133, rfl⟩
abbrev main_call8_c_3 : Ref sig .tc := ⟨.hbm, 134, rfl⟩
abbrev main_call8_v12 : Ref sig .tc := ⟨.hbm, 135, rfl⟩
abbrev main_call8_v13 : Ref sig .tc := ⟨.hbm, 136, rfl⟩
abbrev main_call8_c_4 : Ref sig .tc := ⟨.hbm, 137, rfl⟩
abbrev main_call8_v14 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_call9_c : Ref sig .tc := ⟨.hbm, 142, rfl⟩
abbrev main_call9_v0 : Ref sig .tc := ⟨.hbm, 143, rfl⟩
abbrev main_call9_v1 : Ref sig .tc := ⟨.hbm, 144, rfl⟩
abbrev main_call9_c_0 : Ref sig .tc := ⟨.hbm, 145, rfl⟩
abbrev main_call9_v2 : Ref sig .tc := ⟨.hbm, 146, rfl⟩
abbrev main_call9_v3 : Ref sig .tc := ⟨.hbm, 147, rfl⟩
abbrev main_call9_v4 : Ref sig .tc := ⟨.hbm, 148, rfl⟩
abbrev main_call9_v5 : Ref sig .tc := ⟨.hbm, 149, rfl⟩
abbrev main_call9_c_1 : Ref sig .tc := ⟨.hbm, 150, rfl⟩
abbrev main_call9_c_2 : Ref sig .tc := ⟨.hbm, 151, rfl⟩
abbrev main_call9_v6 : Ref sig .tc := ⟨.hbm, 152, rfl⟩
abbrev main_call9_v7 : Ref sig .tc := ⟨.hbm, 153, rfl⟩
abbrev main_call9_v8 : Ref sig .tc := ⟨.hbm, 154, rfl⟩
abbrev main_call9_v9 : Ref sig .tc := ⟨.hbm, 155, rfl⟩
abbrev main_call9_v10 : Ref sig .tc := ⟨.hbm, 156, rfl⟩
abbrev main_call9_v11 : Ref sig .tc := ⟨.hbm, 157, rfl⟩
abbrev main_call9_c_3 : Ref sig .tc := ⟨.hbm, 158, rfl⟩
abbrev main_call9_v12 : Ref sig .tc := ⟨.hbm, 159, rfl⟩
abbrev main_call9_v13 : Ref sig .tc := ⟨.hbm, 160, rfl⟩
abbrev main_call9_c_4 : Ref sig .tc := ⟨.hbm, 161, rfl⟩
abbrev main_call9_v14 : Ref sig .tc := ⟨.hbm, 162, rfl⟩
abbrev main_v61 : Ref sig .tc := ⟨.hbm, 163, rfl⟩
abbrev main_v62 : Ref sig .tc := ⟨.hbm, 164, rfl⟩
abbrev main_c_14 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_cst_15 : Ref sig .tc := ⟨.hbm, 182, rfl⟩
abbrev main_v79 : Ref sig .tc := ⟨.hbm, 183, rfl⟩
abbrev main_v80 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128x256x2048 : S_.BroadcastsInDim S128x256x2048 (![] : Fin 0 → Fin S128x256x2048.rank)
  natLt_1_32 : 1 < 32
  bcast_S_S128x256x1 : S_.BroadcastsInDim S128x256x1 (![] : Fin 0 → Fin S128x256x1.rank)
  bcast_S_S_ : S_.BroadcastsInDim S_ (![] : Fin 0 → Fin S_.rank)
  reduceWindows_S128x256x2048_S128x256x2048_w1s1p0_0_w1s1p0_0_w2048s1p2047_0 : S128x256x2048.ReduceWindows (![1, 1, 2048] : Fin 3 → Nat) ![1, 1, 1] ![0, 0, 2047] ![0, 0, 0] S128x256x2048
  h_S_ : 0 < S_.numel
  concatenates_S128x256x1_S128x256x2048_S128x256x2049_d2 : Shape.Concatenates [S128x256x1, S128x256x2048] S128x256x2049 2
  bcast_S_S2048 : S_.BroadcastsInDim S2048 (![] : Fin 0 → Fin S2048.rank)
  slices_S128x256x2049_S128x256x2048_0_0_0 : S128x256x2049.Slices ![0, 0, 0] S128x256x2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S128x256x2048_2 : S2048.BroadcastsInDim S128x256x2048 (![2] : Fin 1 → Fin S128x256x2048.rank)
  reducesTo_S128x256x2048_S128x256_d2 : S128x256x2048.ReducesTo [2] S128x256
  shapeCasts_S32768_S128x256x1 : S32768.ShapeCasts S128x256x1
  bcast_S128x256x1_S128x256x2048_0_1_2 : S128x256x1.BroadcastsInDim S128x256x2048 (![0, 1, 2] : Fin 3 → Fin S128x256x2048.rank)
  shapeCasts_S128x256x2048_S67108864 : S128x256x2048.ShapeCasts S67108864
  bcast_S_S16777216 : S_.BroadcastsInDim S16777216 (![] : Fin 0 → Fin S16777216.rank)
  bcast_S67108864_S67108864x1_0 : S67108864.BroadcastsInDim S67108864x1 (![0] : Fin 1 → Fin S67108864x1.rank)
  shapeCasts_S16777216_S128x256x512 : S16777216.ShapeCasts S128x256x512
  bcast_S512_S1x1x512_2 : S512.BroadcastsInDim S1x1x512 (![2] : Fin 1 → Fin S1x1x512.rank)
  bcast_S128x256_S128x256x1_0_1 : S128x256.BroadcastsInDim S128x256x1 (![0, 1] : Fin 2 → Fin S128x256x1.rank)
  bcast_S1x1x512_S128x256x512_0_1_2 : S1x1x512.BroadcastsInDim S128x256x512 (![0, 1, 2] : Fin 3 → Fin S128x256x512.rank)
  bcast_S128x256x1_S128x256x512_0_1_2 : S128x256x1.BroadcastsInDim S128x256x512 (![0, 1, 2] : Fin 3 → Fin S128x256x512.rank)
  bcast_S_S128x256x512 : S_.BroadcastsInDim S128x256x512 (![] : Fin 0 → Fin S128x256x512.rank)
  reducesTo_S128x256x512_S128x256_d2 : S128x256x512.ReducesTo [2] S128x256
  shapeCasts_S128x256x1_S128x256x1x1 : S128x256x1.ShapeCasts S128x256x1x1
  bcast_S_S128x256x1x1 : S_.BroadcastsInDim S128x256x1x1 (![] : Fin 0 → Fin S128x256x1x1.rank)
  bcast_S1_S1x1x1x1_3 : S1.BroadcastsInDim S1x1x1x1 (![3] : Fin 1 → Fin S1x1x1x1.rank)
  bcast_S1x1x1x1_S128x256x1x1_0_1_2_3 : S1x1x1x1.BroadcastsInDim S128x256x1x1 (![0, 1, 2, 3] : Fin 4 → Fin S128x256x1x1.rank)
  reducesTo_S128x256x1x1_S128x256x1_d3 : S128x256x1x1.ReducesTo [3] S128x256x1
  shapeCasts_S128x256x1_S128x256 : S128x256x1.ShapeCasts S128x256
  bcast_S_S128x256 : S_.BroadcastsInDim S128x256 (![] : Fin 0 → Fin S128x256.rank)
  bcast_S256_S1x256_1 : S256.BroadcastsInDim S1x256 (![1] : Fin 1 → Fin S1x256.rank)
  bcast_S128_S128x1_0 : S128.BroadcastsInDim S128x1 (![0] : Fin 1 → Fin S128x1.rank)
  bcast_S1x256_S128x256_0_1 : S1x256.BroadcastsInDim S128x256 (![0, 1] : Fin 2 → Fin S128x256.rank)
  bcast_S128x1_S128x256_0_1 : S128x1.BroadcastsInDim S128x256 (![0, 1] : Fin 2 → Fin S128x256.rank)
  shapeCasts_S128x256x2048_S32768x2048 : S128x256x2048.ShapeCasts S32768x2048
  shapeCasts_S128x256_S32768x1 : S128x256.ShapeCasts S32768x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  broadcasts_S512x1_S512x2048 : S512x1.Broadcasts S512x2048
  reduces_S512x2048_S512 : S512x2048.Reduces [1] S512
  shapeCasts_S512_S512x1 : S512.ShapeCasts S512x1
  reducesTo_S32768x1_S_d0_1 : S32768x1.ReducesTo [0, 1] S_
  gather_S128x256x2049_S2048x1_S128x256x2048_01_2_n_n_2_1_1282561_wf : GatherDims.WF S128x256x2049 S2048x1 S128x256x2048 [0, 1] [2] [] [2] [] 1 ![128, 256, 1]
  scatter_S16777216_S67108864x1_S67108864_n_0_0_1_wf : ScatterDims.WF S16777216 S67108864x1 S67108864 [] [0] [0] 1
  gather_S128x256x512_S128x256x1x1_S128x256x1_n_2_01_01_2_3_111_wf : GatherDims.WF S128x256x512 S128x256x1x1 S128x256x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .i32 = 32 ∨ (Rect.block (s := S32768x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S32768x1.size a
  hwx0_3 : ∀ i : grid0.Coords, EltTy.bits .i32 = 32 ∨ (Rect.block (s := S32768x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S32768x1.size a
  hwx0_4 : ∀ i : grid0.Coords, EltTy.bits .i32 = 32 ∨ (Rect.block (s := S32768x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S32768x1.size a
  hwx0_5 : ∀ i : grid0.Coords, EltTy.bits .f32 = 32 ∨ (Rect.block (s := S32768x1) S512x1.size (cc0_transform_5 i) (hinb0_5 i)).WholeWords (EltTy.packing .f32)

variable [Facts₀]

def gather_S128x256x2049_S2048x1_S128x256x2048_01_2_n_n_2_1_1282561 : GatherDims S128x256x2049 S2048x1 S128x256x2048 where
  offsetDims := [0, 1]
  collapsedSliceDims := [2]
  operandBatchingDims := []
  startIndicesBatchingDims := []
  startIndexMap := [2]
  indexVectorDim := 1
  sliceSizes := ![128, 256, 1]
  wf := gather_S128x256x2049_S2048x1_S128x256x2048_01_2_n_n_2_1_1282561_wf
def scatter_S16777216_S67108864x1_S67108864_n_0_0_1 : ScatterDims S16777216 S67108864x1 S67108864 where
  updateWindowDims := []
  insertedWindowDims := [0]
  scatterDimsToOperandDims := [0]
  indexVectorDim := 1
  wf := scatter_S16777216_S67108864x1_S67108864_n_0_0_1_wf
def reducer_argmin_i32_i32 : BitVec 32 × BitVec 32 → BitVec 32 × BitVec 32 → BitVec 32 × BitVec 32 :=
  fun a b =>
    let v2 := IntOp.cmpi .slt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S128x256x512_S128x256x1x1_S128x256x1_n_2_01_01_2_3_111 : GatherDims S128x256x512 S128x256x1x1 S128x256x1 where
  offsetDims := []
  collapsedSliceDims := [2]
  operandBatchingDims := [0, 1]
  startIndicesBatchingDims := [0, 1]
  startIndexMap := [2]
  indexVectorDim := 3
  sliceSizes := ![1, 1, 1]
  wf := gather_S128x256x512_S128x256x1x1_S128x256x1_n_2_01_01_2_3_111_wf

abbrev win0_0 : Pipeline.Window sig grid0 :=
  Pipeline.Window.ofSpec (Memref.whole main_v73) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v76) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v77) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v78) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x256x2048 : Shape := ⟨3, ![128, 256, 2048]⟩
abbrev S128 : Shape := ⟨1, ![128]⟩
abbrev S2048 : Shape := ⟨1, ![2048]⟩
abbrev S_ : Shape := ⟨0, ![]⟩
abbrev S128x256x1 : Shape := ⟨3, ![128, 256, 1]⟩
abbrev S128x256x2049 : Shape := ⟨3, ![128, 256, 2049]⟩
abbrev S2048x1 : Shape := ⟨2, ![2048, 1]⟩
abbrev S1 : Shape := ⟨1, ![1]⟩
abbrev S1x1 : Shape := ⟨2, ![1, 1]⟩
abbrev S128x256 : Shape := ⟨2, ![128, 256]⟩
abbrev S32768 : Shape := ⟨1, ![32768]⟩
abbrev S67108864 : Shape := ⟨1, ![67108864]⟩
abbrev S16777216 : Shape := ⟨1, ![16777216]⟩
abbrev S67108864x1 : Shape := ⟨2, ![67108864, 1]⟩
abbrev S128x256x512 : Shape := ⟨3, ![128, 256, 512]⟩
abbrev S512 : Shape := ⟨1, ![512]⟩
abbrev S1x1x512 : Shape := ⟨3, ![1, 1, 512]⟩
abbrev S128x256x1x1 : Shape := ⟨4, ![128, 256, 1, 1]⟩
abbrev S1x1x1x1 : Shape := ⟨4, ![1, 1, 1, 1]⟩
abbrev S256 : Shape := ⟨1, ![256]⟩
abbrev S1x256 : Shape := ⟨2, ![1, 256]⟩
abbrev S128x1 : Shape := ⟨2, ![128, 1]⟩

abbrev nBuf : Space → Nat
  | .hbm => 220
  | .vmem => 0
  | .smem => 0
  | _ => 0

abbrev hbmTy0_0 (i : Nat) : BufTy := match i % 128 with
  | 0 => ⟨S128x256x2048, .f32⟩
  | 1 => ⟨S128x256x2048, .f32⟩
  | 2 => ⟨S128, .i32⟩
  | 3 => ⟨S2048, .i32⟩
  | 4 => ⟨S_, .f32⟩
  | 5 => ⟨S128x256x2048, .f32⟩
  | 6 => ⟨S128x256x2048, .i1⟩
  | 7 => ⟨S128x256x2048, .i32⟩
  | 8 => ⟨S_, .i32⟩
  | 9 => ⟨S128x256x1, .i32⟩
  | 10 => ⟨S_, .i32⟩
  | 11 => ⟨S_, .i32⟩
  | 12 => ⟨S128x256x2048, .i32⟩
  | 13 => ⟨S128x256x2049, .i32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S128x256x2048, .i32⟩
  | 21 => ⟨S_, .i32⟩
  | 22 => ⟨S2048, .i32⟩
  | 23 => ⟨S2048, .i1⟩
  | 24 => ⟨S_, .i32⟩
  | 25 => ⟨S2048, .i32⟩
  | 26 => ⟨S2048, .i32⟩
  | 27 => ⟨S2048, .i32⟩
  | 28 => ⟨S2048x1, .i32⟩
  | 29 => ⟨S1, .i32⟩
  | 30 => ⟨S_, .i32⟩
  | 31 => ⟨S2048x1, .i32⟩
  | 32 => ⟨S2048x1, .i1⟩
  | 33 => ⟨S1x1, .i32⟩
  | 34 => ⟨S2048x1, .i32⟩
  | 35 => ⟨S2048x1, .i1⟩
  | 36 => ⟨S2048x1, .i1⟩
  | 37 => ⟨S_, .i1⟩
  | 38 => ⟨S2048, .i1⟩
  | 39 => ⟨S128x256x2048, .i32⟩
  | 40 => ⟨S128x256x2048, .i1⟩
  | 41 => ⟨S_, .i32⟩
  | 42 => ⟨S128x256x2048, .i32⟩
  | 43 => ⟨S128x256x2048, .i32⟩
  | 44 => ⟨S128x256x2048, .i32⟩
  | 45 => ⟨S_, .i32⟩
  | 46 => ⟨S128x256x2048, .i32⟩
  | 47 => ⟨S128x256x2048, .i1⟩
  | 48 => ⟨S128x256x2048, .i1⟩
  | 49 => ⟨S128x256x2048, .i32⟩
  | 50 => ⟨S_, .i32⟩
  | 51 => ⟨S128x256, .i32⟩
  | 52 => ⟨S128x256x2048, .i32⟩
  | 53 => ⟨S_, .i32⟩
  | 54 => ⟨S_, .i32⟩
  | 55 => ⟨S128x256x2048, .i32⟩
  | 56 => ⟨S_, .i32⟩
  | 57 => ⟨S128x256x2048, .i32⟩
  | 58 => ⟨S128x256x2048, .i32⟩
  | 59 => ⟨S_, .i32⟩
  | 60 => ⟨S_, .i32⟩
  | 61 => ⟨S_, .i32⟩
  | 62 => ⟨S128x256x2048, .i32⟩
  | 63 => ⟨S128x256x2048, .i32⟩
  | 64 => ⟨S_, .i32⟩
  | 65 => ⟨S128x256x2048, .i32⟩
  | 66 => ⟨S128x256x2048, .i32⟩
  | 67 => ⟨S32768, .i32⟩
  | 68 => ⟨S128x256x1, .i32⟩
  | 69 => ⟨S_, .i32⟩
  | 70 => ⟨S128x256x1, .i32⟩
  | 71 => ⟨S128x256x1, .i32⟩
  | 72 => ⟨S128x256x2048, .i32⟩
  | 73 => ⟨S128x256x2048, .i32⟩
  | 74 => ⟨S67108864, .i32⟩
  | 75 => ⟨S128x256x2048, .i32⟩
  | 76 => ⟨S67108864, .i32⟩
  | 77 => ⟨S_, .i32⟩
  | 78 => ⟨S16777216, .i32⟩
  | 79 => ⟨S67108864x1, .i32⟩
  | 80 => ⟨S16777216, .i32⟩
  | 81 => ⟨S128x256x512, .i32⟩
  | 82 => ⟨S_, .i32⟩
  | 83 => ⟨S_, .i32⟩
  | 84 => ⟨S128x256x2048, .i32⟩
  | 85 => ⟨S128x256x2048, .i32⟩
  | 86 => ⟨S67108864, .i32⟩
  | 87 => ⟨S_, .i32⟩
  | 88 => ⟨S16777216, .i32⟩
  | 89 => ⟨S67108864x1, .i32⟩
  | 90 => ⟨S16777216, .i32⟩
  | 91 => ⟨S128x256x512, .i32⟩
  | 92 => ⟨S_, .i32⟩
  | 93 => ⟨S_, .i32⟩
  | 94 => ⟨S128x256x2048, .i32⟩
  | 95 => ⟨S128x256x2048, .i32⟩
  | 96 => ⟨S67108864, .i32⟩
  | 97 => ⟨S_, .i32⟩
  | 98 => ⟨S16777216, .i32⟩
  | 99 => ⟨S67108864x1, .i32⟩
  | 100 => ⟨S16777216, .i32⟩
  | 101 => ⟨S128x256x512, .i32⟩
  | 102 => ⟨S512, .i32⟩
  | 103 => ⟨S1x1x512, .i32⟩
  | 104 => ⟨S128x256x1, .i32⟩
  | 105 => ⟨S128x256x512, .i32⟩
  | 106 => ⟨S128x256x512, .i32⟩
  | 107 => ⟨S128x256x512, .i1⟩
  | 108 => ⟨S_, .i32⟩
  | 109 => ⟨S_, .i32⟩
  | 110 => ⟨S128x256x512, .i32⟩
  | 111 => ⟨S128x256x512, .i32⟩
  | 112 => ⟨S128x256x512, .i32⟩
  | 113 => ⟨S_, .i32⟩
  | 114 => ⟨S_, .i32⟩
  | 115 => ⟨S128x256, .i32⟩
  | 116 => ⟨S128x256, .i32⟩
  | 117 => ⟨S128x256x1, .i32⟩
  | 118 => ⟨S_, .i32⟩
  | 119 => ⟨S128x256x1, .i32⟩
  | 120 => ⟨S128x256x1, .i1⟩
  | 121 => ⟨S_, .i32⟩
  | 122 => ⟨S128x256x1, .i32⟩
  | 123 => ⟨S128x256x1, .i32⟩
  | 124 => ⟨S128x256x1, .i32⟩
  | 125 => ⟨S128x256x1x1, .i32⟩
  | 126 => ⟨S1, .i32⟩
  | 127 => ⟨S_, .i32⟩
  | _ => ⟨S128x256x2048, .f32⟩

abbrev hbmTy0_1 (i : Nat) : BufTy := match i % 128 with
  | 0 => ⟨S128x256x1x1, .i32⟩
  | 1 => ⟨S128x256x1x1, .i1⟩
  | 2 => ⟨S1x1x1x1, .i32⟩
  | 3 => ⟨S128x256x1x1, .i32⟩
  | 4 => ⟨S128x256x1x1, .i1⟩
  | 5 => ⟨S128x256x1x1, .i1⟩
  | 6 => ⟨S_, .i1⟩
  | 7 => ⟨S128x256x1, .i1⟩
  | 8 => ⟨S128x256x1, .i32⟩
  | 9 => ⟨S_, .i32⟩
  | 10 => ⟨S128x256x1, .i32⟩
  | 11 => ⟨S128x256x1, .i32⟩
  | 12 => ⟨S128x256, .i32⟩
  | 13 => ⟨S128x256x1, .i32⟩
  | 14 => ⟨S_, .i32⟩
  | 15 => ⟨S128x256x1, .i32⟩
  | 16 => ⟨S128x256x1, .i1⟩
  | 17 => ⟨S_, .i32⟩
  | 18 => ⟨S128x256x1, .i32⟩
  | 19 => ⟨S128x256x1, .i32⟩
  | 20 => ⟨S128x256x1, .i32⟩
  | 21 => ⟨S128x256x1x1, .i32⟩
  | 22 => ⟨S1, .i32⟩
  | 23 => ⟨S_, .i32⟩
  | 24 => ⟨S128x256x1x1, .i32⟩
  | 25 => ⟨S128x256x1x1, .i1⟩
  | 26 => ⟨S1x1x1x1, .i32⟩
  | 27 => ⟨S128x256x1x1, .i32⟩
  | 28 => ⟨S128x256x1x1, .i1⟩
  | 29 => ⟨S128x256x1x1, .i1⟩
  | 30 => ⟨S_, .i1⟩
  | 31 => ⟨S128x256x1, .i1⟩
  | 32 => ⟨S128x256x1, .i32⟩
  | 33 => ⟨S_, .i32⟩
  | 34 => ⟨S128x256x1, .i32⟩
  | 35 => ⟨S128x256x1, .i32⟩
  | 36 => ⟨S128x256, .i32⟩
  | 37 => ⟨S128x256x1, .i32⟩
  | 38 => ⟨S128x256x2048, .i32⟩
  | 39 => ⟨S128x256x2048, .i1⟩
  | 40 => ⟨S128x256x1, .i32⟩
  | 41 => ⟨S128x256x2048, .i32⟩
  | 42 => ⟨S128x256x2048, .i1⟩
  | 43 => ⟨S128x256x2048, .i1⟩
  | 44 => ⟨S_, .f32⟩
  | 45 => ⟨S128x256x2048, .f32⟩
  | 46 => ⟨S128x256x2048, .i1⟩
  | 47 => ⟨S128x256x2048, .i1⟩
  | 48 => ⟨S128x256x2048, .i32⟩
  | 49 => ⟨S_, .i32⟩
  | 50 => ⟨S128x256, .i32⟩
  | 51 => ⟨S_, .i32⟩
  | 52 => ⟨S128x256, .i32⟩
  | 53 => ⟨S128x256, .i32⟩
  | 54 => ⟨S128x256, .f32⟩
  | 55 => ⟨S_, .f32⟩
  | 56 => ⟨S_, .f32⟩
  | 57 => ⟨S128x256x2048, .f32⟩
  | 58 => ⟨S128x256x2048, .f32⟩
  | 59 => ⟨S_, .f32⟩
  | 60 => ⟨S128x256, .f32⟩
  | 61 => ⟨S128x256, .f32⟩
  | 62 => ⟨S256, .i32⟩
  | 63 => ⟨S1x256, .i32⟩
  | 64 => ⟨S128x1, .i32⟩
  | 65 => ⟨S128x256, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S128x256, .i1⟩
  | 73 => ⟨S128x256, .i1⟩
  | 74 => ⟨S128x256, .i1⟩
  | 75 => ⟨S_, .f32⟩
  | 76 => ⟨S128x256, .f32⟩
  | 77 => ⟨S128x256, .f32⟩
  | 78 => ⟨S_, .f32⟩
  | 79 => ⟨S_, .f32⟩
  | 80 => ⟨S128x256, .f32⟩
  | 81 => ⟨S128x256, .f32⟩
  | 82 => ⟨S_, .f32⟩
  | 83 => ⟨S_, .f32⟩
  | 84 => ⟨S_, .f32⟩
  | 85 => ⟨S_, .f32⟩
  | 86 => ⟨S128x256, .f32⟩
  | 87 => ⟨S128x256, .f32⟩
  | 88 => ⟨S_, .f32⟩
  | 89 => ⟨S_, .f32⟩
  | 90 => ⟨S_, .f32⟩
  | 91 => ⟨S128x256, .f32⟩
  | _ => ⟨S128x256x2048, .f32⟩

abbrev hbmTy (i : Nat) : BufTy := match i / 128 with
  | 0 => hbmTy0_0 i
  | 1 => hbmTy0_1 i
  | _ => ⟨S128x256x2048, .f32⟩

abbrev bufTy : (tb : Table) → Fin (tcTables nBuf tb) → BufTy
  | .hbm, ⟨i, _⟩ => hbmTy i
  | _, _ => ⟨S128x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_c_4 : Ref sig .tc := ⟨.hbm, 41, rfl⟩
abbrev main_call1_v15 : Ref sig .tc := ⟨.hbm, 42, rfl⟩
abbrev main_v12 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_call2_call0_c : Ref sig .tc := ⟨.hbm, 53, rfl⟩
abbrev main_call2_call0_v0 : Ref sig .tc := ⟨.hbm, 54, rfl⟩
abbrev main_v20 : Ref sig .tc := ⟨.hbm, 55, rfl⟩
abbrev main_c_4 : Ref sig .tc := ⟨.hbm, 56, rfl⟩
abbrev main_v21 : Ref sig .tc := ⟨.hbm, 57, rfl⟩
abbrev main_v22 : Ref sig .tc := ⟨.hbm, 58, rfl⟩
abbrev main_c_5 : Ref sig .tc := ⟨.hbm, 59, rfl⟩
abbrev main_c_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_7 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_8 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_c_9 : Ref sig .tc := ⟨.hbm, 82, rfl⟩
abbrev main_call4_v0 : Ref sig .tc := ⟨.hbm, 83, rfl⟩
abbrev main_call4_v1 : Ref sig .tc := ⟨.hbm, 84, rfl⟩
abbrev main_v37 : Ref sig .tc := ⟨.hbm, 85, rfl⟩
abbrev main_v38 : Ref sig .tc := ⟨.hbm, 86, rfl⟩
abbrev main_c_10 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c_11 : Ref sig .tc := ⟨.hbm, 92, rfl⟩
abbrev main_call5_v0 : Ref sig .tc := ⟨.hbm, 93, rfl⟩
abbrev main_call5_v1 : Ref sig .tc := ⟨.hbm, 94, rfl⟩
abbrev main_v43 : Ref sig .tc := ⟨.hbm, 95, rfl⟩
abbrev main_v44 : Ref sig .tc := ⟨.hbm, 96, rfl⟩
abbrev main_c_12 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_c_13 : Ref sig .tc := ⟨.hbm, 108, rfl⟩
abbrev main_call6_v0 : Ref sig .tc := ⟨.hbm, 109, rfl⟩
abbrev main_call6_v1 : Ref sig .tc := ⟨.hbm, 110, rfl⟩
abbrev main_v55 : Ref sig .tc := ⟨.hbm, 111, rfl⟩
abbrev main_call7_v0 : Ref sig .tc := ⟨.hbm, 112, rfl⟩
abbrev main_call7_c : Ref sig .tc := ⟨.hbm, 113, rfl⟩
abbrev main_call7_c_0 : Ref sig .tc := ⟨.hbm, 114, rfl⟩
abbrev main_call7_v1_0 : Ref sig .tc := ⟨.hbm, 115, rfl⟩
abbrev main_v56 : Ref sig .tc := ⟨.hbm, 116, rfl⟩
abbrev main_v57 : Ref sig .tc := ⟨.hbm, 117, rfl⟩
abbrev main_call8_c : Ref sig .tc := ⟨.hbm, 118, rfl⟩
abbrev main_call8_v0 : Ref sig .tc := ⟨.hbm, 119, rfl⟩
abbrev main_call8_v1 : Ref sig .tc := ⟨.hbm, 120, rfl⟩
abbrev main_call8_c_0 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_call8_v5 : Ref sig .tc := ⟨.hbm, 125, rfl⟩
abbrev main_call8_c_1 : Ref sig .tc := ⟨.hbm, 126, rfl⟩
abbrev main_call8_c_2 : Ref sig .tc := ⟨.hbm, 127, rfl⟩
abbrev main_call8_v6 : Ref sig .tc := ⟨.hbm, 128, rfl⟩
abbrev main_call8_v7 : Ref sig .tc := ⟨.hbm, 129, rfl⟩
abbrev main_call8_v8 : Ref sig .tc := ⟨.hbm, 130, rfl⟩
abbrev main_call8_v9 : Ref sig .tc := ⟨.hbm, 131, rfl⟩
abbrev main_call8_v10 : Ref sig .tc := ⟨.hbm, 132, rfl⟩
abbrev main_call8_v11 : Ref sig .tc := ⟨.hbm, 133, rfl⟩
abbrev main_call8_c_3 : Ref sig .tc := ⟨.hbm, 134, rfl⟩
abbrev main_call8_v12 : Ref sig .tc := ⟨.hbm, 135, rfl⟩
abbrev main_call8_v13 : Ref sig .tc := ⟨.hbm, 136, rfl⟩
abbrev main_call8_c_4 : Ref sig .tc := ⟨.hbm, 137, rfl⟩
abbrev main_call8_v14 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_call9_c : Ref sig .tc := ⟨.hbm, 142, rfl⟩
abbrev main_call9_v0 : Ref sig .tc := ⟨.hbm, 143, rfl⟩
abbrev main_call9_v1 : Ref sig .tc := ⟨.hbm, 144, rfl⟩
abbrev main_call9_c_0 : Ref sig .tc := ⟨.hbm, 145, rfl⟩
abbrev main_call9_v2 : Ref sig .tc := ⟨.hbm, 146, rfl⟩
abbrev main_call9_v3 : Ref sig .tc := ⟨.hbm, 147, rfl⟩
abbrev main_call9_v4 : Ref sig .tc := ⟨.hbm, 148, rfl⟩
abbrev main_call9_v5 : Ref sig .tc := ⟨.hbm, 149, rfl⟩
abbrev main_call9_c_1 : Ref sig .tc := ⟨.hbm, 150, rfl⟩
abbrev main_call9_c_2 : Ref sig .tc := ⟨.hbm, 151, rfl⟩
abbrev main_call9_v6 : Ref sig .tc := ⟨.hbm, 152, rfl⟩
abbrev main_call9_v7 : Ref sig .tc := ⟨.hbm, 153, rfl⟩
abbrev main_call9_v8 : Ref sig .tc := ⟨.hbm, 154, rfl⟩
abbrev main_call9_v9 : Ref sig .tc := ⟨.hbm, 155, rfl⟩
abbrev main_call9_v10 : Ref sig .tc := ⟨.hbm, 156, rfl⟩
abbrev main_call9_v11 : Ref sig .tc := ⟨.hbm, 157, rfl⟩
abbrev main_call9_c_3 : Ref sig .tc := ⟨.hbm, 158, rfl⟩
abbrev main_call9_v12 : Ref sig .tc := ⟨.hbm, 159, rfl⟩
abbrev main_call9_v13 : Ref sig .tc := ⟨.hbm, 160, rfl⟩
abbrev main_call9_c_4 : Ref sig .tc := ⟨.hbm, 161, rfl⟩
abbrev main_call9_v14 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_cst_14 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_c_15 : Ref sig .tc := ⟨.hbm, 177, rfl⟩
abbrev main_v74 : Ref sig .tc := ⟨.hbm, 178, rfl⟩
abbrev main_c_16 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_cst_17 : Ref sig .tc := ⟨.hbm, 183, rfl⟩
abbrev main_call10_v0 : Ref sig .tc := ⟨.hbm, 184, rfl⟩
abbrev main_call10_v1 : Ref sig .tc := ⟨.hbm, 185, rfl⟩
abbrev main_v78 : Ref sig .tc := ⟨.hbm, 186, rfl⟩
abbrev main_cst_18 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_c_19 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_cst_20 : Ref sig .tc := ⟨.hbm, 203, rfl⟩
abbrev main_v93 : Ref sig .tc := ⟨.hbm, 204, rfl⟩
abbrev main_v94 : Ref sig .tc := ⟨.hbm, 205, rfl⟩
abbrev main_cst_21 : Ref sig .tc := ⟨.hbm, 206, rfl⟩
abbrev main_call11_v0 : Ref sig .tc := ⟨.hbm, 207, rfl⟩
abbrev main_call11_v1 : Ref sig .tc := ⟨.hbm, 208, rfl⟩
abbrev main_v95 : Ref sig .tc := ⟨.hbm, 209, rfl⟩
abbrev main_cst_22 : Ref sig .tc := ⟨.hbm, 210, rfl⟩
abbrev main_v96 : Ref sig .tc := ⟨.hbm, 211, rfl⟩
abbrev main_cst_23 : Ref sig .tc := ⟨.hbm, 212, rfl⟩
abbrev main_call12_v0 : Ref sig .tc := ⟨.hbm, 213, rfl⟩
abbrev main_call12_v1 : Ref sig .tc := ⟨.hbm, 214, rfl⟩
abbrev main_v97 : Ref sig .tc := ⟨.hbm, 215, rfl⟩
abbrev main_cst_24 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩

abbrev nD : Nat := 1
abbrev τ : Topo := Topo.v7x

variable {F : FTy → Type} [FloatOps F]

class Facts₀ : Prop where
  bcast_S_S128x256x2048 : S_.BroadcastsInDim S128x256x2048 (![] : Fin 0 → Fin S128x256x2048.rank)
  natLt_1_32 : 1 < 32
  bcast_S_S128x256x1 : S_.BroadcastsInDim S128x256x1 (![] : Fin 0 → Fin S128x256x1.rank)
  bcast_S_S_ : S_.BroadcastsInDim S_ (![] : Fin 0 → Fin S_.rank)
  reduceWindows_S128x256x2048_S128x256x2048_w1s1p0_0_w1s1p0_0_w2048s1p2047_0 : S128x256x2048.ReduceWindows (![1, 1, 2048] : Fin 3 → Nat) ![1, 1, 1] ![0, 0, 2047] ![0, 0, 0] S128x256x2048
  h_S_ : 0 < S_.numel
  concatenates_S128x256x1_S128x256x2048_S128x256x2049_d2 : Shape.Concatenates [S128x256x1, S128x256x2048] S128x256x2049 2
  bcast_S_S2048 : S_.BroadcastsInDim S2048 (![] : Fin 0 → Fin S2048.rank)
  slices_S128x256x2049_S128x256x2048_0_0_0 : S128x256x2049.Slices ![0, 0, 0] S128x256x2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S128x256x2048_2 : S2048.BroadcastsInDim S128x256x2048 (![2] : Fin 1 → Fin S128x256x2048.rank)
  reducesTo_S128x256x2048_S128x256_d2 : S128x256x2048.ReducesTo [2] S128x256
  shapeCasts_S32768_S128x256x1 : S32768.ShapeCasts S128x256x1
  bcast_S128x256x1_S128x256x2048_0_1_2 : S128x256x1.BroadcastsInDim S128x256x2048 (![0, 1, 2] : Fin 3 → Fin S128x256x2048.rank)
  shapeCasts_S128x256x2048_S67108864 : S128x256x2048.ShapeCasts S67108864
  bcast_S_S16777216 : S_.BroadcastsInDim S16777216 (![] : Fin 0 → Fin S16777216.rank)
  bcast_S67108864_S67108864x1_0 : S67108864.BroadcastsInDim S67108864x1 (![0] : Fin 1 → Fin S67108864x1.rank)
  shapeCasts_S16777216_S128x256x512 : S16777216.ShapeCasts S128x256x512
  bcast_S512_S1x1x512_2 : S512.BroadcastsInDim S1x1x512 (![2] : Fin 1 → Fin S1x1x512.rank)
  bcast_S128x256_S128x256x1_0_1 : S128x256.BroadcastsInDim S128x256x1 (![0, 1] : Fin 2 → Fin S128x256x1.rank)
  bcast_S1x1x512_S128x256x512_0_1_2 : S1x1x512.BroadcastsInDim S128x256x512 (![0, 1, 2] : Fin 3 → Fin S128x256x512.rank)
  bcast_S128x256x1_S128x256x512_0_1_2 : S128x256x1.BroadcastsInDim S128x256x512 (![0, 1, 2] : Fin 3 → Fin S128x256x512.rank)
  bcast_S_S128x256x512 : S_.BroadcastsInDim S128x256x512 (![] : Fin 0 → Fin S128x256x512.rank)
  reducesTo_S128x256x512_S128x256_d2 : S128x256x512.ReducesTo [2] S128x256
  shapeCasts_S128x256x1_S128x256x1x1 : S128x256x1.ShapeCasts S128x256x1x1
  bcast_S_S128x256x1x1 : S_.BroadcastsInDim S128x256x1x1 (![] : Fin 0 → Fin S128x256x1x1.rank)
  bcast_S1_S1x1x1x1_3 : S1.BroadcastsInDim S1x1x1x1 (![3] : Fin 1 → Fin S1x1x1x1.rank)
  bcast_S1x1x1x1_S128x256x1x1_0_1_2_3 : S1x1x1x1.BroadcastsInDim S128x256x1x1 (![0, 1, 2, 3] : Fin 4 → Fin S128x256x1x1.rank)
  reducesTo_S128x256x1x1_S128x256x1_d3 : S128x256x1x1.ReducesTo [3] S128x256x1
  shapeCasts_S128x256x1_S128x256 : S128x256x1.ShapeCasts S128x256
  bcast_S_S128x256 : S_.BroadcastsInDim S128x256 (![] : Fin 0 → Fin S128x256.rank)
  bcast_S256_S1x256_1 : S256.BroadcastsInDim S1x256 (![1] : Fin 1 → Fin S1x256.rank)
  bcast_S128_S128x1_0 : S128.BroadcastsInDim S128x1 (![0] : Fin 1 → Fin S128x1.rank)
  bcast_S1x256_S128x256_0_1 : S1x256.BroadcastsInDim S128x256 (![0, 1] : Fin 2 → Fin S128x256.rank)
  bcast_S128x1_S128x256_0_1 : S128x1.BroadcastsInDim S128x256 (![0, 1] : Fin 2 → Fin S128x256.rank)
  reducesTo_S128x256_S_d0_1 : S128x256.ReducesTo [0, 1] S_
  gather_S128x256x2049_S2048x1_S128x256x2048_01_2_n_n_2_1_1282561_wf : GatherDims.WF S128x256x2049 S2048x1 S128x256x2048 [0, 1] [2] [] [2] [] 1 ![128, 256, 1]
  scatter_S16777216_S67108864x1_S67108864_n_0_0_1_wf : ScatterDims.WF S16777216 S67108864x1 S67108864 [] [0] [0] 1
  gather_S128x256x512_S128x256x1x1_S128x256x1_n_2_01_01_2_3_111_wf : GatherDims.WF S128x256x512 S128x256x1x1 S128x256x1 [] [2] [0, 1] [2] [0, 1] 3 ![1, 1, 1]

variable [Facts₀]

def gather_S128x256x2049_S2048x1_S128x256x2048_01_2_n_n_2_1_1282561 : GatherDims S128x256x2049 S2048x1 S128x256x2048 where
  offsetDims := [0, 1]
  collapsedSliceDims := [2]
  operandBatchingDims := []
  startIndicesBatchingDims := []
  startIndexMap := [2]
  indexVectorDim := 1
  sliceSizes := ![128, 256, 1]
  wf := gather_S128x256x2049_S2048x1_S128x256x2048_01_2_n_n_2_1_1282561_wf
def scatter_S16777216_S67108864x1_S67108864_n_0_0_1 : ScatterDims S16777216 S67108864x1 S67108864 where
  updateWindowDims := []
  insertedWindowDims := [0]
  scatterDimsToOperandDims := [0]
  indexVectorDim := 1
  wf := scatter_S16777216_S67108864x1_S67108864_n_0_0_1_wf
def reducer_argmin_i32_i32 : BitVec 32 × BitVec 32 → BitVec 32 × BitVec 32 → BitVec 32 × BitVec 32 :=
  fun a b =>
    let v2 := IntOp.cmpi .slt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S128x256x512_S128x256x1x1_S128x256x1_n_2_01_01_2_3_111 : GatherDims S128x256x512 S128x256x1x1 S128x256x1 where
  offsetDims := []
  collapsedSliceDims := [2]
  operandBatchingDims := [0, 1]
  startIndicesBatchingDims := [0, 1]
  startIndexMap := [2]
  indexVectorDim := 3
  sliceSizes := ![1, 1, 1]
  wf := gather_S128x256x512_S128x256x1x1_S128x256x1_n_2_01_01_2_3_111_wf

class Facts : Prop extends Facts₀ where

variable [Facts]
-- ==== Proof.Spec.lean ====
/-
  The loss of one neuron's voltage trace, row by row.

  A row is a trace x : Fin 2048 → EReal (one neuron of one sample over the 2048 time steps) together with four
  32-bit words computed from the spike clustering: f and l, the first and last time step of the trace's smallest
  spike cluster; h, 1 when the trace has a cluster and 0 otherwise; g, 1 when the neuron is the sample's labelled
  one and 0 otherwise.  Time step t is "in the span" when f ≤ t ≤ l as signed integers and x t > 0.

  * a labelled neuron without a cluster (g = 1, h = 0) contributes minus the maximum of its trace;
  * an unlabelled neuron with a cluster (g = 0, h = 1) contributes the mean of the trace over the span: the sum
    of x t over the span divided by the number of steps in the span, or by one when the span is empty;
  * every other neuron contributes zero.
-/
import Idealize.ShloMosaic.PureOps.Ideal
import Idealize.ShloMosaic.Lib.ValueIdx

noncomputable section

namespace Cert.Spec

open Idealize.ShloMosaic

/-- The word of time step `t`. -/
def stepWord (t : Fin 2048) : BitVec 32 := BitVec.ofNat 32 t.val

/-- One bit: step `t` lies between `f` and `l` (signed) and the trace is positive there. -/
def spanBit (f l : BitVec 32) (x : Fin 2048 → EReal) (t : Fin 2048) : BitVec 1 :=
  IntOp.andi (IntOp.andi (IntOp.cmpi .sge (stepWord t) f) (IntOp.cmpi .sle (stepWord t) l))
    (FloatOps.cmpf (F := Ideal) (φ := .f32) .ogt (x t) (0 : EReal))

/-- The sum of the trace over the span. -/
def spanSum (f l : BitVec 32) (x : Fin 2048 → EReal) : EReal :=
  ∑ t : Fin 2048, Scalar.select (spanBit f l x t) (x t) (0 : EReal)

/-- The number of steps in the span, counted in the reals: each step's bit widened to a word and converted. -/
def spanCount (f l : BitVec 32) (x : Fin 2048 → EReal) : EReal :=
  ∑ t : Fin 2048, FloatOps.sitofp (F := Ideal) .f32 ((spanBit f l x t).setWidth 32)

/-- The mean of the trace over the span (over one step when the span is empty). -/
def spanMean (f l : BitVec 32) (x : Fin 2048 → EReal) : EReal :=
  Ideal.div (spanSum f l x) (max (spanCount f l x) (1 : EReal))

/-- The maximum of the trace, from -∞. -/
def traceMax (x : Fin 2048 → EReal) : EReal := (Finset.univ : Finset (Fin 2048)).fold max (⊥ : EReal) x

/-- Labelled and without a cluster. -/
def missBit (h g : BitVec 32) : BitVec 1 := IntOp.andi (IntOp.cmpi .eq g 1#32) (IntOp.cmpi .eq h 0#32)

/-- Unlabelled and with a cluster. -/
def falsePosBit (h g : BitVec 32) : BitVec 1 := IntOp.andi (IntOp.cmpi .eq g 0#32) (IntOp.cmpi .eq h 1#32)

/-- The row's contribution to the loss. -/
def rowLoss (x : Fin 2048 → EReal) (f l h g : BitVec 32) : EReal :=
  Scalar.select (missBit h g) ((0 : EReal) - traceMax x)
    (Scalar.select (falsePosBit h g) (spanMean f l x) (0 : EReal))

end Cert.Spec

end
-- ==== Proof.KernelRow.lean ====
/-
  One row of the loss kernel's block, read at an index.

  The body loads a block X of 512 traces (512 x 2048 reals) and four columns of 512 words each (the first and
  last step of the smallest spike cluster, the has-a-cluster flag, the is-the-labelled-neuron flag) and stores a
  column of 512 reals.  Row r of what it stores depends on row r of the five blocks only, and is the row loss
  `Cert.Spec.rowLoss` of that row:

  * the step index along the trace is the lane coordinate, so the span bit at (r, t) is the specification's
    `spanBit` of the row's first/last words and of the row's trace at step t;
  * the two lane sums (of the trace over the span, and of the span bits converted to reals) are the sums over
    t : Fin 2048 of the specification's `spanSum` and `spanCount`;
  * the lane maximum, taken from -∞, is the specification's `traceMax`;
  * the column casts [512] -> [512,1] and the row broadcasts [512,1] -> [512,2048] only move coordinates;
  * the literals 0x00000000, 0x3F800000, 0xFF800000 are the extended reals 0, 1 and -∞.
-/
import proofs.«107037_j80504866996731_1_alg».proof.Proof.Gen.KernelIdeal.Skeleton
import proofs.«107037_j80504866996731_1_alg».proof.Proof.Spec
import Idealize.ShloMosaic.Lib.Pipeline.Value
import Idealize.ShloMosaic.Lib.IdealHost

noncomputable section

namespace Cert.KernelIdeal.Hand

open Idealize.ShloMosaic Idealize.ShloMosaic.ValueIdx Cert.KernelIdeal Cert.KernelIdeal.Gen
open scoped BigOperators

/-! ## Literals -/

/-- The f32 pattern `0xFF800000` is -∞. -/
theorem ofBits_negInf_f32 : Ideal.ofBits .f32 0xFF800000#32 = ⊥ := by simp [Ideal.ofBits, Ideal.ieee]

/-! ## Moving coordinates: the column cast, the row broadcast, the step index -/

/-- A vector over the 512 rows viewed as a 512 x 1 column reads row `r`. -/
theorem colCast_apply {α : Type} (v : S512.Idx → α) (r : Fin 512) (q : Fin 1) :
    shapeCast S512x1 v shapeCasts_S512_S512x1 (ix2 r q) = v (ix1 r) := by
  refine shapeCast_apply v _ (ix2 r q) (ix1 r) ?_
  rw [Shape.rowMajor_val_one, Shape.rowMajor_val_two]
  have hq : q.val < 1 := q.isLt
  show r.val = r.val * 1 + q.val
  omega

/-- A 512 x 1 column broadcast along the 2048 steps reads the column's row. -/
theorem rowBcast_apply {α : Type} (v : S512x1.Idx → α) (r : Fin 512) (t : Fin 2048) :
    broadcastTo S512x2048 v broadcasts_S512x1_S512x2048 (ix2 r t) = v (ix2 r 0) := by
  refine broadcastTo_apply v _ (ix2 r t) (ix2 r 0) fun a => ?_
  match a with
  | ⟨0, _⟩ => rfl
  | ⟨1, _⟩ => rfl

/-- The lane index at (r, t) is the word of step `t`. -/
theorem stepIota_apply (r : Fin 512) (t : Fin 2048) :
    iota .tc S512x2048 32 [1] iota_S512x2048_d1_w32 (ix2 r t) = Cert.Spec.stepWord t :=
  (iota_single_apply .tc S512x2048 32 1 iota_S512x2048_d1_w32 (ix2 r t)).trans rfl

/-- The index of row `r` with step `t` inserted is (r, t). -/
theorem lift_row (r : Fin 512) (t : Fin 2048) :
    reduces_S512x2048_S512.lift (ix1 r) t = ix2 r t := by
  funext a
  match a with
  | ⟨0, _⟩ => rfl
  | ⟨1, _⟩ => rfl

/-! ## The lane reductions -/

/-- A lane sum of a 512 x 2048 block at row `r` is the sum over the 2048 steps. -/
theorem laneSum_apply (v : FVec Ideal S512x2048 .f32) (r : Fin 512) :
    multiReduction (F := Ideal) .add [1] S512 v 0x00000000#32 reduces_S512x2048_S512 (.inl rfl) rfl (ix1 r)
      = ∑ t : Fin 2048, v (ix2 r t) := by
  refine (Ideal.multiReduction_add_single v 0x00000000#32 reduces_S512x2048_S512 (.inl rfl) rfl (ix1 r)).trans ?_
  show ∑ t : Fin 2048, v (reduces_S512x2048_S512.lift (ix1 r) t) = _
  exact Finset.sum_congr rfl fun t _ => congrArg v (lift_row r t)

/-- A lane maximum of a 512 x 2048 block at row `r`, from -∞, is the fold of `max` over the 2048 steps. -/
theorem laneMax_apply (v : FVec Ideal S512x2048 .f32) (r : Fin 512) :
    multiReduction (F := Ideal) .maximumf [1] S512 v 0xFF800000#32 reduces_S512x2048_S512 (.inl rfl) rfl (ix1 r)
      = Cert.Spec.traceMax (fun t => v (ix2 r t)) := by
  refine (Ideal.multiReduction_maximumf_single v 0xFF800000#32 reduces_S512x2048_S512 (.inl rfl) rfl (ix1 r)).trans ?_
  unfold Cert.Spec.traceMax
  show (Finset.univ : Finset (Fin 2048)).fold max (Ideal.ofBits .f32 0xFF800000#32) (fun t => v (reduces_S512x2048_S512.lift (ix1 r) t)) = _
  rw [ofBits_negInf_f32]
  exact congrArg (fun f => (Finset.univ : Finset (Fin 2048)).fold max (⊥ : EReal) f) (funext fun t => congrArg v (lift_row r t))

/-! ## The span bits of a block -/

/-- The span bits of a block: at (r, t), step `t` lies between row `r`'s first and last words and the trace is
    positive there. -/
def spanVec (x0 : Vec Ideal S512x2048 .f32) (x1 x2 : Vec Ideal S512x1 .i32) : IVec S512x2048 1 :=
  andi (andi (cmpi .sge (iota .tc S512x2048 32 [1] iota_S512x2048_d1_w32) (broadcastTo S512x2048 x1 broadcasts_S512x1_S512x2048))
      (cmpi .sle (iota .tc S512x2048 32 [1] iota_S512x2048_d1_w32) (broadcastTo S512x2048 x2 broadcasts_S512x1_S512x2048)))
    (cmpf .ogt x0 (broadcast S512x2048 (Scalar.ofBits (F := Ideal) .f32 0x00000000#32)))

/-- At (r, t) it is the specification's span bit of row `r`. -/
theorem spanVec_apply (x0 : Vec Ideal S512x2048 .f32) (x1 x2 : Vec Ideal S512x1 .i32) (r : Fin 512) (t : Fin 2048) :
    spanVec x0 x1 x2 (ix2 r t) = Cert.Spec.spanBit (x1 (ix2 r 0)) (x2 (ix2 r 0)) (fun t => x0 (ix2 r t)) t := by
  unfold spanVec Cert.Spec.spanBit
  show IntOp.andi (IntOp.andi (IntOp.cmpi .sge (iota .tc S512x2048 32 [1] iota_S512x2048_d1_w32 (ix2 r t)) (broadcastTo S512x2048 x1 broadcasts_S512x1_S512x2048 (ix2 r t)))
      (IntOp.cmpi .sle (iota .tc S512x2048 32 [1] iota_S512x2048_d1_w32 (ix2 r t)) (broadcastTo S512x2048 x2 broadcasts_S512x1_S512x2048 (ix2 r t))))
    (FloatOps.cmpf (F := Ideal) (φ := .f32) .ogt (x0 (ix2 r t)) (Ideal.ofBits .f32 0x00000000#32)) = _
  rw [stepIota_apply, rowBcast_apply, rowBcast_apply, Ideal.ofBits_zero_f32]

/-! ## The payloads in closed form and at a row -/

/-- The mean payload: the lane sum of the trace over the span, divided by the lane count of the span or by one. -/
theorem pay5_eq (x0 : Vec Ideal S512x2048 .f32) (x1 x2 : Vec Ideal S512x1 .i32) :
    k0_pay5 (F := Ideal) x0 x1 x2 =
      divf (shapeCast S512x1 (multiReduction (F := Ideal) .add [1] S512 (select (spanVec x0 x1 x2) x0 (broadcast S512x2048 (Scalar.ofBits (F := Ideal) .f32 0x00000000#32))) 0x00000000#32 reduces_S512x2048_S512 (.inl rfl) rfl) shapeCasts_S512_S512x1)
        (maximumf (shapeCast S512x1 (multiReduction (F := Ideal) .add [1] S512 (sitofp (F := Ideal) .f32 (extui 32 (spanVec x0 x1 x2) natLt_1_32)) 0x00000000#32 reduces_S512x2048_S512 (.inl rfl) rfl) shapeCasts_S512_S512x1)
          (broadcast S512x1 (Scalar.ofBits (F := Ideal) .f32 0x3F800000#32))) := by
  unfold k0_pay5 k0_pay2 spanVec
  simp only [shapeCast_self]

/-- At row `r` it is the specification's span mean of the row. -/
theorem pay5_apply (x0 : Vec Ideal S512x2048 .f32) (x1 x2 : Vec Ideal S512x1 .i32) (r : Fin 512) (q : Fin 1) :
    k0_pay5 (F := Ideal) x0 x1 x2 (ix2 r q) = Cert.Spec.spanMean (x1 (ix2 r 0)) (x2 (ix2 r 0)) (fun t => x0 (ix2 r t)) := by
  rw [pay5_eq]
  show Ideal.div (shapeCast S512x1 _ shapeCasts_S512_S512x1 (ix2 r q)) (max (shapeCast S512x1 _ shapeCasts_S512_S512x1 (ix2 r q)) (Ideal.ofBits .f32 0x3F800000#32)) = _
  rw [colCast_apply, colCast_apply, laneSum_apply, laneSum_apply, Ideal.ofBits_one_f32]
  unfold Cert.Spec.spanMean Cert.Spec.spanSum Cert.Spec.spanCount
  have hs : ∀ t : Fin 2048, select (spanVec x0 x1 x2) x0 (broadcast S512x2048 (Scalar.ofBits (F := Ideal) .f32 0x00000000#32)) (ix2 r t)
      = Scalar.select (Cert.Spec.spanBit (x1 (ix2 r 0)) (x2 (ix2 r 0)) (fun t => x0 (ix2 r t)) t) (x0 (ix2 r t)) (0 : EReal) := fun t => by
    show Scalar.select (spanVec x0 x1 x2 (ix2 r t)) (x0 (ix2 r t)) (Ideal.ofBits .f32 0x00000000#32) = _
    rw [spanVec_apply, Ideal.ofBits_zero_f32]
  have hc : ∀ t : Fin 2048, sitofp (F := Ideal) .f32 (extui 32 (spanVec x0 x1 x2) natLt_1_32) (ix2 r t)
      = FloatOps.sitofp (F := Ideal) .f32 ((Cert.Spec.spanBit (x1 (ix2 r 0)) (x2 (ix2 r 0)) (fun t => x0 (ix2 r t)) t).setWidth 32) := fun t => by
    show FloatOps.sitofp (F := Ideal) .f32 ((spanVec x0 x1 x2 (ix2 r t)).setWidth 32) = _
    rw [spanVec_apply]
  simp only [hs, hc]

/-- The maximum payload at row `r` is the specification's trace maximum of the row. -/
theorem pay6_apply (x0 : Vec Ideal S512x2048 .f32) (r : Fin 512) (q : Fin 1) :
    k0_pay6 (F := Ideal) x0 (ix2 r q) = Cert.Spec.traceMax (fun t => x0 (ix2 r t)) := by
  have e : k0_pay6 (F := Ideal) x0 = shapeCast S512x1 (multiReduction (F := Ideal) .maximumf [1] S512 x0 0xFF800000#32 reduces_S512x2048_S512 (.inl rfl) rfl) shapeCasts_S512_S512x1 := by
    unfold k0_pay6 k0_pay2
    simp only [shapeCast_self]
  rw [e, colCast_apply, laneMax_apply]

/-- The has-a-cluster column passes through. -/
theorem pay3_apply (x3 : Vec Ideal S512x1 .i32) (j : S512x1.Idx) : k0_pay3 (F := Ideal) x3 j = x3 j := by
  unfold k0_pay3
  simp only [shapeCast_self]

/-- The miss bit of a row. -/
theorem pay7_apply (x3 x4 : Vec Ideal S512x1 .i32) (j : S512x1.Idx) :
    k0_pay7 (F := Ideal) x3 x4 j = Cert.Spec.missBit (x3 j) (x4 j) := by
  unfold k0_pay7 k0_pay3 k0_pay4 Cert.Spec.missBit
  simp only [shapeCast_self]
  rfl

/-- The unlabelled bit of a row. -/
theorem pay8_apply (x4 : Vec Ideal S512x1 .i32) (j : S512x1.Idx) :
    k0_pay8 (F := Ideal) x4 j = IntOp.cmpi .eq (x4 j) 0#32 := by
  unfold k0_pay8 k0_pay4
  simp only [shapeCast_self]
  rfl

/-- The stored value, from the five payloads, at an index: the two selects of the row loss. -/
theorem pay1_apply (v7 : IVec S512x1 32) (v29 v31 : FVec Ideal S512x1 .f32) (v36 v38 : IVec S512x1 1) (j : S512x1.Idx) :
    k0_pay1 (F := Ideal) v7 v29 v31 v36 v38 1#32 j
      = Scalar.select (v36 j) ((0 : EReal) - v31 j)
          (Scalar.select (IntOp.andi (v38 j) (IntOp.cmpi .eq (v7 j) 1#32)) (v29 j) (0 : EReal)) := by
  unfold k0_pay1
  show Scalar.select (v36 j) (Ideal.ofBits .f32 0x00000000#32 - v31 j)
      (Scalar.select (IntOp.andi (v38 j) (IntOp.cmpi .eq (v7 j) 1#32)) (v29 j) (Ideal.ofBits .f32 0x00000000#32)) = _
  rw [Ideal.ofBits_zero_f32]

/-- ROW `r` OF WHAT THE BODY STORES is the row loss of row `r` of the five loaded blocks. -/
theorem stored_apply (x0 : Vec Ideal S512x2048 .f32) (x1 x2 x3 x4 : Vec Ideal S512x1 .i32) (r : Fin 512) (q : Fin 1) :
    k0_pay1 (F := Ideal) (k0_pay3 x3) (k0_pay5 x0 x1 x2) (k0_pay6 x0) (k0_pay7 x3 x4) (k0_pay8 x4) 1#32 (ix2 r q)
      = Cert.Spec.rowLoss (fun t => x0 (ix2 r t)) (x1 (ix2 r 0)) (x2 (ix2 r 0)) (x3 (ix2 r 0)) (x4 (ix2 r 0)) := by
  obtain rfl : q = 0 := Subsingleton.elim q 0
  rw [pay1_apply, pay3_apply, pay5_apply, pay6_apply, pay7_apply, pay8_apply]
  rfl

end Cert.KernelIdeal.Hand

end
-- ==== Proof.KernelBlocks.lean ====
/-
  From the blocks to the loss column.

  The region's grid has 64 points; at point t every window's block index is (t, 0): the trace window holds rows
  512 t … 512 t + 511 of the 32768 x 2048 trace matrix, each of the four word windows the same rows of its
  32768 x 1 column, and the output window the same rows of the loss column.  So row p of a block at point t is
  row 512 t + p of its array, what point t writes back is block t of ONE function of the five arrays — the row
  loss of each row, `lossColumn` — and the 64 blocks cover the column (row r lies in block r / 512): after the
  region the output array is `lossColumn` of the five arrays as the region found them.
-/
import proofs.«107037_j80504866996731_1_alg».proof.Proof.Gen.KernelIdeal.Frame
import proofs.«107037_j80504866996731_1_alg».proof.Proof.KernelRow
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The loss column -/

/-- The row of an index of a 32768 x 1 column. -/
abbrev rowOf (j : S32768x1.Idx) : Fin 32768 := ⟨(j 0).val, idx2_lt0 j⟩

/-- The loss column of a trace matrix and four word columns: at each row, the row loss of that row's trace and of
    that row's four words. -/
def lossColumn (X : S32768x2048.Idx → EReal) (FM LM HAS TGT : S32768x1.Idx → BitVec 32) : S32768x1.Idx → EReal :=
  fun j => Cert.Spec.rowLoss (fun t => X (ix2 (rowOf j) t)) (FM (ix2 (rowOf j) 0)) (LM (ix2 (rowOf j) 0))
    (HAS (ix2 (rowOf j) 0)) (TGT (ix2 (rowOf j) 0))

/-! ## The index maps -/

/-- The printed index maps, decided over the grid: every window's block index at point `t` is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- Row `p` of the trace block at point `t` is row `512 t + p` of the trace matrix. -/
theorem iblk0_apply (c : Dev nD) (t : Fin cfg0.N) (x : S512x2048.Idx) (k : S32768x2048.Idx)
    (hk0 : (k 0).val = 512 * t.val + (x 0).val) (hk1 : (k 1).val = (x 1).val) :
    (iblk m c 0 t : Vec Ideal S512x2048 .f32) x = (V m c main_v73 : S32768x2048.Idx → EReal) k := by
  obtain ⟨e0, e1, -⟩ := idx_facts t
  unfold iblk
  rw [View.read_apply]
  show V m c main_v73 _ = V m c main_v73 k
  refine congrArg (V m c main_v73) ?_
  funext a
  apply Fin.ext
  match a with
  | ⟨0, _⟩ => show win0_0.index t (0 : Fin 2) * 512 + 1 * (x 0).val = (k 0).val; rw [e0, hk0]; omega
  | ⟨1, _⟩ => show win0_0.index t (1 : Fin 2) * 2048 + 1 * (x 1).val = (k 1).val; rw [e1, hk1]; omega

/-- Row `p` of the first-step block at point `t` is row `512 t + p` of its column. -/
theorem iblk1_apply (c : Dev nD) (t : Fin cfg0.N) (x : S512x1.Idx) (k : S32768x1.Idx)
    (hk0 : (k 0).val = 512 * t.val + (x 0).val) (hk1 : (k 1).val = (x 1).val) :
    (iblk m c 1 t : Vec Ideal S512x1 .i32) x = (V m c main_v74 : S32768x1.Idx → BitVec 32) k := by
  obtain ⟨-, -, e0, e1, -⟩ := idx_facts t
  unfold iblk
  rw [View.read_apply]
  show V m c main_v74 _ = V m c main_v74 k
  refine congrArg (V m c main_v74) ?_
  funext a
  apply Fin.ext
  match a with
  | ⟨0, _⟩ => show win0_1.index t (0 : Fin 2) * 512 + 1 * (x 0).val = (k 0).val; rw [e0, hk0]; omega
  | ⟨1, _⟩ => show win0_1.index t (1 : Fin 2) * 1 + 1 * (x 1).val = (k 1).val; rw [e1, hk1]; omega

/-- Row `p` of the last-step block at point `t` is row `512 t + p` of its column. -/
theorem iblk2_apply (c : Dev nD) (t : Fin cfg0.N) (x : S512x1.Idx) (k : S32768x1.Idx)
    (hk0 : (k 0).val = 512 * t.val + (x 0).val) (hk1 : (k 1).val = (x 1).val) :
    (iblk m c 2 t : Vec Ideal S512x1 .i32) x = (V m c main_v75 : S32768x1.Idx → BitVec 32) k := by
  obtain ⟨-, -, -, -, e0, e1, -⟩ := idx_facts t
  unfold iblk
  rw [View.read_apply]
  show V m c main_v75 _ = V m c main_v75 k
  refine congrArg (V m c main_v75) ?_
  funext a
  apply Fin.ext
  match a with
  | ⟨0, _⟩ => show win0_2.index t (0 : Fin 2) * 512 + 1 * (x 0).val = (k 0).val; rw [e0, hk0]; omega
  | ⟨1, _⟩ => show win0_2.index t (1 : Fin 2) * 1 + 1 * (x 1).val = (k 1).val; rw [e1, hk1]; omega

/-- Row `p` of the has-a-cluster block at point `t` is row `512 t + p` of its column. -/
theorem iblk3_apply (c : Dev nD) (t : Fin cfg0.N) (x : S512x1.Idx) (k : S32768x1.Idx)
    (hk0 : (k 0).val = 512 * t.val + (x 0).val) (hk1 : (k 1).val = (x 1).val) :
    (iblk m c 3 t : Vec Ideal S512x1 .i32) x = (V m c main_v76 : S32768x1.Idx → BitVec 32) k := by
  obtain ⟨-, -, -, -, -, -, e0, e1, -⟩ := idx_facts t
  unfold iblk
  rw [View.read_apply]
  show V m c main_v76 _ = V m c main_v76 k
  refine congrArg (V m c main_v76) ?_
  funext a
  apply Fin.ext
  match a with
  | ⟨0, _⟩ => show win0_3.index t (0 : Fin 2) * 512 + 1 * (x 0).val = (k 0).val; rw [e0, hk0]; omega
  | ⟨1, _⟩ => show win0_3.index t (1 : Fin 2) * 1 + 1 * (x 1).val = (k 1).val; rw [e1, hk1]; omega

/-- Row `p` of the is-labelled block at point `t` is row `512 t + p` of its column. -/
theorem iblk4_apply (c : Dev nD) (t : Fin cfg0.N) (x : S512x1.Idx) (k : S32768x1.Idx)
    (hk0 : (k 0).val = 512 * t.val + (x 0).val) (hk1 : (k 1).val = (x 1).val) :
    (iblk m c 4 t : Vec Ideal S512x1 .i32) x = (V m c main_v77 : S32768x1.Idx → BitVec 32) k := by
  obtain ⟨-, -, -, -, -, -, -, -, e0, e1, -⟩ := idx_facts t
  unfold iblk
  rw [View.read_apply]
  show V m c main_v77 _ = V m c main_v77 k
  refine congrArg (V m c main_v77) ?_
  funext a
  apply Fin.ext
  match a with
  | ⟨0, _⟩ => show win0_4.index t (0 : Fin 2) * 512 + 1 * (x 0).val = (k 0).val; rw [e0, hk0]; omega
  | ⟨1, _⟩ => show win0_4.index t (1 : Fin 2) * 1 + 1 * (x 1).val = (k 1).val; rw [e1, hk1]; omega

/-- The row loss of row `p` of the five blocks at point `t` is the row loss of row `R = 512 t + p` of the five arrays. -/
theorem rowLoss_blocks (c : Dev nD) (t : Fin cfg0.N) (p : Fin 512) (R : Fin 32768) (hR : R.val = 512 * t.val + p.val) :
    Cert.Spec.rowLoss (fun s => (iblk m c 0 t : Vec Ideal S512x2048 .f32) (ix2 p s))
        ((iblk m c 1 t : Vec Ideal S512x1 .i32) (ix2 p 0)) ((iblk m c 2 t : Vec Ideal S512x1 .i32) (ix2 p 0))
        ((iblk m c 3 t : Vec Ideal S512x1 .i32) (ix2 p 0)) ((iblk m c 4 t : Vec Ideal S512x1 .i32) (ix2 p 0))
      = Cert.Spec.rowLoss (fun s => (V m c main_v73 : S32768x2048.Idx → EReal) (ix2 R s))
        ((V m c main_v74 : S32768x1.Idx → BitVec 32) (ix2 R 0)) ((V m c main_v75 : S32768x1.Idx → BitVec 32) (ix2 R 0))
        ((V m c main_v76 : S32768x1.Idx → BitVec 32) (ix2 R 0)) ((V m c main_v77 : S32768x1.Idx → BitVec 32) (ix2 R 0)) := by
  rw [iblk1_apply m c t (ix2 p 0) (ix2 R 0) hR rfl, iblk2_apply m c t (ix2 p 0) (ix2 R 0) hR rfl,
    iblk3_apply m c t (ix2 p 0) (ix2 R 0) hR rfl, iblk4_apply m c t (ix2 p 0) (ix2 R 0) hR rfl]
  have h0 : (fun s : Fin 2048 => (iblk m c 0 t : Vec Ideal S512x2048 .f32) (ix2 p s))
      = fun s => (V m c main_v73 : S32768x2048.Idx → EReal) (ix2 R s) :=
    funext fun s => iblk0_apply m c t (ix2 p s) (ix2 R s) hR rfl
  rw [h0]

/-! ## What a point writes back, the cover, the array -/

/-- WHAT POINT `t` WRITES BACK is block `t` of the loss column of the five arrays as the region finds them. -/
theorem flushed_eq (c : Dev nD) (t : Fin cfg0.N) :
    (dats m 0 c).flushed 5 t = ((cfg0.win 5).blk t).view.read (Elt Ideal)
      (lossColumn (V m c main_v73) (V m c main_v74) (V m c main_v75) (V m c main_v76) (V m c main_v77)) := by
  show (cfg0.win 5).cut (grid0.coords t) ((dats m 0 c).after 5 t) = _
  rw [after0_5]
  unfold out0_5
  rw [View.canon_unit_zero hz]
  simp only [View.ld_unit_zero (S := S512x2048) hz, View.ld_unit_zero (S := S512x1) hz]
  obtain ⟨-, -, -, -, -, -, -, -, -, -, e0, e1⟩ := idx_facts t
  funext y
  have hy0 : (y 0).val < 512 := (y 0).isLt
  have hy1 : (y 1).val < 1 := (y 1).isLt
  obtain ⟨p, hp⟩ : ∃ p : Fin 512, p.val = (y 0).val := ⟨⟨(y 0).val, hy0⟩, rfl⟩
  have hx : (cfg0.win 5).xinj (grid0.coords t) y = ix2 p (0 : Fin 1) := by
    funext a
    apply Fin.ext
    match a with
    | ⟨0, _⟩ => exact hp.symm
    | ⟨1, _⟩ => show (y 1).val = 0; omega
  have hR : (rowOf (((cfg0.win 5).blk t).view.emb y)).val = 512 * t.val + p.val := by
    show win0_5.index t (0 : Fin 2) * 512 + 1 * (y 0).val = _
    rw [e0, hp]; omega
  show k0_pay1 (F := Ideal) (k0_pay3 (iblk m c 3 t)) (k0_pay5 (iblk m c 0 t) (iblk m c 1 t) (iblk m c 2 t)) (k0_pay6 (iblk m c 0 t))
      (k0_pay7 (iblk m c 3 t) (iblk m c 4 t)) (k0_pay8 (iblk m c 4 t)) 1#32 ((cfg0.win 5).xinj (grid0.coords t) y)
    = lossColumn (V m c main_v73) (V m c main_v74) (V m c main_v75) (V m c main_v76) (V m c main_v77) (((cfg0.win 5).blk t).view.emb y)
  rw [hx]
  refine (stored_apply (iblk m c 0 t) (iblk m c 1 t) (iblk m c 2 t) (iblk m c 3 t) (iblk m c 4 t) p 0).trans ?_
  exact rowLoss_blocks m c t p _ hR

/-- An index of the column is in point `t`'s block iff each coordinate is in the block's range on its axis. -/
theorem mem_blk (t : Fin cfg0.N) (i : S32768x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v78).slice (win0_5.rect t)).set ↔ _
  rw [View.set_slice_whole, Rect.mem_set_unit]
  exact Iff.rfl

/-- THE COVER: row `r` of the column lies in the block of point `r / 512`. -/
theorem cover (i : S32768x1.Idx) : ∃ t : Fin cfg0.N, (cfg0.win 5).flush t = true ∧ i ∈ ((cfg0.win 5).blk t).view.set := by
  have hi0 : (i 0).val < 32768 := idx2_lt0 i
  have hi1 : (i 1).val < 1 := idx2_lt1 i
  obtain ⟨t, ht⟩ : ∃ t : Fin cfg0.N, t.val = (i 0).val / 512 :=
    ⟨⟨(i 0).val / 512, (by omega : (i 0).val / 512 < 64).trans_eq N_0.symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1 ≤ (i 1).val ∧ (i 1).val < win0_5.index t (1 : Fin 2) * 1 + 1
    rw [e1]; omega

/-- THE OUTPUT ARRAY after the region is the loss column of the five arrays as the region finds them. -/
theorem final (c : Dev nD) : (dats (F := Ideal) m 0 c).arrAt 5 cfg0.N
    = lossColumn (V m c main_v73) (V m c main_v74) (V m c main_v75) (V m c main_v76) (V m c main_v77) :=
  (dats m 0 c).arrAt_eq_of_cover 5 (lossColumn (V m c main_v73) (V m c main_v74) (V m c main_v75) (V m c main_v76) (V m c main_v77))
    (fun t _ => flushed_eq m c t) cover

end Cert.KernelIdeal.Hand

end
-- ==== Proof.KernelRun.lean ====
/-
  The run of the kernel's program, read.

  After the region three host operations follow: the constant 0, the sum of the whole 32768 x 1 output array
  into a scalar from that 0, and the conversion of the cluster counts to reals.  The region leaves its output
  array at the loss column of the five arrays it found (`final`), the sum reads that array, the conversion reads
  a buffer the region does not touch, and no operation writes an argument.
-/
import proofs.«107037_j80504866996731_1_alg».proof.Proof.KernelBlocks
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The scalar result: the sum of the loss column from 0. -/
theorem tail_v79 (c : Dev nD) :
    Pipeline.afterTail₀ cfgs (dats (F := Ideal) m) 0 (V0 m) [hostOps1] c main_v79
      = Host.reduceAdd (F := Ideal) (lossColumn (V m c main_v73) (V m c main_v74) (V m c main_v75) (V m c main_v76) (V m c main_v77))
          (constant (F := Ideal) S_ .f32 0x00000000#32) reducesTo_S32768x1_S_d0_1 h_S_ := by
  unfold Pipeline.afterTail₀
  show StableHlo.after hostOps1 _ (Proc.devRef .tc main_v79) = _
  after_results
  exact congrArg (fun x => Host.reduceAdd (F := Ideal) x (constant (F := Ideal) S_ .f32 0x00000000#32) reducesTo_S32768x1_S_d0_1 h_S_)
    ((Pipeline.withArrays_arr spec0 launch0.win.arr_inj c _ _ 5).trans (final m c))

/-- The second result: the cluster counts converted. -/
theorem tail_v80 (c : Dev nD) :
    Pipeline.afterTail₀ cfgs (dats (F := Ideal) m) 0 (V0 m) [hostOps1] c main_v80
      = sitofp (F := Ideal) .f32 (V m c main_v18) := by
  unfold Pipeline.afterTail₀
  show StableHlo.after hostOps1 _ (Proc.devRef .tc main_v80) = _
  after_results
  exact congrArg (sitofp (F := Ideal) .f32)
    (Pipeline.withArrays_of_ne _ c (V0 m c) _ main_v18 (by exact (by decide : ∀ w, Pipeline.arrRef spec0 w ≠ main_v18)))

/-- THE RUN, READ: every weakly fair execution of the program ends with the scalar result at the sum of the loss
    column of the five arrays the region found, the second result at the converted cluster counts, and the
    arguments unchanged. -/
theorem run : θ_run Cert.KernelIdeal.defs (onTc (τ := τ) (Cert.KernelIdeal.main (F := Ideal))) ⟨m, fun _ => 0, ρ⟩ (fun r => ∀ c : Dev nD,
      r.2.mem ((c.tc : Thread nD τ).loc main_v79)
        = Host.reduceAdd (F := Ideal) (lossColumn (V m c main_v73) (V m c main_v74) (V m c main_v75) (V m c main_v76) (V m c main_v77))
            (constant (F := Ideal) S_ .f32 0x00000000#32) reducesTo_S32768x1_S_d0_1 h_S_
      ∧ r.2.mem ((c.tc : Thread nD τ).loc main_v80) = sitofp (F := Ideal) .f32 (V m c main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v79 (Pipeline.mem_restRefs_of main_v79 (by decide) (by decide))).trans (tail_v79 m c),
      ((h c).2 main_v80 (Pipeline.mem_restRefs_of main_v80 (by decide) (by decide))).trans (tail_v80 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.SpecRef.lean ====
/-
  The reference's loss, neuron by neuron.

  For sample b and neuron n the trace is x t = X (b, n, t).  From the clustering come NC (b, n), the trace's number
  of clusters; FM (b, n) and LM (b, n, 0), the first and last step of its smallest cluster; and LAB b, the sample's
  labelled neuron.  The reference adds two sums over all (b, n):

  * over labelled neurons without a cluster, minus the trace's maximum;
  * over unlabelled neurons with a cluster, the sum of the trace over the span divided by the number of steps in
    the span — counted here in 32-bit words, at least one, and then converted.
-/
import proofs.«107037_j80504866996731_1_alg».proof.Proof.Spec
import Idealize.ShloMosaic.PureOps.Reduce

noncomputable section

namespace Cert.Spec

open Idealize.ShloMosaic Idealize.ShloMosaic.ValueIdx

/-- The voltage traces: samples × neurons × time steps. -/
abbrev Traces : Type := (⟨3, ![128, 256, 2048]⟩ : Shape).Idx → EReal
/-- One word per sample and neuron. -/
abbrev NeuronWords : Type := (⟨2, ![128, 256]⟩ : Shape).Idx → BitVec 32
/-- One word per sample and neuron, as a column. -/
abbrev NeuronColumn : Type := (⟨3, ![128, 256, 1]⟩ : Shape).Idx → BitVec 32
/-- One word per sample. -/
abbrev SampleWords : Type := (⟨1, ![128]⟩ : Shape).Idx → BitVec 32

/-- The trace of neuron `n` of sample `b`. -/
def trace (X : Traces) (b : Fin 128) (n : Fin 256) : Fin 2048 → EReal := fun t => X (ix3 b n t)

/-- One bit: neuron `n` is sample `b`'s labelled neuron. -/
def labelBit (LAB : SampleWords) (b : Fin 128) (n : Fin 256) : BitVec 1 :=
  IntOp.cmpi .eq (BitVec.ofNat 32 n.val) (LAB (ix1 b))

/-- One bit: the trace has a cluster. -/
def hasBit (NC : NeuronWords) (b : Fin 128) (n : Fin 256) : BitVec 1 := IntOp.cmpi .sgt (NC (ix2 b n)) 0#32

/-- The number of steps in the span, summed in 32-bit words. -/
def spanCountWord (f l : BitVec 32) (x : Fin 2048 → EReal) : BitVec 32 :=
  (Finset.univ : Finset (Fin 2048)).fold IntOp.addi 0#32 fun t => (spanBit f l x t).setWidth 32

/-- The mean over the span as the reference takes it: the sum from zero, over the word count raised to one. -/
def refMean (f l : BitVec 32) (x : Fin 2048 → EReal) : EReal :=
  Ideal.div ((0 : EReal) + spanSum f l x)
    (FloatOps.sitofp (F := Ideal) .f32 (IntOp.maxsi (spanCountWord f l x) 1#32))

/-- A labelled neuron without a cluster: minus its trace's maximum; any other neuron: zero. -/
def refMissTerm (X : Traces) (NC : NeuronWords) (LAB : SampleWords) (b : Fin 128) (n : Fin 256) : EReal :=
  Scalar.select (IntOp.andi (labelBit LAB b n) (~~~ hasBit NC b n)) (-(traceMax (trace X b n))) (0 : EReal)

/-- An unlabelled neuron with a cluster: the mean over its smallest cluster's span; any other neuron: zero. -/
def refFalsePosTerm (X : Traces) (NC FM : NeuronWords) (LM : NeuronColumn) (LAB : SampleWords)
    (b : Fin 128) (n : Fin 256) : EReal :=
  Scalar.select (IntOp.andi (~~~ labelBit LAB b n) (hasBit NC b n))
    (refMean (FM (ix2 b n)) (LM (ix3 b n 0)) (trace X b n)) (0 : EReal)

/-- The reference's loss: the two sums, each from zero, added. -/
def refLoss (X : Traces) (NC FM : NeuronWords) (LM : NeuronColumn) (LAB : SampleWords) : EReal :=
  ((0 : EReal) + ∑ i : (⟨2, ![128, 256]⟩ : Shape).Idx, refMissTerm X NC LAB (i 0) (i 1))
    + ((0 : EReal) + ∑ i : (⟨2, ![128, 256]⟩ : Shape).Idx, refFalsePosTerm X NC FM LM LAB (i 0) (i 1))

end Cert.Spec

end
-- ==== Proof.KernelColumns.lean ====
/-
  The five arrays the region reads, as the last host operations before it leave them.

  The last seventeen host operations before the region only re-lay data out and compare words: the traces
  [128, 256, 2048] are viewed as 32768 rows of 2048 steps; the first-step words, and the last-step words with their
  unit axis dropped, are viewed as 32768 x 1 columns; the has-a-cluster word of a neuron is the bit "its cluster
  count is positive (signed)" widened to a word; the is-labelled word of neuron n of sample b is the bit "n is the
  sample's label" widened to a word; both are then viewed as columns.  Nothing here writes the cluster counts.
-/
import proofs.«107037_j80504866996731_1_alg».proof.Proof.Gen.KernelIdeal.Launch
import proofs.«107037_j80504866996731_1_alg».proof.Proof.SpecRef
import Idealize.ShloMosaic.Lib.StableHlo.Run
import Idealize.ShloMosaic.Lib.Pipeline.Value
import Idealize.ShloMosaic.Lib.IdealHost

noncomputable section

namespace Cert.KernelIdeal.Hand

open Cert.KernelIdeal Cert.KernelIdeal.Gen Idealize.ShloMosaic Idealize.ShloMosaic.TcCoe Idealize.SL.Sem
open Idealize.ShloMosaic.ValueIdx

/-! ## The two flag arrays -/

/-- The has-a-cluster words: at each neuron, the bit "the cluster count is positive" as a word. -/
def hasWords (NC : S128x256.Idx → BitVec 32) : S128x256.Idx → BitVec 32 :=
  extui 32 (cmpi .sgt NC (broadcastInDim S128x256 ![] bcast_S_S128x256 (constantI S_ 32 0#32))) natLt_1_32

/-- The is-labelled words: at neuron n of sample b, the bit "n is the sample's label" as a word. -/
def labelWords (LAB : S128.Idx → BitVec 32) : S128x256.Idx → BitVec 32 :=
  extui 32 (cmpi .eq
    (broadcastInDim S128x256 ![0, 1] bcast_S1x256_S128x256_0_1 (broadcastInDim S1x256 ![1] bcast_S256_S1x256_1 (iotaInDim S256 32 0)))
    (broadcastInDim S128x256 ![0, 1] bcast_S128x1_S128x256_0_1 (broadcastInDim S128x1 ![0] bcast_S128_S128x1_0 LAB))) natLt_1_32

/-- At (b, n) the has-a-cluster word is the specification's bit, widened. -/
theorem hasWords_apply (NC : S128x256.Idx → BitVec 32) (b : Fin 128) (n : Fin 256) :
    hasWords NC (ix2 b n) = (Cert.Spec.hasBit NC b n).setWidth 32 := by
  unfold hasWords Cert.Spec.hasBit
  show (IntOp.cmpi .sgt (NC (ix2 b n)) (broadcastInDim S128x256 ![] bcast_S_S128x256 (constantI S_ 32 0#32) (ix2 b n))).setWidth 32 = _
  rw [broadcastInDim_scalar_apply]
  rfl

/-- At (b, n) the is-labelled word is the specification's bit, widened. -/
theorem labelWords_apply (LAB : S128.Idx → BitVec 32) (b : Fin 128) (n : Fin 256) :
    labelWords LAB (ix2 b n) = (Cert.Spec.labelBit LAB b n).setWidth 32 := by
  unfold labelWords Cert.Spec.labelBit
  show (IntOp.cmpi .eq
      (broadcastInDim S128x256 ![0, 1] bcast_S1x256_S128x256_0_1 (broadcastInDim S1x256 ![1] bcast_S256_S1x256_1 (iotaInDim S256 32 0)) (ix2 b n))
      (broadcastInDim S128x256 ![0, 1] bcast_S128x1_S128x256_0_1 (broadcastInDim S128x1 ![0] bcast_S128_S128x1_0 LAB) (ix2 b n))).setWidth 32 = _
  rw [broadcastInDim_apply ![0, 1] bcast_S1x256_S128x256_0_1 _ (ix2 b n) (ix2 (0 : Fin 1) n) (fun a => by
        match a with
        | ⟨0, _⟩ => rfl
        | ⟨1, _⟩ => rfl),
    broadcastInDim_apply ![1] bcast_S256_S1x256_1 _ (ix2 (0 : Fin 1) n) (ix1 n) (fun a => by
        match a with
        | ⟨0, _⟩ => rfl),
    broadcastInDim_apply ![0, 1] bcast_S128x1_S128x256_0_1 _ (ix2 b n) (ix2 b (0 : Fin 1)) (fun a => by
        match a with
        | ⟨0, _⟩ => rfl
        | ⟨1, _⟩ => rfl),
    broadcastInDim_apply ![0] bcast_S128_S128x1_0 _ (ix2 b (0 : Fin 1)) (ix1 b) (fun a => by
        match a with
        | ⟨0, _⟩ => rfl)]
  rfl

/-! ## The arrays after the operations, from any contents -/

variable (W : Valuation τ sig (Elt Ideal))

/-- The traces as 32768 rows. -/
theorem col_traces : StableHlo.after hostOps0_19 W (main_v73 : DevRef τ sig)
    = shapeCast S32768x2048 (W (main_arg0 : DevRef τ sig)) shapeCasts_S128x256x2048_S32768x2048 := by
  simp only [hostOps0_19]
  after_results
  rfl

/-- The first-step words as a column. -/
theorem col_first : StableHlo.after hostOps0_19 W (main_v74 : DevRef τ sig)
    = shapeCast S32768x1 (W (main_v59 : DevRef τ sig)) shapeCasts_S128x256_S32768x1 := by
  simp only [hostOps0_19]
  after_results
  rfl

/-- The last-step words, their unit axis dropped, as a column. -/
theorem col_last : StableHlo.after hostOps0_19 W (main_v75 : DevRef τ sig)
    = shapeCast S32768x1 (shapeCast S128x256 (W (main_v61 : DevRef τ sig)) shapeCasts_S128x256x1_S128x256) shapeCasts_S128x256_S32768x1 := by
  simp only [hostOps0_19]
  after_results
  rfl

/-- The has-a-cluster words as a column. -/
theorem col_has : StableHlo.after hostOps0_19 W (main_v76 : DevRef τ sig)
    = shapeCast S32768x1 (hasWords (W (main_v18 : DevRef τ sig))) shapeCasts_S128x256_S32768x1 := by
  simp only [hostOps0_19]
  after_results
  rfl

/-- The is-labelled words as a column. -/
theorem col_label : StableHlo.after hostOps0_19 W (main_v77 : DevRef τ sig)
    = shapeCast S32768x1 (labelWords (W (main_arg2 : DevRef τ sig))) shapeCasts_S128x256_S32768x1 := by
  simp only [hostOps0_19]
  after_results
  rfl

/-- The cluster counts are not written. -/
theorem clusters_kept : StableHlo.after hostOps0_19 W (main_v18 : DevRef τ sig) = W (main_v18 : DevRef τ sig) := by
  simp only [hostOps0_19]
  after_results

end Cert.KernelIdeal.Hand

end
-- ==== Proof.LibCount.lean ====
/-
  Counting with 32-bit words. The 32-bit sum of fewer than 2^31 words, each zero or one, is the NUMBER of ones (no
  wrap-around), read signed or unsigned. From a word `c` whose signed value is a natural number `N`: its conversion to an
  ideal float is `N`; the signed maximum of `c` and 1 has value `max N 1`; the signed test `c > 0` is `0 < N`. And on the
  extended reals, a sum of ones over the members of a finite set that satisfy `p` is their number.
-/
import Idealize.ShloMosaic.PureOps.Ideal
import Idealize.ShloMosaic.PureOps.Ideal.Laws
import Idealize.ShloMosaic.PureOps.Reduce

namespace Cert.LibCount

open Idealize.ShloMosaic

/-- The 32-bit sum of the one-bit words `g i`, widened, over fewer than 2^32 indices is the number of ones. -/
theorem fold_addi_toNat {ι : Type} [DecidableEq ι] (g : ι → BitVec 1) (s : Finset ι) :
    s.card < 2 ^ 32 →
      (s.fold IntOp.addi 0#32 fun i => (g i).setWidth 32).toNat = (s.filter fun i => g i = 1#1).card := by
  refine Finset.induction_on s (fun _ => rfl) fun a s ha ih hc => ?_
  rw [Finset.card_insert_of_notMem ha] at hc
  have ihs := ih (by omega)
  have hle : (s.filter fun i => g i = 1#1).card ≤ s.card := Finset.card_filter_le _ _
  rw [Finset.fold_insert ha, Finset.filter_insert]
  refine (BitVec.toNat_add _ _).trans ?_
  rw [ihs]
  rcases BitVec.eq_zero_or_eq_one (g a) with h | h
  · rw [h, if_neg (by decide), show ((0#1 : BitVec 1).setWidth 32).toNat = 0 from rfl, Nat.zero_add]
    exact Nat.mod_eq_of_lt (by omega)
  · rw [h, if_pos rfl, show ((1#1 : BitVec 1).setWidth 32).toNat = 1 from rfl,
      Finset.card_insert_of_notMem (fun hm => ha (Finset.mem_filter.mp hm).1), Nat.add_comm]
    exact Nat.mod_eq_of_lt (by omega)

/-- The same, read signed: fewer than 2^31 indices. -/
theorem fold_addi_toInt {ι : Type} [DecidableEq ι] (g : ι → BitVec 1) (s : Finset ι) (hc : s.card < 2 ^ 31) :
    (s.fold IntOp.addi 0#32 fun i => (g i).setWidth 32).toInt = ((s.filter fun i => g i = 1#1).card : ℤ) := by
  have hle : (s.filter fun i => g i = 1#1).card ≤ s.card := Finset.card_filter_le _ _
  rw [BitVec.toInt_eq_toNat_cond, fold_addi_toNat g s (by omega), if_pos (by omega)]

section Word

variable (c : BitVec 32) (N : ℕ) (h : c.toInt = (N : ℤ))
include h

/-- The word as an ideal float is its value. -/
theorem sitofp_eq : FloatOps.sitofp (F := Ideal) .f32 c = (N : EReal) := by
  show (((c.toInt : ℝ)) : EReal) = (N : EReal)
  rw [h, Int.cast_natCast, EReal.coe_natCast]

/-- The signed maximum with 1. -/
theorem maxsi_one_toInt : (IntOp.maxsi c 1#32).toInt = ((max N 1 : ℕ) : ℤ) := by
  unfold IntOp.maxsi
  have h1 : (1#32 : BitVec 32).toInt = 1 := by decide
  by_cases hN : 1 < N
  · rw [if_pos (by rw [BitVec.slt, h1, h]; exact decide_eq_true (by exact_mod_cast hN)), h, max_eq_left hN.le]
  · rw [if_neg (by rw [BitVec.slt, h1, h]; exact fun hd => hN (by exact_mod_cast of_decide_eq_true hd)), h1,
      max_eq_right (by omega)]
    rfl

/-- The signed test `c > 0`. -/
theorem cmpi_sgt_zero : IntOp.cmpi .sgt c 0#32 = BitVec.ofBool (decide (0 < N)) := by
  show BitVec.ofBool ((0#32 : BitVec 32).slt c) = _
  have h0 : (0#32 : BitVec 32).toInt = 0 := by decide
  rw [BitVec.slt, h0, h]
  congr 1
  exact decide_eq_decide.mpr (by exact_mod_cast Iff.rfl)

end Word

/-- A sum of ones over the members satisfying `p` is their number. -/
theorem sum_ones {ι : Type} (s : Finset ι) (p : ι → Prop) [DecidablePred p] :
    (∑ i ∈ s, if p i then (1 : EReal) else 0) = ((s.filter p).card : EReal) := by
  rw [Finset.sum_ite, Finset.sum_const_zero, add_zero, Finset.sum_const, nsmul_one]

/-- On the extended reals, `max N 1` of a natural number is the natural number `max N 1`. -/
theorem max_one (N : ℕ) : max (N : EReal) 1 = ((max N 1 : ℕ) : EReal) := by
  rcases le_total N 1 with hN | hN
  · rw [max_eq_right hN, max_eq_right (by exact_mod_cast hN), Nat.cast_one]
  · rw [max_eq_left hN, max_eq_left (by exact_mod_cast hN)]

/-- `0 < N` on the extended reals. -/
theorem pos_iff (N : ℕ) : (0 : EReal) < (N : EReal) ↔ 0 < N := by
  exact_mod_cast Iff.rfl

/-- A decided bit is one exactly when the proposition holds. -/
theorem bit_decide_iff (P : Prop) [Decidable P] : BitVec.ofBool (decide P) = 1#1 ↔ P := by
  by_cases h : P
  · rw [decide_eq_true h]; exact ⟨fun _ => h, fun _ => rfl⟩
  · rw [decide_eq_false h]; exact ⟨fun e => absurd e (by decide), fun hp => absurd hp h⟩

/-- The test `c > 0` as a bit is one exactly when the count is positive on the extended reals. -/
theorem has_word (c : BitVec 32) (N : ℕ) (h : c.toInt = (N : ℤ)) :
    IntOp.cmpi .sgt c 0#32 = 1#1 ↔ (0 : EReal) < (N : EReal) := by
  rw [cmpi_sgt_zero c N h]
  exact (bit_decide_iff _).trans (pos_iff N).symm

/-- A masked mean from its words: where the count is positive the sum over `max count 1`, else zero. -/
theorem loss_word (c : BitVec 32) (N : ℕ) (h : c.toInt = (N : ℤ)) (S : EReal) :
    Scalar.select (IntOp.cmpi .sgt c 0#32)
        (FloatOps.hostDivf (F := Ideal) (φ := .f32) S (FloatOps.sitofp (F := Ideal) .f32 (IntOp.maxsi c 1#32)))
        (FloatOps.ofBits (F := Ideal) .f32 0x00000000#32)
      = if (0 : EReal) < (N : EReal) then Ideal.div S (max (N : EReal) 1) else 0 := by
  rw [sitofp_eq _ _ (maxsi_one_toInt c N h), ← max_one]
  show (if IntOp.cmpi .sgt c 0#32 = 1#1 then Ideal.div S (max (N : EReal) 1) else Ideal.ofBits .f32 0x00000000#32) = _
  rw [Ideal.ofBits_zero_f32]
  exact if_congr (has_word c N h) rfl rfl

end Cert.LibCount
-- ==== Proof.Laws.lean ====
/-
  One neuron's loss, the kernel's way and the reference's way.

  With lb the bit "the neuron is the sample's labelled one" and hb the bit "its trace has a cluster", the kernel
  tests the widened words (g = 1 and h = 0 for a miss, g = 0 and h = 1 for a false positive) and nests the two
  selections, while the reference tests the bits (lb and not hb; not lb and hb) and adds two separately selected
  terms.  The two tests are the same bits and exclude each other, so per neuron

      select miss (0 - M) (select falsePos D 0)  =  select miss (-M) 0 + select falsePos D' 0

  as soon as the two means D and D' agree.  They do: the kernel divides by max (count, 1) with the span's steps
  counted as reals, the reference counts them in 32-bit words first — 2048 steps cannot wrap around — takes the
  signed maximum with 1 and converts; and a sum taken from zero is the sum.
-/
import proofs.«107037_j80504866996731_1_alg».proof.Proof.SpecRef
import proofs.«107037_j80504866996731_1_alg».proof.Proof.LibCount

noncomputable section

namespace Cert.Laws

open Idealize.ShloMosaic Cert.Spec

/-- A bit widened to a word and converted to a real is one or zero. -/
theorem sitofp_bit (b : BitVec 1) :
    FloatOps.sitofp (F := Ideal) .f32 (b.setWidth 32) = if b = 1#1 then (1 : EReal) else 0 := by
  rcases BitVec.eq_zero_or_eq_one b with h | h
  · subst h
    rw [if_neg (by decide)]
    exact (Cert.LibCount.sitofp_eq _ 0 (by decide)).trans Nat.cast_zero
  · subst h
    rw [if_pos rfl]
    exact (Cert.LibCount.sitofp_eq _ 1 (by decide)).trans Nat.cast_one

/-- The span's steps counted as reals are the number of steps whose bit is one. -/
theorem spanCount_eq_card (f l : BitVec 32) (x : Fin 2048 → EReal) :
    spanCount f l x = (((Finset.univ : Finset (Fin 2048)).filter fun t => spanBit f l x t = 1#1).card : EReal) := by
  unfold spanCount
  simp only [sitofp_bit]
  exact Cert.LibCount.sum_ones _ _

/-- Counted in words, raised to one and converted: the same divisor. -/
theorem count_law (f l : BitVec 32) (x : Fin 2048 → EReal) :
    FloatOps.sitofp (F := Ideal) .f32 (IntOp.maxsi (spanCountWord f l x) 1#32) = max (spanCount f l x) (1 : EReal) := by
  have hN : (spanCountWord f l x).toInt
      = (((Finset.univ : Finset (Fin 2048)).filter fun t => spanBit f l x t = 1#1).card : ℤ) :=
    Cert.LibCount.fold_addi_toInt (fun t => spanBit f l x t) Finset.univ (by
      rw [Finset.card_univ, Fintype.card_fin]; norm_num)
  rw [Cert.LibCount.sitofp_eq _ _ (Cert.LibCount.maxsi_one_toInt _ _ hN), ← Cert.LibCount.max_one, spanCount_eq_card]

/-- The two means are one number. -/
theorem mean_law (f l : BitVec 32) (x : Fin 2048 → EReal) : spanMean f l x = refMean f l x := by
  unfold spanMean refMean
  rw [count_law, zero_add]

/-- The kernel's tests on the widened words are the reference's tests on the bits. -/
theorem missBit_eq (lb hb : BitVec 1) : missBit (hb.setWidth 32) (lb.setWidth 32) = IntOp.andi lb (~~~ hb) := by
  rcases BitVec.eq_zero_or_eq_one lb with h | h <;> rcases BitVec.eq_zero_or_eq_one hb with h' | h' <;>
    subst h <;> subst h' <;> decide

theorem falsePosBit_eq (lb hb : BitVec 1) :
    falsePosBit (hb.setWidth 32) (lb.setWidth 32) = IntOp.andi (~~~ lb) hb := by
  rcases BitVec.eq_zero_or_eq_one lb with h | h <;> rcases BitVec.eq_zero_or_eq_one hb with h' | h' <;>
    subst h <;> subst h' <;> decide

/-- One neuron: the nested selection is the sum of the two separate ones. -/
theorem row_law (x : Fin 2048 → EReal) (f l : BitVec 32) (lb hb : BitVec 1) :
    rowLoss x f l (hb.setWidth 32) (lb.setWidth 32)
      = Scalar.select (IntOp.andi lb (~~~ hb)) (-(traceMax x)) (0 : EReal)
        + Scalar.select (IntOp.andi (~~~ lb) hb) (refMean f l x) (0 : EReal) := by
  unfold rowLoss
  rw [missBit_eq, falsePosBit_eq, mean_law]
  rcases BitVec.eq_zero_or_eq_one lb with h | h <;> rcases BitVec.eq_zero_or_eq_one hb with h' | h' <;>
    subst h <;> subst h'
  · show (0 : EReal) = 0 + 0
    rw [add_zero]
  · show refMean f l x = 0 + refMean f l x
    rw [zero_add]
  · show (0 : EReal) - traceMax x = -(traceMax x) + 0
    rw [add_zero, sub_eq_add_neg, zero_add]
  · show (0 : EReal) = 0 + 0
    rw [add_zero]

end Cert.Laws

end
-- ==== Proof.Bridge.lean ====
/-
  The kernel's column of row losses summed is the reference's loss.

  The kernel's program flattens samples × neurons into 32768 rows (row r = 256·b + n), hands the kernel the traces
  as a [32768, 2048] matrix and the clustering's words as [32768, 1] columns, and sums the [32768, 1] column of row
  losses.  Reading each flattened array back at row r gives the entry of (b, n); a sum over the rows is the sum over
  (b, n); and per neuron the row loss is the reference's two selected terms added (the row law).  A finite sum of
  sums is the sum of the sums on the extended reals as on any commutative monoid.
-/
import proofs.«107037_j80504866996731_1_alg».proof.Proof.Laws
import Idealize.ShloMosaic.Lib.Pipeline.Value
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx Cert.Spec

/-- Samples × neurons × steps; samples × neurons; the same as a column; rows × steps; one word per row. -/
abbrev S3 : Shape := ⟨3, ![128, 256, 2048]⟩
abbrev S2 : Shape := ⟨2, ![128, 256]⟩
abbrev S3c : Shape := ⟨3, ![128, 256, 1]⟩
abbrev SR : Shape := ⟨2, ![32768, 2048]⟩
abbrev SC : Shape := ⟨2, ![32768, 1]⟩

/-- The row of an entry of a one-word-per-row column. -/
def rowOf (j : SC.Idx) : Fin 32768 := ⟨(j 0).val, (j 0).isLt⟩

/-- A column's entry is named by its row. -/
theorem eq_row (j : SC.Idx) : j = ix2 (rowOf j) (0 : Fin 1) := by
  funext a
  match a with
  | ⟨0, _⟩ => rfl
  | ⟨1, _⟩ =>
    have h1 : (j 1).val < 1 := (j 1).isLt
    exact Fin.ext (show (j 1).val = 0 by omega)

/-- Row r of the flattening is neuron n of sample b with 256·b + n = r. -/
theorem row_eq (h : S2.ShapeCasts SC) (j : SC.Idx) :
    ((Shape.reshapeEquiv h j) 0).val * 256 + ((Shape.reshapeEquiv h j) 1).val = (rowOf j).val := by
  have e := Shape.rowMajor_reshapeEquiv h j
  rw [Shape.rowMajor_val_two, Shape.rowMajor_val_two] at e
  have h1 : (j 1).val < 1 := (j 1).isLt
  have e' : ((Shape.reshapeEquiv h j) 0).val * 256 + ((Shape.reshapeEquiv h j) 1).val = (j 0).val * 1 + (j 1).val := e
  show _ = (j 0).val
  omega

section Reads

variable (X : Traces) (h3 : S3.ShapeCasts SR) (h2 : S2.ShapeCasts SC) (hc : S3c.ShapeCasts S2)

/-- The flattened traces at row r, step t: the trace of (b, n). -/
theorem traces_row (j : SC.Idx) (t : Fin 2048) :
    shapeCast SR X h3 (ix2 (rowOf j) t)
      = X (ix3 ((Shape.reshapeEquiv h2 j) 0) ((Shape.reshapeEquiv h2 j) 1) t) := by
  refine shapeCast_apply X h3 _ _ ?_
  rw [Shape.rowMajor_val_three, Shape.rowMajor_val_two]
  have e := row_eq h2 j
  show (((Shape.reshapeEquiv h2 j) 0).val * 256 + ((Shape.reshapeEquiv h2 j) 1).val) * 2048 + t.val
      = (rowOf j).val * 2048 + t.val
  rw [e]

/-- A column made from a [128, 256, 1] array through [128, 256]: its entry at row r is the array's at (b, n, 0). -/
theorem column_row (LM : NeuronColumn) (j : SC.Idx) :
    shapeCast SC (shapeCast S2 LM hc) h2 j
      = LM (ix3 ((Shape.reshapeEquiv h2 j) 0) ((Shape.reshapeEquiv h2 j) 1) (0 : Fin 1)) := by
  show shapeCast S2 LM hc (Shape.reshapeEquiv h2 j) = _
  refine shapeCast_apply LM hc _ _ ?_
  rw [Shape.rowMajor_val_three, Shape.rowMajor_val_two]
  show (((Shape.reshapeEquiv h2 j) 0).val * 256 + ((Shape.reshapeEquiv h2 j) 1).val) * 1 + 0
      = ((Shape.reshapeEquiv h2 j) 0).val * 256 + ((Shape.reshapeEquiv h2 j) 1).val
  omega

end Reads

section Total

variable (X : Traces) (NC FM : NeuronWords) (LM : NeuronColumn) (LAB : SampleWords) (HAS TGT : NeuronWords)
  (hHAS : ∀ (b : Fin 128) (n : Fin 256), HAS (ix2 b n) = (hasBit NC b n).setWidth 32)
  (hTGT : ∀ (b : Fin 128) (n : Fin 256), TGT (ix2 b n) = (labelBit LAB b n).setWidth 32)
  (h3 : S3.ShapeCasts SR) (h2 : S2.ShapeCasts SC) (hc : S3c.ShapeCasts S2)

/-- The kernel's column: one row loss per row, from the row's trace and the row's four words. -/
def column (X' : SR.Idx → EReal) (FM' LM' HAS' TGT' : SC.Idx → BitVec 32) : SC.Idx → EReal :=
  fun j => rowLoss (fun t => X' (ix2 (rowOf j) t)) (FM' (ix2 (rowOf j) (0 : Fin 1))) (LM' (ix2 (rowOf j) (0 : Fin 1)))
    (HAS' (ix2 (rowOf j) (0 : Fin 1))) (TGT' (ix2 (rowOf j) (0 : Fin 1)))

include hHAS hTGT in
/-- Entry j of the column built from the flattened arrays is the two reference terms of neuron (b, n), added. -/
theorem column_entry (j : SC.Idx) :
    column (shapeCast SR X h3) (shapeCast SC FM h2) (shapeCast SC (shapeCast S2 LM hc) h2) (shapeCast SC HAS h2)
        (shapeCast SC TGT h2) j
      = refMissTerm X NC LAB ((Shape.reshapeEquiv h2 j) 0) ((Shape.reshapeEquiv h2 j) 1)
        + refFalsePosTerm X NC FM LM LAB ((Shape.reshapeEquiv h2 j) 0) ((Shape.reshapeEquiv h2 j) 1) := by
  have hi : Shape.reshapeEquiv h2 j = ix2 ((Shape.reshapeEquiv h2 j) 0) ((Shape.reshapeEquiv h2 j) 1) := eq_ix2 _
  unfold column
  rw [← eq_row j, column_row h2 hc LM j]
  have hX : (fun t => shapeCast SR X h3 (ix2 (rowOf j) t))
      = trace X ((Shape.reshapeEquiv h2 j) 0) ((Shape.reshapeEquiv h2 j) 1) :=
    funext fun t => traces_row X h3 h2 j t
  have hF : shapeCast SC FM h2 j = FM (ix2 ((Shape.reshapeEquiv h2 j) 0) ((Shape.reshapeEquiv h2 j) 1)) :=
    congrArg FM hi
  have hH : shapeCast SC HAS h2 j = (hasBit NC ((Shape.reshapeEquiv h2 j) 0) ((Shape.reshapeEquiv h2 j) 1)).setWidth 32 :=
    (congrArg HAS hi).trans (hHAS _ _)
  have hT : shapeCast SC TGT h2 j = (labelBit LAB ((Shape.reshapeEquiv h2 j) 0) ((Shape.reshapeEquiv h2 j) 1)).setWidth 32 :=
    (congrArg TGT hi).trans (hTGT _ _)
  rw [hX, hF, hH, hT, Cert.Laws.row_law]
  rfl

include hHAS hTGT in
/-- The column summed from zero is the reference's loss. -/
theorem loss_bridge {axes : List (Fin SC.rank)} (hr : SC.ReducesTo axes (⟨0, ![]⟩ : Shape))
    (hpos : 0 < (⟨0, ![]⟩ : Shape).numel) :
    Host.reduceAdd (F := Ideal) (φ := .f32)
        (column (shapeCast SR X h3) (shapeCast SC FM h2) (shapeCast SC (shapeCast S2 LM hc) h2) (shapeCast SC HAS h2)
          (shapeCast SC TGT h2))
        (constant (F := Ideal) (⟨0, ![]⟩ : Shape) .f32 0x00000000#32) hr hpos
      = fun _ => refLoss X NC FM LM LAB := by
  funext j0
  rw [hostReduceAdd_apply, Ideal.hostReduceAdd_total hr (fun b => b.elim0)]
  rw [Finset.sum_congr rfl fun j _ => column_entry X NC FM LM LAB HAS TGT hHAS hTGT h3 h2 hc j, Finset.sum_add_distrib,
    Equiv.sum_comp (Shape.reshapeEquiv h2) fun i : S2.Idx => refMissTerm X NC LAB (i 0) (i 1),
    Equiv.sum_comp (Shape.reshapeEquiv h2) fun i : S2.Idx => refFalsePosTerm X NC FM LM LAB (i 0) (i 1)]
  show Ideal.ofBits .f32 0x00000000#32 + _ = _
  rw [Ideal.ofBits_zero_f32]
  unfold refLoss
  simp only [zero_add]

end Total

end Cert.Bridge

end
-- ==== Proof.KernelLoss.lean ====
/-
  The kernel program's two results as functions of the clustering.

  What the region finds in its six arrays is the clustering's results laid out as a [32768, 2048] matrix and four
  [32768, 1] columns; the kernel leaves one row loss per row, and the program sums that column.  By the bridge the
  sum is the reference's loss formula of the clustering's own arrays — the traces, the cluster counts, the first
  and last steps, the labels — and the second result is the cluster counts converted.
-/
import proofs.«107037_j80504866996731_1_alg».proof.Proof.KernelRun
import proofs.«107037_j80504866996731_1_alg».proof.Proof.KernelColumns
import proofs.«107037_j80504866996731_1_alg».proof.Proof.Bridge

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD) (W : Valuation τ sig (Elt Ideal))
  (hV : ∀ b : Ref sig .tc, V (F := Ideal) m c b = StableHlo.after hostOps0_19 W (b : DevRef τ sig))

include hV in
/-- The summed column of row losses is the reference's loss formula of the clustering's arrays. -/
theorem loss_of_columns :
    Host.reduceAdd (F := Ideal)
        (lossColumn (V m c main_v73) (V m c main_v74) (V m c main_v75) (V m c main_v76) (V m c main_v77))
        (constant (F := Ideal) S_ .f32 0x00000000#32) reducesTo_S32768x1_S_d0_1 h_S_
      = fun _ => Cert.Spec.refLoss (W (main_arg0 : DevRef τ sig)) (W (main_v18 : DevRef τ sig))
          (W (main_v59 : DevRef τ sig)) (W (main_v61 : DevRef τ sig)) (W (main_arg2 : DevRef τ sig)) := by
  rw [hV main_v73, hV main_v74, hV main_v75, hV main_v76, hV main_v77, col_traces, col_first, col_last, col_has,
    col_label]
  exact Cert.Bridge.loss_bridge (W (main_arg0 : DevRef τ sig)) (W (main_v18 : DevRef τ sig))
    (W (main_v59 : DevRef τ sig)) (W (main_v61 : DevRef τ sig)) (W (main_arg2 : DevRef τ sig))
    (hasWords (W (main_v18 : DevRef τ sig))) (labelWords (W (main_arg2 : DevRef τ sig)))
    (hasWords_apply _) (labelWords_apply _)
    shapeCasts_S128x256x2048_S32768x2048 shapeCasts_S128x256_S32768x1 shapeCasts_S128x256x1_S128x256
    reducesTo_S32768x1_S_d0_1 h_S_

include hV in
/-- The second result: the clustering's cluster counts, converted. -/
theorem counts_of_columns :
    sitofp (F := Ideal) .f32 (V m c main_v18) = sitofp (F := Ideal) .f32 (W (main_v18 : DevRef τ sig)) := by
  rw [hV main_v18, clusters_kept]

end Cert.KernelIdeal.Hand

end
-- ==== Proof.RefOps.lean ====
/- The reference program's host operations, in program order, each call's body written out at the call
   over that call's own buffers: the 161 operations of the spike clustering (opsA), and the 56 after them (opsB). -/
import proofs.«107037_j80504866996731_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The spike clustering: from the spikes to each trace's smallest cluster's first and last step. -/
abbrev opsA : List (HloOp τ sig (Elt F)) :=
  [ StableHlo.nullary main_v0 (iotaInDim S2048 32 0),
    StableHlo.nullary main_cst (constant S_ .f32 0x00000000#32),
    StableHlo.unary main_cst main_v1 (broadcastInDim S128x256x2048 ![] bcast_S_S128x256x2048 : (⟨S_, .f32⟩ : BufTy).Contents (Elt F) → (⟨S128x256x2048, .f32⟩ : BufTy).Contents (Elt F)),
    StableHlo.binary main_arg0 main_v1 main_v2 (cmpf .oge : (⟨S128x256x2048, .f32⟩ : BufTy).Contents (Elt F) → (⟨S128x256x2048, .f32⟩ : BufTy).Contents (Elt F) → (⟨S128x256x2048, .i1⟩ : BufTy).Contents (Elt F)),
    StableHlo.unary main_v2 main_v3 ((extui 32 · natLt_1_32) : (⟨S128x256x2048, .i1⟩ : BufTy).Contents (Elt F) → (⟨S128x256x2048, .i32⟩ : BufTy).Contents (Elt F)),
    StableHlo.nullary main_c (constantI S_ 32 0#32),
    StableHlo.unary main_c main_v4 (broadcastInDim S128x256x1 ![] bcast_S_S128x256x1 : (⟨S_, .i32⟩ : BufTy).Contents (Elt F) → (⟨S128x256x1, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_v3) main_call0.call0.v0 main_call0.call0.v1 (fun x v => Host.reduceWindow IntOp.addi ![1, 1, 2048] ![1, 1, 1] ![0, 0, 2047] ![0, 0, 0] x v reduceWindows_S128x256x2048_S128x256x2048_w1s1p0_0_w1s1p0_0_w2048s1p2047_0 h_S_),
    StableHlo.binary main_v4 main_v5 main_v6 ((fun a b => concatenate S128x256x2049 2 [⟨S128x256x1, a⟩, ⟨S128x256x2048, b⟩] concatenates_S128x256x1_S128x256x2048_S128x256x2049_d2) : (⟨S128x256x1, .i32⟩ : BufTy).Contents (Elt F) → (⟨S128x256x2048, .i32⟩ : BufTy).Contents (Elt F) → (⟨S128x256x2049, .i32⟩ : BufTy).Contents (Elt F)),
    StableHlo.nullary main_c_0 (constantI S_ 32 3#32),
    StableHlo.unary main_c_0 main_v7 (broadcastInDim S2048 ![] bcast_S_S2048 : (⟨S_, .i32⟩ : BufTy).Contents (Elt F) → (⟨S2048, .i32⟩ : BufTy).Contents (Elt F)),
    StableHlo.binary main_v0 main_v7 main_v8 (subi : (⟨S2048, .i32⟩ : BufTy).Contents (Elt F) → (⟨S2048, .i32⟩ : BufTy).Contents (Elt F) → (⟨S2048, .i32⟩ : BufTy).Contents (Elt F)),
    StableHlo.nullary main_c_1 (constantI S_ 32 0#32),
    StableHlo.unary main_c_1 main_v9 (broadcastInDim S2048 ![] bcast_S_S2048 : (⟨S_, .i32⟩ : BufTy).Contents (Elt F) → (⟨S2048, .i32⟩ : BufTy).Contents (Elt F)),
    StableHlo.binary main_v8 main_v9 main_v10 (maxsi : (⟨S2048, .i32⟩ : BufTy).Contents (Elt F) → (⟨S2048, .i32⟩ : BufTy).Contents (Elt F) → (⟨S2048, .i32⟩ : BufTy).Contents (Elt F)),
    StableHlo.unary main_v6 main_v11 ((extractStridedSlice S128x256x2048 ![0, 0, 0] · slices_S128x256x2049_S128x256x2048_0_0_0) : (⟨S128x256x2049, .i32⟩ : BufTy).Contents (Elt F) → (⟨S128x256x2048, .i32⟩ : BufTy).Contents (Elt F)),
    StableHlo.TRef.nullary main_call1.c (constantI S_ 32 0#32),
    StableHlo.TRef.unary main_call1.c main_call1.v0 (broadcastInDim S2048 ![] bcast_S_S2048),
    StableHlo.TRef.binary (.of main_v10) main_call1.v0 main_call1.v1 (cmpi .slt),
    StableHlo.TRef.nullary main_call1.c_0 (constantI S_ 32 2049#32),
    StableHlo.TRef.unary main_call1.c_0 main_call1.v2 (broadcastInDim S2048 ![] bcast_S_S2048),
    StableHlo.TRef.binary (.of main_v10) main_call1.v2 main_call1.v3 addi,
    StableHlo.TRef.ternary main_call1.v1 main_call1.v3 (.of main_v10) main_call1.call0.v0 select,
    StableHlo.TRef.unary main_call1.call0.v0 main_call1.v5 (broadcastInDim S2048x1 ![0] bcast_S2048_S2048x1_0),
    StableHlo.TRef.nullary main_call1.c_1 (constantI S1 32 2048#32),
    StableHlo.TRef.nullary main_call1.c_2 (constantI S_ 32 0#32),
    StableHlo.TRef.unary main_call1.c_2 main_call1.v6 (broadcastInDim S2048x1 ![] bcast_S_S2048x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S2048x1 ![0, 1] bcast_S1x1_S2048x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S2048x1_S2048_d1 h_S_),
    StableHlo.TRef.binary (.of main_v6) main_call1.v5 main_call1.v13 (fun x i => Host.gather gather_S128x256x2049_S2048x1_S128x256x2048_01_2_n_n_2_1_1282561 x i),
    StableHlo.TRef.unary main_call1.v12 main_call1.v14 (broadcastInDim S128x256x2048 ![2] bcast_S2048_S128x256x2048_2),
    StableHlo.TRef.nullary main_call1.c_4 (constantI S_ 32 2147483648#32),
    StableHlo.TRef.unary main_call1.c_4 main_call1.v15 (broadcastInDim S128x256x2048 ![] bcast_S_S128x256x2048),
    StableHlo.TRef.ternary main_call1.v14 main_call1.v13 main_call1.v15 main_call1.v16 select,
    StableHlo.binary main_v11 main_v12 main_v13 (subi : (⟨S128x256x2048, .i32⟩ : BufTy).Contents (Elt F) → (⟨S128x256x2048, .i32⟩ : BufTy).Contents (Elt F) → (⟨S128x256x2048, .i32⟩ : BufTy).Contents (Elt F)),
    StableHlo.nullary main_c_2 (constantI S_ 32 0#32),
    StableHlo.unary main_c_2 main_v14 (broadcastInDim S128x256x2048 ![] bcast_S_S128x256x2048 : (⟨S_, .i32⟩ : BufTy).Contents (Elt F) → (⟨S128x256x2048, .i32⟩ : BufTy).Contents (Elt F)),
    StableHlo.binary main_v13 main_v14 main_v15 (cmpi .eq : (⟨S128x256x2048, .i32⟩ : BufTy).Contents (Elt F) → (⟨S128x256x2048, .i32⟩ : BufTy).Contents (Elt F) → (⟨S128x256x2048, .i1⟩ : BufTy).Contents (Elt F)),
    StableHlo.binary main_v2 main_v15 main_v16 (andi : (⟨S128x256x2048, .i1⟩ : BufTy).Contents (Elt F) → (⟨S128x256x2048, .i1⟩ : BufTy).Contents (Elt F) → (⟨S128x256x2048, .i1⟩ : BufTy).Contents (Elt F)),
    StableHlo.unary main_v16 main_v17 ((extui 32 · natLt_1_32) : (⟨S128x256x2048, .i1⟩ : BufTy).Contents (Elt F) → (⟨S128x256x2048, .i32⟩ : BufTy).Contents (Elt F)),
    StableHlo.nullary main_c_3 (constantI S_ 32 0#32),
    StableHlo.binary main_v17 main_c_3 main_v18 ((fun x v => Host.reduce IntOp.addi x v reducesTo_S128x256x2048_S128x256_d2 h_S_) : (⟨S128x256x2048, .i32⟩ : BufTy).Contents (Elt F) → (⟨S_, .i32⟩ : BufTy).Contents (Elt F) → (⟨S128x256, .i32⟩ : BufTy).Contents (Elt F)),
    StableHlo.unary main_v16 main_v19 ((extui 32 · natLt_1_32) : (⟨S128x256x2048, .i1⟩ : BufTy).Contents (Elt F) → (⟨S128x256x2048, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v19) main_call2.call0.v0 main_call2.call0.v1 (fun x v => Host.reduceWindow IntOp.addi ![1, 1, 2048] ![1, 1, 1] ![0, 0, 2047] ![0, 0, 0] x v reduceWindows_S128x256x2048_S128x256x2048_w1s1p0_0_w1s1p0_0_w2048s1p2047_0 h_S_),
    StableHlo.nullary main_c_4 (constantI S_ 32 1#32),
    StableHlo.unary main_c_4 main_v21 (broadcastInDim S128x256x2048 ![] bcast_S_S128x256x2048 : (⟨S_, .i32⟩ : BufTy).Contents (Elt F) → (⟨S128x256x2048, .i32⟩ : BufTy).Contents (Elt F)),
    StableHlo.binary main_v20 main_v21 main_v22 (subi : (⟨S128x256x2048, .i32⟩ : BufTy).Contents (Elt F) → (⟨S128x256x2048, .i32⟩ : BufTy).Contents (Elt F) → (⟨S128x256x2048, .i32⟩ : BufTy).Contents (Elt F)),
    StableHlo.nullary main_c_5 (constantI S_ 32 0#32),
    StableHlo.nullary main_c_6 (constantI S_ 32 511#32),
    StableHlo.TRef.unary (.of main_c_5) main_call3.v0 id,
    StableHlo.TRef.unary main_call3.v0 main_call3.v1 (broadcastInDim S128x256x2048 ![] bcast_S_S128x256x2048),
    StableHlo.TRef.binary main_call3.v1 (.of main_v22) main_call3.v2 maxsi,
    StableHlo.TRef.unary (.of main_c_6) main_call3.v3 id,
    StableHlo.TRef.unary main_call3.v3 main_call3.v4 (broadcastInDim S128x256x2048 ![] bcast_S_S128x256x2048),
    StableHlo.TRef.binary main_call3.v4 main_call3.v2 main_call3.v5 minsi,
    StableHlo.nullary main_v24 (iotaInDim S32768 32 0),
    StableHlo.reshape main_v24 main_v25 rfl shapeCasts_S32768_S128x256x1,
    StableHlo.nullary main_c_7 (constantI S_ 32 512#32),
    StableHlo.unary main_c_7 main_v26 (broadcastInDim S128x256x1 ![] bcast_S_S128x256x1 : (⟨S_, .i32⟩ : BufTy).Contents (Elt F) → (⟨S128x256x1, .i32⟩ : BufTy).Contents (Elt F)),
    StableHlo.binary main_v25 main_v26 main_v27 (muli : (⟨S128x256x1, .i32⟩ : BufTy).Contents (Elt F) → (⟨S128x256x1, .i32⟩ : BufTy).Contents (Elt F) → (⟨S128x256x1, .i32⟩ : BufTy).Contents (Elt F)),
    StableHlo.unary main_v27 main_v28 (broadcastInDim S128x256x2048 ![0, 1, 2] bcast_S128x256x1_S128x256x2048_0_1_2 : (⟨S128x256x1, .i32⟩ : BufTy).Contents (Elt F) → (⟨S128x256x2048, .i32⟩ : BufTy).Contents (Elt F)),
    StableHlo.binary main_v28 main_v23 main_v29 (addi : (⟨S128x256x2048, .i32⟩ : BufTy).Contents (Elt F) → (⟨S128x256x2048, .i32⟩ : BufTy).Contents (Elt F) → (⟨S128x256x2048, .i32⟩ : BufTy).Contents (Elt F)),
    StableHlo.reshape main_v29 main_v30 rfl shapeCasts_S128x256x2048_S67108864,
    StableHlo.unary main_v0 main_v31 (broadcastInDim S128x256x2048 ![2] bcast_S2048_S128x256x2048_2 : (⟨S2048, .i32⟩ : BufTy).Contents (Elt F) → (⟨S128x256x2048, .i32⟩ : BufTy).Contents (Elt F)),
    StableHlo.reshape main_v3 main_v32 rfl shapeCasts_S128x256x2048_S67108864,
    StableHlo.nullary main_c_8 (constantI S_ 32 0#32),
    StableHlo.unary main_c_8 main_v33 (broadcastInDim S16777216 ![] bcast_S_S16777216 : (⟨S_, .i32⟩ : BufTy).Contents (Elt F) → (⟨S16777216, .i32⟩ : BufTy).Contents (Elt F)),
    StableHlo.unary main_v30 main_v34 (broadcastInDim S67108864x1 ![0] bcast_S67108864_S67108864x1_0 : (⟨S67108864, .i32⟩ : BufTy).Contents (Elt F) → (⟨S67108864x1, .i32⟩ : BufTy).Contents (Elt F)),
    StableHlo.ternary main_v33 main_v34 main_v32 main_v35 ((fun x i u => Host.scatter scatter_S16777216_S67108864x1_S67108864_n_0_0_1 IntOp.addi x i u) : (⟨S16777216, .i32⟩ : BufTy).Contents (Elt F) → (⟨S67108864x1, .i32⟩ : BufTy).Contents (Elt F) → (⟨S67108864, .i32⟩ : BufTy).Contents (Elt F) → (⟨S16777216, .i32⟩ : BufTy).Contents (Elt F)),
    StableHlo.reshape main_v35 main_v36 rfl shapeCasts_S16777216_S128x256x512,
    StableHlo.nullary main_c_9 (constantI S_ 32 2048#32),
    StableHlo.TRef.unary (.of main_c_9) main_call4.v0 id,
    StableHlo.TRef.unary main_call4.v0 main_call4.v1 (broadcastInDim S128x256x2048 ![] bcast_S_S128x256x2048),
    StableHlo.TRef.ternary (.of main_v2) (.of main_v31) main_call4.v1 main_call4.v2 select,
    StableHlo.reshape main_v37 main_v38 rfl shapeCasts_S128x256x2048_S67108864,
    StableHlo.nullary main_c_10 (constantI S_ 32 2147483647#32),
    StableHlo.unary main_c_10 main_v39 (broadcastInDim S16777216 ![] bcast_S_S16777216 : (⟨S_, .i32⟩ : BufTy).Contents (Elt F) → (⟨S16777216, .i32⟩ : BufTy).Contents (Elt F)),
    StableHlo.unary main_v30 main_v40 (broadcastInDim S67108864x1 ![0] bcast_S67108864_S67108864x1_0 : (⟨S67108864, .i32⟩ : BufTy).Contents (Elt F) → (⟨S67108864x1, .i32⟩ : BufTy).Contents (Elt F)),
    StableHlo.ternary main_v39 main_v40 main_v38 main_v41 ((fun x i u => Host.scatter scatter_S16777216_S67108864x1_S67108864_n_0_0_1 IntOp.minsi x i u) : (⟨S16777216, .i32⟩ : BufTy).Contents (Elt F) → (⟨S67108864x1, .i32⟩ : BufTy).Contents (Elt F) → (⟨S67108864, .i32⟩ : BufTy).Contents (Elt F) → (⟨S16777216, .i32⟩ : BufTy).Contents (Elt F)),
    StableHlo.reshape main_v41 main_v42 rfl shapeCasts_S16777216_S128x256x512,
    StableHlo.nullary main_c_11 (constantI S_ 32 4294967295#32),
    StableHlo.TRef.unary (.of main_c_11) main_call5.v0 id,
    StableHlo.TRef.unary main_call5.v0 main_call5.v1 (broadcastInDim S128x256x2048 ![] bcast_S_S128x256x2048),
    StableHlo.TRef.ternary (.of main_v2) (.of main_v31) main_call5.v1 main_call5.v2 select,
    StableHlo.reshape main_v43 main_v44 rfl shapeCasts_S128x256x2048_S67108864,
    StableHlo.nullary main_c_12 (constantI S_ 32 2147483648#32),
    StableHlo.unary main_c_12 main_v45 (broadcastInDim S16777216 ![] bcast_S_S16777216 : (⟨S_, .i32⟩ : BufTy).Contents (Elt F) → (⟨S16777216, .i32⟩ : BufTy).Contents (Elt F)),
    StableHlo.unary main_v30 main_v46 (broadcastInDim S67108864x1 ![0] bcast_S67108864_S67108864x1_0 : (⟨S67108864, .i32⟩ : BufTy).Contents (Elt F) → (⟨S67108864x1, .i32⟩ : BufTy).Contents (Elt F)),
    StableHlo.ternary main_v45 main_v46 main_v44 main_v47 ((fun x i u => Host.scatter scatter_S16777216_S67108864x1_S67108864_n_0_0_1 IntOp.maxsi x i u) : (⟨S16777216, .i32⟩ : BufTy).Contents (Elt F) → (⟨S67108864x1, .i32⟩ : BufTy).Contents (Elt F) → (⟨S67108864, .i32⟩ : BufTy).Contents (Elt F) → (⟨S16777216, .i32⟩ : BufTy).Contents (Elt F)),
    StableHlo.reshape main_v47 main_v48 rfl shapeCasts_S16777216_S128x256x512,
    StableHlo.nullary main_v49 (iotaInDim S512 32 0),
    StableHlo.unary main_v49 main_v50 (broadcastInDim S1x1x512 ![2] bcast_S512_S1x1x512_2 : (⟨S512, .i32⟩ : BufTy).Contents (Elt F) → (⟨S1x1x512, .i32⟩ : BufTy).Contents (Elt F)),
    StableHlo.unary main_v18 main_v51 (broadcastInDim S128x256x1 ![0, 1] bcast_S128x256_S128x256x1_0_1 : (⟨S128x256, .i32⟩ : BufTy).Contents (Elt F) → (⟨S128x256x1, .i32⟩ : BufTy).Contents (Elt F)),
    StableHlo.unary main_v50 main_v52 (broadcastInDim S128x256x512 ![0, 1, 2] bcast_S1x1x512_S128x256x512_0_1_2 : (⟨S1x1x512, .i32⟩ : BufTy).Contents (Elt F) → (⟨S128x256x512, .i32⟩ : BufTy).Contents (Elt F)),
    StableHlo.unary main_v51 main_v53 (broadcastInDim S128x256x512 ![0, 1, 2] bcast_S128x256x1_S128x256x512_0_1_2 : (⟨S128x256x1, .i32⟩ : BufTy).Contents (Elt F) → (⟨S128x256x512, .i32⟩ : BufTy).Contents (Elt F)),
    StableHlo.binary main_v52 main_v53 main_v54 (cmpi .slt : (⟨S128x256x512, .i32⟩ : BufTy).Contents (Elt F) → (⟨S128x256x512, .i32⟩ : BufTy).Contents (Elt F) → (⟨S128x256x512, .i1⟩ : BufTy).Contents (Elt F)),
    StableHlo.nullary main_c_13 (constantI S_ 32 2049#32),
    StableHlo.TRef.unary (.of main_c_13) main_call6.v0 id,
    StableHlo.TRef.unary main_call6.v0 main_call6.v1 (broadcastInDim S128x256x512 ![] bcast_S_S128x256x512),
    StableHlo.TRef.ternary (.of main_v54) (.of main_v36) main_call6.v1 main_call6.v2 select,
    StableHlo.TRef.nullary main_call7.v0 (iotaInDim S128x256x512 32 2),
    StableHlo.TRef.nullary main_call7.c (constantI S_ 32 2147483647#32),
    StableHlo.TRef.nullary main_call7.c_0 (constantI S_ 32 0#32),
    StableHlo.TRef.quaternary (.of main_v55) main_call7.v0 main_call7.c main_call7.c_0 main_call7.v1_0 (fun x y u v j => (Host.reduce2 reducer_argmin_i32_i32 x y u v reducesTo_S128x256x512_S128x256_d2 h_S_ j).1),
    StableHlo.TRef.quaternary (.of main_v55) main_call7.v0 main_call7.c main_call7.c_0 main_call7.v1_1 (fun x y u v j => (Host.reduce2 reducer_argmin_i32_i32 x y u v reducesTo_S128x256x512_S128x256_d2 h_S_ j).2),
    StableHlo.unary main_v56 main_v57 (broadcastInDim S128x256x1 ![0, 1] bcast_S128x256_S128x256x1_0_1 : (⟨S128x256, .i32⟩ : BufTy).Contents (Elt F) → (⟨S128x256x1, .i32⟩ : BufTy).Contents (Elt F)),
    StableHlo.TRef.nullary main_call8.c (constantI S_ 32 0#32),
    StableHlo.TRef.unary main_call8.c main_call8.v0 (broadcastInDim S128x256x1 ![] bcast_S_S128x256x1),
    StableHlo.TRef.binary (.of main_v57) main_call8.v0 main_call8.v1 (cmpi .slt),
    StableHlo.TRef.nullary main_call8.c_0 (constantI S_ 32 512#32),
    StableHlo.TRef.unary main_call8.c_0 main_call8.v2 (broadcastInDim S128x256x1 ![] bcast_S_S128x256x1),
    StableHlo.TRef.binary (.of main_v57) main_call8.v2 main_call8.v3 addi,
    StableHlo.TRef.ternary main_call8.v1 main_call8.v3 (.of main_v57) main_call8.v4 select,
    StableHlo.TRef.reshape main_call8.v4 main_call8.v5 rfl shapeCasts_S128x256x1_S128x256x1x1,
    StableHlo.TRef.nullary main_call8.c_1 (constantI S1 32 511#32),
    StableHlo.TRef.nullary main_call8.c_2 (constantI S_ 32 0#32),
    StableHlo.TRef.unary main_call8.c_2 main_call8.v6 (broadcastInDim S128x256x1x1 ![] bcast_S_S128x256x1x1),
    StableHlo.TRef.binary main_call8.v5 main_call8.v6 main_call8.v7 (cmpi .sge),
    StableHlo.TRef.unary main_call8.c_1 main_call8.v8 (broadcastInDim S1x1x1x1 ![3] bcast_S1_S1x1x1x1_3),
    StableHlo.TRef.unary main_call8.v8 main_call8.v9 (broadcastInDim S128x256x1x1 ![0, 1, 2, 3] bcast_S1x1x1x1_S128x256x1x1_0_1_2_3),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S128x256x1x1_S128x256x1_d3 h_S_),
    StableHlo.TRef.binary (.of main_v42) main_call8.v5 main_call8.v13 (fun x i => Host.gather gather_S128x256x512_S128x256x1x1_S128x256x1_n_2_01_01_2_3_111 x i),
    StableHlo.TRef.nullary main_call8.c_4 (constantI S_ 32 2147483648#32),
    StableHlo.TRef.unary main_call8.c_4 main_call8.v14 (broadcastInDim S128x256x1 ![] bcast_S_S128x256x1),
    StableHlo.TRef.ternary main_call8.v12 main_call8.v13 main_call8.v14 main_call8.v15 select,
    StableHlo.reshape main_v58 main_v59 rfl shapeCasts_S128x256x1_S128x256,
    StableHlo.unary main_v56 main_v60 (broadcastInDim S128x256x1 ![0, 1] bcast_S128x256_S128x256x1_0_1 : (⟨S128x256, .i32⟩ : BufTy).Contents (Elt F) → (⟨S128x256x1, .i32⟩ : BufTy).Contents (Elt F)),
    StableHlo.TRef.nullary main_call9.c (constantI S_ 32 0#32),
    StableHlo.TRef.unary main_call9.c main_call9.v0 (broadcastInDim S128x256x1 ![] bcast_S_S128x256x1),
    StableHlo.TRef.binary (.of main_v60) main_call9.v0 main_call9.v1 (cmpi .slt),
    StableHlo.TRef.nullary main_call9.c_0 (constantI S_ 32 512#32),
    StableHlo.TRef.unary main_call9.c_0 main_call9.v2 (broadcastInDim S128x256x1 ![] bcast_S_S128x256x1),
    StableHlo.TRef.binary (.of main_v60) main_call9.v2 main_call9.v3 addi,
    StableHlo.TRef.ternary main_call9.v1 main_call9.v3 (.of main_v60) main_call9.v4 select,
    StableHlo.TRef.reshape main_call9.v4 main_call9.v5 rfl shapeCasts_S128x256x1_S128x256x1x1,
    StableHlo.TRef.nullary main_call9.c_1 (constantI S1 32 511#32),
    StableHlo.TRef.nullary main_call9.c_2 (constantI S_ 32 0#32),
    StableHlo.TRef.unary main_call9.c_2 main_call9.v6 (broadcastInDim S128x256x1x1 ![] bcast_S_S128x256x1x1),
    StableHlo.TRef.binary main_call9.v5 main_call9.v6 main_call9.v7 (cmpi .sge),
    StableHlo.TRef.unary main_call9.c_1 main_call9.v8 (broadcastInDim S1x1x1x1 ![3] bcast_S1_S1x1x1x1_3),
    StableHlo.TRef.unary main_call9.v8 main_call9.v9 (broadcastInDim S128x256x1x1 ![0, 1, 2, 3] bcast_S1x1x1x1_S128x256x1x1_0_1_2_3),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S128x256x1x1_S128x256x1_d3 h_S_),
    StableHlo.TRef.binary (.of main_v48) main_call9.v5 main_call9.v13 (fun x i => Host.gather gather_S128x256x512_S128x256x1x1_S128x256x1_n_2_01_01_2_3_111 x i),
    StableHlo.TRef.nullary main_call9.c_4 (constantI S_ 32 2147483648#32),
    StableHlo.TRef.unary main_call9.c_4 main_call9.v14 (broadcastInDim S128x256x1 ![] bcast_S_S128x256x1),
    StableHlo.TRef.ternary main_call9.v12 main_call9.v13 main_call9.v14 main_call9.v15 select ]

/-- The loss from the cluster spans, and the cluster counts as floats. -/
abbrev opsB : List (HloOp τ sig (Elt F)) :=
  [ StableHlo.reshape main_v61 main_v62 rfl shapeCasts_S128x256x1_S128x256,
    StableHlo.unary main_v59 main_v63 (broadcastInDim S128x256x1 ![0, 1] bcast_S128x256_S128x256x1_0_1 : (⟨S128x256, .i32⟩ : BufTy).Contents (Elt F) → (⟨S128x256x1, .i32⟩ : BufTy).Contents (Elt F)),
    StableHlo.unary main_v63 main_v64 (broadcastInDim S128x256x2048 ![0, 1, 2] bcast_S128x256x1_S128x256x2048_0_1_2 : (⟨S128x256x1, .i32⟩ : BufTy).Contents (Elt F) → (⟨S128x256x2048, .i32⟩ : BufTy).Contents (Elt F)),
    StableHlo.binary main_v31 main_v64 main_v65 (cmpi .sge : (⟨S128x256x2048, .i32⟩ : BufTy).Contents (Elt F) → (⟨S128x256x2048, .i32⟩ : BufTy).Contents (Elt F) → (⟨S128x256x2048, .i1⟩ : BufTy).Contents (Elt F)),
    StableHlo.unary main_v62 main_v66 (broadcastInDim S128x256x1 ![0, 1] bcast_S128x256_S128x256x1_0_1 : (⟨S128x256, .i32⟩ : BufTy).Contents (Elt F) → (⟨S128x256x1, .i32⟩ : BufTy).Contents (Elt F)),
    StableHlo.unary main_v66 main_v67 (broadcastInDim S128x256x2048 ![0, 1, 2] bcast_S128x256x1_S128x256x2048_0_1_2 : (⟨S128x256x1, .i32⟩ : BufTy).Contents (Elt F) → (⟨S128x256x2048, .i32⟩ : BufTy).Contents (Elt F)),
    StableHlo.binary main_v31 main_v67 main_v68 (cmpi .sle : (⟨S128x256x2048, .i32⟩ : BufTy).Contents (Elt F) → (⟨S128x256x2048, .i32⟩ : BufTy).Contents (Elt F) → (⟨S128x256x2048, .i1⟩ : BufTy).Contents (Elt F)),
    StableHlo.binary main_v65 main_v68 main_v69 (andi : (⟨S128x256x2048, .i1⟩ : BufTy).Contents (Elt F) → (⟨S128x256x2048, .i1⟩ : BufTy).Contents (Elt F) → (⟨S128x256x2048, .i1⟩ : BufTy).Contents (Elt F)),
    StableHlo.nullary main_cst_14 (constant S_ .f32 0x00000000#32),
    StableHlo.unary main_cst_14 main_v70 (broadcastInDim S128x256x2048 ![] bcast_S_S128x256x2048 : (⟨S_, .f32⟩ : BufTy).Contents (Elt F) → (⟨S128x256x2048, .f32⟩ : BufTy).Contents (Elt F)),
    StableHlo.binary main_arg0 main_v70 main_v71 (cmpf .ogt : (⟨S128x256x2048, .f32⟩ : BufTy).Contents (Elt F) → (⟨S128x256x2048, .f32⟩ : BufTy).Contents (Elt F) → (⟨S128x256x2048, .i1⟩ : BufTy).Contents (Elt F)),
    StableHlo.binary main_v69 main_v71 main_v72 (andi : (⟨S128x256x2048, .i1⟩ : BufTy).Contents (Elt F) → (⟨S128x256x2048, .i1⟩ : BufTy).Contents (Elt F) → (⟨S128x256x2048, .i1⟩ : BufTy).Contents (Elt F)),
    StableHlo.unary main_v72 main_v73 ((extui 32 · natLt_1_32) : (⟨S128x256x2048, .i1⟩ : BufTy).Contents (Elt F) → (⟨S128x256x2048, .i32⟩ : BufTy).Contents (Elt F)),
    StableHlo.nullary main_c_15 (constantI S_ 32 0#32),
    StableHlo.binary main_v73 main_c_15 main_v74 ((fun x v => Host.reduce IntOp.addi x v reducesTo_S128x256x2048_S128x256_d2 h_S_) : (⟨S128x256x2048, .i32⟩ : BufTy).Contents (Elt F) → (⟨S_, .i32⟩ : BufTy).Contents (Elt F) → (⟨S128x256, .i32⟩ : BufTy).Contents (Elt F)),
    StableHlo.nullary main_c_16 (constantI S_ 32 1#32),
    StableHlo.unary main_c_16 main_v75 (broadcastInDim S128x256 ![] bcast_S_S128x256 : (⟨S_, .i32⟩ : BufTy).Contents (Elt F) → (⟨S128x256, .i32⟩ : BufTy).Contents (Elt F)),
    StableHlo.binary main_v74 main_v75 main_v76 (maxsi : (⟨S128x256, .i32⟩ : BufTy).Contents (Elt F) → (⟨S128x256, .i32⟩ : BufTy).Contents (Elt F) → (⟨S128x256, .i32⟩ : BufTy).Contents (Elt F)),
    StableHlo.unary main_v76 main_v77 (sitofp .f32 : (⟨S128x256, .i32⟩ : BufTy).Contents (Elt F) → (⟨S128x256, .f32⟩ : BufTy).Contents (Elt F)),
    StableHlo.nullary main_cst_17 (constant S_ .f32 0x00000000#32),
    StableHlo.TRef.unary (.of main_cst_17) main_call10.v0 id,
    StableHlo.TRef.unary main_call10.v0 main_call10.v1 (broadcastInDim S128x256x2048 ![] bcast_S_S128x256x2048),
    StableHlo.TRef.ternary (.of main_v72) (.of main_arg0) main_call10.v1 main_call10.v2 select,
    StableHlo.nullary main_cst_18 (constant S_ .f32 0x00000000#32),
    StableHlo.binary main_v78 main_cst_18 main_v79 ((fun x v => Host.reduceAdd x v reducesTo_S128x256x2048_S128x256_d2 h_S_) : (⟨S128x256x2048, .f32⟩ : BufTy).Contents (Elt F) → (⟨S_, .f32⟩ : BufTy).Contents (Elt F) → (⟨S128x256, .f32⟩ : BufTy).Contents (Elt F)),
    StableHlo.binary main_v79 main_v77 main_v80 (Host.divf : (⟨S128x256, .f32⟩ : BufTy).Contents (Elt F) → (⟨S128x256, .f32⟩ : BufTy).Contents (Elt F) → (⟨S128x256, .f32⟩ : BufTy).Contents (Elt F)),
    StableHlo.nullary main_v81 (iotaInDim S256 32 0),
    StableHlo.unary main_v81 main_v82 (broadcastInDim S1x256 ![1] bcast_S256_S1x256_1 : (⟨S256, .i32⟩ : BufTy).Contents (Elt F) → (⟨S1x256, .i32⟩ : BufTy).Contents (Elt F)),
    StableHlo.unary main_arg2 main_v83 (broadcastInDim S128x1 ![0] bcast_S128_S128x1_0 : (⟨S128, .i32⟩ : BufTy).Contents (Elt F) → (⟨S128x1, .i32⟩ : BufTy).Contents (Elt F)),
    StableHlo.unary main_v82 main_v84 (broadcastInDim S128x256 ![0, 1] bcast_S1x256_S128x256_0_1 : (⟨S1x256, .i32⟩ : BufTy).Contents (Elt F) → (⟨S128x256, .i32⟩ : BufTy).Contents (Elt F)),
    StableHlo.unary main_v83 main_v85 (broadcastInDim S128x256 ![0, 1] bcast_S128x1_S128x256_0_1 : (⟨S128x1, .i32⟩ : BufTy).Contents (Elt F) → (⟨S128x256, .i32⟩ : BufTy).Contents (Elt F)),
    StableHlo.binary main_v84 main_v85 main_v86 (cmpi .eq : (⟨S128x256, .i32⟩ : BufTy).Contents (Elt F) → (⟨S128x256, .i32⟩ : BufTy).Contents (Elt F) → (⟨S128x256, .i1⟩ : BufTy).Contents (Elt F)),
    StableHlo.nullary main_c_19 (constantI S_ 32 0#32),
    StableHlo.unary main_c_19 main_v87 (broadcastInDim S128x256 ![] bcast_S_S128x256 : (⟨S_, .i32⟩ : BufTy).Contents (Elt F) → (⟨S128x256, .i32⟩ : BufTy).Contents (Elt F)),
    StableHlo.binary main_v18 main_v87 main_v88 (cmpi .sgt : (⟨S128x256, .i32⟩ : BufTy).Contents (Elt F) → (⟨S128x256, .i32⟩ : BufTy).Contents (Elt F) → (⟨S128x256, .i1⟩ : BufTy).Contents (Elt F)),
    StableHlo.unary main_v88 main_v89 (noti : (⟨S128x256, .i1⟩ : BufTy).Contents (Elt F) → (⟨S128x256, .i1⟩ : BufTy).Contents (Elt F)),
    StableHlo.binary main_v86 main_v89 main_v90 (andi : (⟨S128x256, .i1⟩ : BufTy).Contents (Elt F) → (⟨S128x256, .i1⟩ : BufTy).Contents (Elt F) → (⟨S128x256, .i1⟩ : BufTy).Contents (Elt F)),
    StableHlo.unary main_v86 main_v91 (noti : (⟨S128x256, .i1⟩ : BufTy).Contents (Elt F) → (⟨S128x256, .i1⟩ : BufTy).Contents (Elt F)),
    StableHlo.binary main_v91 main_v88 main_v92 (andi : (⟨S128x256, .i1⟩ : BufTy).Contents (Elt F) → (⟨S128x256, .i1⟩ : BufTy).Contents (Elt F) → (⟨S128x256, .i1⟩ : BufTy).Contents (Elt F)),
    StableHlo.nullary main_cst_20 (constant S_ .f32 0xFF800000#32),
    StableHlo.binary main_arg0 main_cst_20 main_v93 ((fun x v => Host.reduce FloatOps.maximumf x v reducesTo_S128x256x2048_S128x256_d2 h_S_) : (⟨S128x256x2048, .f32⟩ : BufTy).Contents (Elt F) → (⟨S_, .f32⟩ : BufTy).Contents (Elt F) → (⟨S128x256, .f32⟩ : BufTy).Contents (Elt F)),
    StableHlo.unary main_v93 main_v94 (Host.negf : (⟨S128x256, .f32⟩ : BufTy).Contents (Elt F) → (⟨S128x256, .f32⟩ : BufTy).Contents (Elt F)),
    StableHlo.nullary main_cst_21 (constant S_ .f32 0x00000000#32),
    StableHlo.TRef.unary (.of main_cst_21) main_call11.v0 id,
    StableHlo.TRef.unary main_call11.v0 main_call11.v1 (broadcastInDim S128x256 ![] bcast_S_S128x256),
    StableHlo.TRef.ternary (.of main_v90) (.of main_v94) main_call11.v1 main_call11.v2 select,
    StableHlo.nullary main_cst_22 (constant S_ .f32 0x00000000#32),
    StableHlo.binary main_v95 main_cst_22 main_v96 ((fun x v => Host.reduceAdd x v reducesTo_S128x256_S_d0_1 h_S_) : (⟨S128x256, .f32⟩ : BufTy).Contents (Elt F) → (⟨S_, .f32⟩ : BufTy).Contents (Elt F) → (⟨S_, .f32⟩ : BufTy).Contents (Elt F)),
    StableHlo.nullary main_cst_23 (constant S_ .f32 0x00000000#32),
    StableHlo.TRef.unary (.of main_cst_23) main_call12.v0 id,
    StableHlo.TRef.unary main_call12.v0 main_call12.v1 (broadcastInDim S128x256 ![] bcast_S_S128x256),
    StableHlo.TRef.ternary (.of main_v92) (.of main_v80) main_call12.v1 main_call12.v2 select,
    StableHlo.nullary main_cst_24 (constant S_ .f32 0x00000000#32),
    StableHlo.binary main_v97 main_cst_24 main_v98 ((fun x v => Host.reduceAdd x v reducesTo_S128x256_S_d0_1 h_S_) : (⟨S128x256, .f32⟩ : BufTy).Contents (Elt F) → (⟨S_, .f32⟩ : BufTy).Contents (Elt F) → (⟨S_, .f32⟩ : BufTy).Contents (Elt F)),
    StableHlo.binary main_v96 main_v98 main_v99 (addf : (⟨S_, .f32⟩ : BufTy).Contents (Elt F) → (⟨S_, .f32⟩ : BufTy).Contents (Elt F) → (⟨S_, .f32⟩ : BufTy).Contents (Elt F)),
    StableHlo.unary main_v18 main_v100 (sitofp .f32 : (⟨S128x256, .i32⟩ : BufTy).Contents (Elt F) → (⟨S128x256, .f32⟩ : BufTy).Contents (Elt F)) ]

end Cert.ReferenceIdeal.Hand

end
-- ==== Proof.LibAfterAppend.lean ====
/-
  Running one list of host operations and then another is running their concatenation: the contents after
  `l₁ ++ l₂` are the contents after `l₂` started from the contents after `l₁`.
-/
import Idealize.ShloMosaic.Lib.StableHlo.Run

namespace Cert.LibAfterAppend

open Idealize.ShloMosaic Idealize.ShloMosaic.StableHlo

variable {τ : Topo} {sig : RefSig} {Val : EltTy → Type}

/-- For any two lines of host operations and any contents `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefRun.lean ====
/-
  The reference program's run.

  The program is one straight line of host operations: its `@main` calls small functions (a running sum, a
  gather along the time axis, a clip, selects, an argmin, two gathers of one entry per trace), and a call runs the
  callee's operations on the call's own buffers, so with every call written out the whole program is the list
  `opsA ++ opsB`.  A straight line always terminates, faults nowhere, and leaves in each buffer the fold of the
  operations' results over what the buffers held at launch.
-/
import proofs.«107037_j80504866996731_1_alg».proof.Proof.RefOps
import proofs.«107037_j80504866996731_1_alg».proof.Proof.LibAfterAppend

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The whole program, every call written out. -/
abbrev ops : List (HloOp τ sig (Elt F)) := opsA ++ opsB

-- some two hundred binds re-associated: the rewrite under the chain recurses once per statement
set_option maxRecDepth 8192 in
set_option maxHeartbeats 4000000 in
/-- `@main` is that straight line: each function's definition unfolded at its calls and each call's record at
    its fields, both sides are one chain of operation steps once sequencing is re-associated. -/
theorem main_eq (c : Dev nD) : main (F := F) c = seq ops := by
  simp only [main, main_part0, main_part1, main_part2, fn_cumsum.body, fn_cumsum_0.body, fn_take.body, fn_where.body,
    fn_clip.body, fn_where_1.body, fn_where_2.body, fn_argmin.body, fn_take_along_axis.body, fn_where_3.body,
    fn_where_4.body, ops, opsA, opsB, List.cons_append, List.nil_append, seq, bind_assoc, pure_bind]

/-- No buffer of the program is scoped to a region. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [ops, opsA, opsB, List.cons_append, List.nil_append, List.Forall, nullary_bufs_sub, unary_bufs_sub,
    binary_bufs_sub, ternary_bufs_sub, quaternary_bufs_sub, reshape_bufs_sub, and_self]

/-- From any memory with zero counters every weakly fair execution of the reference terminates, and every buffer
    ends at the fold of the program's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after opsB (after opsA (launchContents m c)) (b : DevRef τ sig) :=
  (θ_run defs _ _).mono (fun _ h c b => (h c b).trans (congrFun (Cert.LibAfterAppend.after_append opsA opsB _) _))
    (run_seq scopedRefs_eq scopedSems_eq defs main (fun _ => ops) main_eq (fun _ => ops_sub) m ρ)

end Cert.ReferenceIdeal.Hand

end
-- ==== Proof.RefTailArrays.lean ====
/-
  The last stretch of the reference, array by array, and each array read at an index.

  From the voltage traces X, the time-step words ST (entry (b, n, t) is the word of t), each trace's number of clusters
  NC, the first and last step FM and LM of its smallest cluster, and the samples' labelled neurons LAB, the reference
  forms in turn: the span test (step t lies between FM and LM and the trace is positive there); per trace the number of
  steps in the span, counted in 32-bit words, raised to at least one and converted; the sum of the trace over the span;
  their quotient; the test "this neuron is its sample's labelled one"; the test "the trace has a cluster"; the trace's
  maximum; and the two sums over all traces whose sum is the loss.  Each array below is one of these, written with
  the program's own operations.  Read at an index each is the corresponding scalar formula of the specification: a
  repeated word reads the word, a sum or a maximum along time at (b, n) runs over the entries (b, n, t), and the
  sum over every trace runs over all (b, n).
-/
import proofs.«107037_j80504866996731_1_alg».proof.Proof.Gen.ReferenceIdeal
import proofs.«107037_j80504866996731_1_alg».proof.Proof.SpecRef
import Idealize.ShloMosaic.Lib.Pipeline.Value
import Idealize.ShloMosaic.Lib.IdealHost

noncomputable section

namespace Cert.ReferenceIdeal.Hand

open Cert.ReferenceIdeal Cert.ReferenceIdeal.Gen Idealize.ShloMosaic
open Idealize.ShloMosaic.ValueIdx

/-- The scalar zero, as the program writes it. -/
abbrev zeroS : FVec Ideal S_ .f32 := constant (F := Ideal) S_ .f32 0x00000000#32

/-- A word per trace, repeated along the time axis. -/
abbrev alongTime (A : IVec S128x256 32) : IVec S128x256x2048 32 :=
  broadcastInDim S128x256x2048 ![0, 1, 2] bcast_S128x256x1_S128x256x2048_0_1_2
    (broadcastInDim S128x256x1 ![0, 1] bcast_S128x256_S128x256x1_0_1 A)

/-- The span test: step t is at or after the first step, at or before the last, and the trace is positive there. -/
def spanArr (X : FVec Ideal S128x256x2048 .f32) (ST : IVec S128x256x2048 32) (FM : IVec S128x256 32)
    (LM : IVec S128x256x1 32) : IVec S128x256x2048 1 :=
  andi (andi (cmpi .sge ST (alongTime FM))
      (cmpi .sle ST (alongTime (shapeCast S128x256 LM shapeCasts_S128x256x1_S128x256))))
    (cmpf .ogt X (broadcastInDim S128x256x2048 ![] bcast_S_S128x256x2048 zeroS))

/-- The number of steps in each trace's span, summed in words, at least one, converted. -/
def countArr (X : FVec Ideal S128x256x2048 .f32) (ST : IVec S128x256x2048 32) (FM : IVec S128x256 32)
    (LM : IVec S128x256x1 32) : FVec Ideal S128x256 .f32 :=
  sitofp (F := Ideal) .f32
    (maxsi (Host.reduce IntOp.addi (extui 32 (spanArr X ST FM LM) natLt_1_32) (constantI S_ 32 0#32)
        reducesTo_S128x256x2048_S128x256_d2 h_S_)
      (broadcastInDim S128x256 ![] bcast_S_S128x256 (constantI S_ 32 1#32)))

/-- The sum of each trace over its span. -/
def sumArr (X : FVec Ideal S128x256x2048 .f32) (ST : IVec S128x256x2048 32) (FM : IVec S128x256 32)
    (LM : IVec S128x256x1 32) : FVec Ideal S128x256 .f32 :=
  Host.reduceAdd (select (spanArr X ST FM LM) X (broadcastInDim S128x256x2048 ![] bcast_S_S128x256x2048 zeroS)) zeroS
    reducesTo_S128x256x2048_S128x256_d2 h_S_

/-- The mean of each trace over its span. -/
def meanArr (X : FVec Ideal S128x256x2048 .f32) (ST : IVec S128x256x2048 32) (FM : IVec S128x256 32)
    (LM : IVec S128x256x1 32) : FVec Ideal S128x256 .f32 :=
  Host.divf (sumArr X ST FM LM) (countArr X ST FM LM)

/-- The test "neuron n is sample b's labelled neuron". -/
def labelArr (LAB : IVec S128 32) : IVec S128x256 1 :=
  cmpi .eq
    (broadcastInDim S128x256 ![0, 1] bcast_S1x256_S128x256_0_1
      (broadcastInDim S1x256 ![1] bcast_S256_S1x256_1 (iotaInDim S256 32 0)))
    (broadcastInDim S128x256 ![0, 1] bcast_S128x1_S128x256_0_1
      (broadcastInDim S128x1 ![0] bcast_S128_S128x1_0 LAB))

/-- The test "the trace has a cluster". -/
def hasArr (NC : IVec S128x256 32) : IVec S128x256 1 :=
  cmpi .sgt NC (broadcastInDim S128x256 ![] bcast_S_S128x256 (constantI S_ 32 0#32))

/-- Each trace's maximum, from -∞. -/
def maxArr (X : FVec Ideal S128x256x2048 .f32) : FVec Ideal S128x256 .f32 :=
  Host.reduce (FloatOps.maximumf (F := Ideal) (φ := .f32)) X (constant (F := Ideal) S_ .f32 0xFF800000#32)
    reducesTo_S128x256x2048_S128x256_d2 h_S_

/-- Minus the maximum at labelled neurons without a cluster, zero elsewhere. -/
def missArr (X : FVec Ideal S128x256x2048 .f32) (NC : IVec S128x256 32) (LAB : IVec S128 32) :
    FVec Ideal S128x256 .f32 :=
  select (andi (labelArr LAB) (noti (hasArr NC))) (Host.negf (maxArr X))
    (broadcastInDim S128x256 ![] bcast_S_S128x256 zeroS)

/-- The span mean at unlabelled neurons with a cluster, zero elsewhere. -/
def falsePosArr (X : FVec Ideal S128x256x2048 .f32) (ST : IVec S128x256x2048 32) (NC FM : IVec S128x256 32)
    (LM : IVec S128x256x1 32) (LAB : IVec S128 32) : FVec Ideal S128x256 .f32 :=
  select (andi (noti (labelArr LAB)) (hasArr NC)) (meanArr X ST FM LM)
    (broadcastInDim S128x256 ![] bcast_S_S128x256 zeroS)

/-- The loss: the two arrays summed over all traces, each from zero, and added. -/
def lossArr (X : FVec Ideal S128x256x2048 .f32) (ST : IVec S128x256x2048 32) (NC FM : IVec S128x256 32)
    (LM : IVec S128x256x1 32) (LAB : IVec S128 32) : FVec Ideal S_ .f32 :=
  addf (Host.reduceAdd (missArr X NC LAB) zeroS reducesTo_S128x256_S_d0_1 h_S_)
    (Host.reduceAdd (falsePosArr X ST NC FM LM LAB) zeroS reducesTo_S128x256_S_d0_1 h_S_)

/-! ## Reading the arrays at an index -/

section Read

variable (X : FVec Ideal S128x256x2048 .f32) (ST : IVec S128x256x2048 32) (NC FM : IVec S128x256 32)
  (LM : IVec S128x256x1 32) (LAB : IVec S128 32)

theorem andi_apply {s : Shape} {w : Nat} (x y : IVec s w) (i : s.Idx) : andi x y i = IntOp.andi (x i) (y i) := rfl
theorem noti_apply {s : Shape} {w : Nat} (x : IVec s w) (i : s.Idx) : noti x i = ~~~ (x i) := rfl
theorem maxsi_apply {s : Shape} {w : Nat} (x y : IVec s w) (i : s.Idx) : maxsi x y i = IntOp.maxsi (x i) (y i) := rfl
theorem cmpi_apply {s : Shape} {w : Nat} (p : CmpIPredicate) (x y : IVec s w) (i : s.Idx) :
    cmpi p x y i = IntOp.cmpi p (x i) (y i) := rfl

theorem constantI_apply {s : Shape} {w : Nat} (c : BitVec w) (i : s.Idx) : constantI s w c i = c := rfl
theorem hostNegf_apply {s : Shape} {φ : FTy} (a : FVec Ideal s φ) (i : s.Idx) : Host.negf a i = -(a i) := rfl

/-- The f32 word of -∞ is the extended real ⊥. -/
theorem ofBits_negInfinity : Ideal.ofBits .f32 0xFF800000#32 = (⊥ : EReal) := by simp [Ideal.ofBits, Ideal.ieee]

/-- The scalar zero's one entry is 0. -/
theorem zeroS_first : zeroS (Shape.Idx.first h_S_) = (0 : EReal) := Ideal.ofBits_zero_f32

/-- The scalar zero repeated over any shape reads 0 everywhere. -/
theorem zeros_apply {T : Shape} (h : S_.BroadcastsInDim T ![]) (j : T.Idx) :
    broadcastInDim T ![] h zeroS j = (0 : EReal) := by
  rw [broadcastInDim_scalar_apply]; exact Ideal.ofBits_zero_f32

/-- A word per trace repeated along time reads the trace's word at every step. -/
theorem alongTime_apply (A : IVec S128x256 32) (b : Fin 128) (n : Fin 256) (t : Fin 2048) :
    alongTime A (ix3 b n t) = A (ix2 b n) := by
  unfold alongTime
  rw [broadcastInDim_apply _ _ _ (ix3 b n t) (ix3 b n 0)
        (fun a => by match a with | ⟨0, _⟩ => rfl | ⟨1, _⟩ => rfl | ⟨2, _⟩ => rfl),
      broadcastInDim_apply _ _ _ (ix3 b n 0) (ix2 b n) (fun a => by match a with | ⟨0, _⟩ => rfl | ⟨1, _⟩ => rfl)]

/-- The column of last steps, reshaped to one word per trace. -/
theorem lastStep_apply (b : Fin 128) (n : Fin 256) :
    shapeCast S128x256 LM shapeCasts_S128x256x1_S128x256 (ix2 b n) = LM (ix3 b n 0) := by
  refine shapeCast_apply _ _ _ (ix3 b n 0) ?_
  rw [Shape.rowMajor_val_three, Shape.rowMajor_val_two]
  show (b.val * 256 + n.val) * 1 + 0 = b.val * 256 + n.val
  omega

/-- The span test at (b, n, t), when the step words are the steps. -/
theorem spanArr_apply (hST : ∀ (b : Fin 128) (n : Fin 256) (t : Fin 2048), ST (ix3 b n t) = Cert.Spec.stepWord t)
    (b : Fin 128) (n : Fin 256) (t : Fin 2048) :
    spanArr X ST FM LM (ix3 b n t)
      = Cert.Spec.spanBit (FM (ix2 b n)) (LM (ix3 b n 0)) (Cert.Spec.trace X b n) t := by
  unfold spanArr
  rw [andi_apply, andi_apply, cmpi_apply, cmpi_apply, cmpf_apply, alongTime_apply, alongTime_apply, lastStep_apply,
    zeros_apply, hST]
  exact rfl

/-- Removing the time axis of the traces' shape leaves the shape of one entry per trace. -/
theorem alongTime_reduces : S128x256x2048.Reduces [2] S128x256 := by decide

/-- The trace's index (b, n) with step t inserted on the time axis is (b, n, t). -/
theorem lift_step (b : Fin 128) (n : Fin 256) (t : Fin 2048) :
    alongTime_reduces.lift (ix2 b n) t = ix3 b n t := by
  funext a
  match a with
  | ⟨0, _⟩ => exact Fin.ext rfl
  | ⟨1, _⟩ => exact Fin.ext rfl
  | ⟨2, _⟩ => exact Fin.ext rfl

/-- A float sum along time at (b, n): the initial value plus the entries (b, n, t) summed over t. -/
theorem sumAlongTime_apply (x : FVec Ideal S128x256x2048 .f32) (init : EReal) (b : Fin 128) (n : Fin 256) :
    Ideal.hostReduceAdd reducesTo_S128x256x2048_S128x256_d2 x init (ix2 b n)
      = init + ∑ t : Fin 2048, x (ix3 b n t) := by
  rw [Ideal.hostReduceAdd_single _ alongTime_reduces]
  exact congrArg (fun s => init + s) (Finset.sum_congr rfl fun t _ => congrArg x (lift_step b n t))

/-- A fold along time at (b, n) with a commutative, associative operation: the fold of the entries (b, n, t)
    over t from the initial value. -/
theorem foldAlongTime_apply {α : Type} (f : α → α → α) [Std.Commutative f] [Std.Associative f]
    (x : S128x256x2048.Idx → α) (init : S_.Idx → α) (b : Fin 128) (n : Fin 256) :
    Host.reduce f x init reducesTo_S128x256x2048_S128x256_d2 h_S_ (ix2 b n)
      = (Finset.univ : Finset (Fin 2048)).fold f (init (Shape.Idx.first h_S_)) (fun t => x (ix3 b n t)) := by
  rw [Host.reduce_eq_fold_single f x init _ alongTime_reduces]
  exact congrArg (fun g => (Finset.univ : Finset (Fin 2048)).fold f (init (Shape.Idx.first h_S_)) g)
    (funext fun t => congrArg x (lift_step b n t))

/-- The span's word count at (b, n). -/
theorem countArr_apply (hST : ∀ (b : Fin 128) (n : Fin 256) (t : Fin 2048), ST (ix3 b n t) = Cert.Spec.stepWord t)
    (b : Fin 128) (n : Fin 256) :
    countArr X ST FM LM (ix2 b n)
      = FloatOps.sitofp (F := Ideal) .f32
          (IntOp.maxsi (Cert.Spec.spanCountWord (FM (ix2 b n)) (LM (ix3 b n 0)) (Cert.Spec.trace X b n)) 1#32) := by
  unfold countArr Cert.Spec.spanCountWord
  rw [sitofp_apply, maxsi_apply, broadcastInDim_scalar_apply, foldAlongTime_apply]
  have e : (fun t : Fin 2048 => extui 32 (spanArr X ST FM LM) natLt_1_32 (ix3 b n t))
      = fun t : Fin 2048 => (Cert.Spec.spanBit (FM (ix2 b n)) (LM (ix3 b n 0)) (Cert.Spec.trace X b n) t).setWidth 32 :=
    funext fun t => by rw [extui_apply, spanArr_apply X ST FM LM hST]
  rw [e, constantI_apply, constantI_apply]

/-- The sum over the span at (b, n). -/
theorem sumArr_apply (hST : ∀ (b : Fin 128) (n : Fin 256) (t : Fin 2048), ST (ix3 b n t) = Cert.Spec.stepWord t)
    (b : Fin 128) (n : Fin 256) :
    sumArr X ST FM LM (ix2 b n)
      = (0 : EReal) + Cert.Spec.spanSum (FM (ix2 b n)) (LM (ix3 b n 0)) (Cert.Spec.trace X b n) := by
  unfold sumArr Cert.Spec.spanSum
  rw [hostReduceAdd_apply, sumAlongTime_apply, zeroS_first]
  refine congrArg (fun s => (0 : EReal) + s) (Finset.sum_congr rfl fun t _ => ?_)
  rw [select_apply, spanArr_apply X ST FM LM hST, zeros_apply]
  exact rfl

/-- The mean over the span at (b, n). -/
theorem meanArr_apply (hST : ∀ (b : Fin 128) (n : Fin 256) (t : Fin 2048), ST (ix3 b n t) = Cert.Spec.stepWord t)
    (b : Fin 128) (n : Fin 256) :
    meanArr X ST FM LM (ix2 b n)
      = Cert.Spec.refMean (FM (ix2 b n)) (LM (ix3 b n 0)) (Cert.Spec.trace X b n) := by
  unfold meanArr Cert.Spec.refMean
  rw [hostDivf_apply, sumArr_apply X ST FM LM hST, countArr_apply X ST FM LM hST]

/-- The label test at (b, n). -/
theorem labelArr_apply (b : Fin 128) (n : Fin 256) : labelArr LAB (ix2 b n) = Cert.Spec.labelBit LAB b n := by
  unfold labelArr Cert.Spec.labelBit
  rw [cmpi_apply,
    broadcastInDim_apply _ _ _ (ix2 b n) (ix2 (0 : Fin 1) n) (fun a => by match a with | ⟨0, _⟩ => rfl | ⟨1, _⟩ => rfl),
    broadcastInDim_apply _ _ _ (ix2 (0 : Fin 1) n) (ix1 n) (fun a => by match a with | ⟨0, _⟩ => rfl),
    broadcastInDim_apply _ _ _ (ix2 b n) (ix2 b (0 : Fin 1)) (fun a => by match a with | ⟨0, _⟩ => rfl | ⟨1, _⟩ => rfl),
    broadcastInDim_apply _ _ _ (ix2 b (0 : Fin 1)) (ix1 b) (fun a => by match a with | ⟨0, _⟩ => rfl)]
  exact rfl

/-- The cluster test at (b, n). -/
theorem hasArr_apply (b : Fin 128) (n : Fin 256) : hasArr NC (ix2 b n) = Cert.Spec.hasBit NC b n := by
  unfold hasArr Cert.Spec.hasBit
  rw [cmpi_apply, broadcastInDim_scalar_apply]
  exact rfl

/-- The trace's maximum at (b, n). -/
theorem maxArr_apply (b : Fin 128) (n : Fin 256) :
    maxArr X (ix2 b n) = Cert.Spec.traceMax (Cert.Spec.trace X b n) := by
  unfold maxArr Cert.Spec.traceMax
  rw [foldAlongTime_apply,
    show constant (F := Ideal) S_ .f32 0xFF800000#32 (Shape.Idx.first h_S_) = (⊥ : EReal) from ofBits_negInfinity]
  exact rfl

/-- The miss array at (b, n). -/
theorem missArr_apply (b : Fin 128) (n : Fin 256) :
    missArr X NC LAB (ix2 b n) = Cert.Spec.refMissTerm X NC LAB b n := by
  unfold missArr Cert.Spec.refMissTerm
  rw [select_apply, andi_apply, noti_apply, labelArr_apply, hasArr_apply, zeros_apply]
  rw [hostNegf_apply, maxArr_apply]

/-- The false-positive array at (b, n). -/
theorem falsePosArr_apply (hST : ∀ (b : Fin 128) (n : Fin 256) (t : Fin 2048), ST (ix3 b n t) = Cert.Spec.stepWord t)
    (b : Fin 128) (n : Fin 256) :
    falsePosArr X ST NC FM LM LAB (ix2 b n) = Cert.Spec.refFalsePosTerm X NC FM LM LAB b n := by
  unfold falsePosArr Cert.Spec.refFalsePosTerm
  rw [select_apply, andi_apply, noti_apply, labelArr_apply, hasArr_apply, zeros_apply, meanArr_apply X ST FM LM hST]

/-- The loss array is the reference's loss. -/
theorem lossArr_eq (hST : ∀ (b : Fin 128) (n : Fin 256) (t : Fin 2048), ST (ix3 b n t) = Cert.Spec.stepWord t) :
    lossArr X ST NC FM LM LAB = fun _ => Cert.Spec.refLoss X NC FM LM LAB := by
  funext j
  have hm : ∀ i : S128x256.Idx, missArr X NC LAB i = Cert.Spec.refMissTerm X NC LAB (i 0) (i 1) := fun i =>
    (congrArg (missArr X NC LAB) (eq_ix2 i)).trans (missArr_apply X NC LAB (i 0) (i 1))
  have hf : ∀ i : S128x256.Idx,
      falsePosArr X ST NC FM LM LAB i = Cert.Spec.refFalsePosTerm X NC FM LM LAB (i 0) (i 1) := fun i =>
    (congrArg (falsePosArr X ST NC FM LM LAB) (eq_ix2 i)).trans (falsePosArr_apply X ST NC FM LM LAB hST (i 0) (i 1))
  unfold lossArr Cert.Spec.refLoss
  rw [addf_apply, hostReduceAdd_apply, hostReduceAdd_apply,
    Ideal.hostReduceAdd_total _ (fun b => b.elim0), Ideal.hostReduceAdd_total _ (fun b => b.elim0), zeroS_first]
  simp only [hm, hf]

end Read

end Cert.ReferenceIdeal.Hand

end
-- ==== Proof.LibTypedRef.lean ====
/-
  Typed references at literal buffers.

  A module-local function's operations are stated over references that carry the type of the tensor value they
  hold; a value is moved between that type and the buffer's own type (a lookup in the signature's tables) along the
  equation between the two. When the reference is a literal buffer the two types are the same by computation and the
  transport is the identity — by `rfl`, for the one buffer at hand. These two lemmas state it for any signature and
  any literal reference whose carried type is the buffer's own: instantiated at each buffer a typed operation
  touches (`toBuf_lit main_v7`, `ofBuf_lit main_v7`, …) they make a rewrite set that removes every transport from a
  composed term of host operations, after which the term can be compared with a specification. (Left in place, the
  transports make such a comparison by unfolding walk the signature's tables again and again.)
  Imports only the library.
-/
import Idealize.ShloMosaic.Lib.StableHlo

noncomputable section

namespace Cert.LibTypedRef

open Idealize.ShloMosaic Idealize.ShloMosaic.StableHlo

/-- Contents at the value's type, seen as contents of the literal buffer `r`: the same contents. -/
theorem toBuf_lit {sig : RefSig} {Val : EltTy → Type} (r : Ref sig .tc) (h2) (h3) (v : r.ty.Contents Val) :
    (TRef.of (sig := sig) (T := r.ty) r rfl h2 h3).toBuf v = v := rfl

/-- Contents of the literal buffer `r`, seen at the value's type: the same contents. -/
theorem ofBuf_lit {sig : RefSig} {Val : EltTy → Type} (r : Ref sig .tc) (h2) (h3) (v : r.ty.Contents Val) :
    (TRef.of (sig := sig) (T := r.ty) r rfl h2 h3).ofBuf v = v := rfl

end Cert.LibTypedRef

end
-- ==== Proof.RefTail.lean ====
/-
  The reference's last stretch of operations computes the specification's loss.

  Started from any contents W, the fifty-six operations after the spike clustering leave in the loss's buffer the
  loss array of the time-step words, cluster counts, first and last steps and labels that W holds; when the time-step
  words are the steps themselves that array is the specification's loss, one value at the scalar's one index.  The
  second result is the cluster counts converted, and the three arguments are not written.
-/
import proofs.«107037_j80504866996731_1_alg».proof.Proof.RefOps
import proofs.«107037_j80504866996731_1_alg».proof.Proof.RefTailArrays
import proofs.«107037_j80504866996731_1_alg».proof.Proof.LibTypedRef

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

-- fifty-six operations, each result read once per consumer
set_option maxRecDepth 8192 in
set_option maxHeartbeats 4000000 in
/-- The last stretch of operations, from any contents, leaves the loss array in the loss's buffer. -/
theorem tail_term (W : Valuation τ sig (Elt Ideal)) :
    after (opsB (F := Ideal)) W (main_v99 : DevRef τ sig)
      = lossArr (W (main_arg0 : DevRef τ sig)) (W (main_v31 : DevRef τ sig)) (W (main_v18 : DevRef τ sig))
          (W (main_v59 : DevRef τ sig)) (W (main_v61 : DevRef τ sig)) (W (main_arg2 : DevRef τ sig)) := by
  unfold lossArr missArr falsePosArr meanArr sumArr countArr spanArr labelArr hasArr maxArr
  simp only [opsB]
  after_results_simp
  simp only [Cert.LibTypedRef.toBuf_lit main_call10_v0, Cert.LibTypedRef.ofBuf_lit main_call10_v0,
    Cert.LibTypedRef.toBuf_lit main_call10_v1, Cert.LibTypedRef.ofBuf_lit main_call10_v1,
    Cert.LibTypedRef.toBuf_lit main_v78, Cert.LibTypedRef.ofBuf_lit main_v78,
    Cert.LibTypedRef.toBuf_lit main_v72, Cert.LibTypedRef.ofBuf_lit main_v72,
    Cert.LibTypedRef.toBuf_lit main_arg0, Cert.LibTypedRef.ofBuf_lit main_arg0,
    Cert.LibTypedRef.toBuf_lit main_cst_17, Cert.LibTypedRef.ofBuf_lit main_cst_17,
    Cert.LibTypedRef.toBuf_lit main_call11_v0, Cert.LibTypedRef.ofBuf_lit main_call11_v0,
    Cert.LibTypedRef.toBuf_lit main_call11_v1, Cert.LibTypedRef.ofBuf_lit main_call11_v1,
    Cert.LibTypedRef.toBuf_lit main_v95, Cert.LibTypedRef.ofBuf_lit main_v95,
    Cert.LibTypedRef.toBuf_lit main_v90, Cert.LibTypedRef.ofBuf_lit main_v90,
    Cert.LibTypedRef.toBuf_lit main_v94, Cert.LibTypedRef.ofBuf_lit main_v94,
    Cert.LibTypedRef.toBuf_lit main_cst_21, Cert.LibTypedRef.ofBuf_lit main_cst_21,
    Cert.LibTypedRef.toBuf_lit main_call12_v0, Cert.LibTypedRef.ofBuf_lit main_call12_v0,
    Cert.LibTypedRef.toBuf_lit main_call12_v1, Cert.LibTypedRef.ofBuf_lit main_call12_v1,
    Cert.LibTypedRef.toBuf_lit main_v97, Cert.LibTypedRef.ofBuf_lit main_v97,
    Cert.LibTypedRef.toBuf_lit main_v92, Cert.LibTypedRef.ofBuf_lit main_v92,
    Cert.LibTypedRef.toBuf_lit main_v80, Cert.LibTypedRef.ofBuf_lit main_v80,
    Cert.LibTypedRef.toBuf_lit main_cst_23, Cert.LibTypedRef.ofBuf_lit main_cst_23, id_eq]
  exact rfl

/-- When the step words are the steps, the loss's buffer ends at the specification's loss. -/
theorem loss_eq (W : Valuation τ sig (Elt Ideal))
    (hsteps : W (main_v31 : DevRef τ sig)
      = broadcastInDim S128x256x2048 ![2] bcast_S2048_S128x256x2048_2 (iotaInDim S2048 32 0)) :
    after (opsB (F := Ideal)) W (main_v99 : DevRef τ sig)
      = fun _ => Cert.Spec.refLoss (W (main_arg0 : DevRef τ sig)) (W (main_v18 : DevRef τ sig))
          (W (main_v59 : DevRef τ sig)) (W (main_v61 : DevRef τ sig)) (W (main_arg2 : DevRef τ sig)) := by
  rw [tail_term]
  refine lossArr_eq _ _ _ _ _ _ fun b n t => ?_
  rw [hsteps, broadcastInDim_apply _ _ _ (ix3 b n t) (ix1 t) (fun a => by match a with | ⟨0, _⟩ => rfl)]
  exact rfl

set_option maxRecDepth 8192 in
set_option maxHeartbeats 4000000 in
/-- The second result's buffer ends at the cluster counts, converted. -/
theorem count_eq (W : Valuation τ sig (Elt Ideal)) :
    after (opsB (F := Ideal)) W (main_v100 : DevRef τ sig)
      = sitofp (F := Ideal) .f32 (W (main_v18 : DevRef τ sig)) := by
  simp only [opsB]
  after_results_simp

set_option maxRecDepth 8192 in
set_option maxHeartbeats 4000000 in
/-- The traces are not written. -/
theorem keptB0 (W : Valuation τ sig (Elt Ideal)) :
    after (opsB (F := Ideal)) W (main_arg0 : DevRef τ sig) = W (main_arg0 : DevRef τ sig) := by
  simp only [opsB]
  after_results_simp

set_option maxRecDepth 8192 in
set_option maxHeartbeats 4000000 in
/-- Nor is the second argument. -/
theorem keptB1 (W : Valuation τ sig (Elt Ideal)) :
    after (opsB (F := Ideal)) W (main_arg1 : DevRef τ sig) = W (main_arg1 : DevRef τ sig) := by
  simp only [opsB]
  after_results_simp

set_option maxRecDepth 8192 in
set_option maxHeartbeats 4000000 in
/-- Nor are the labels. -/
theorem keptB2 (W : Valuation τ sig (Elt Ideal)) :
    after (opsB (F := Ideal)) W (main_arg2 : DevRef τ sig) = W (main_arg2 : DevRef τ sig) := by
  simp only [opsB]
  after_results_simp

end Cert.ReferenceIdeal.Hand

end
-- ==== Proof.LibConcat2.lean ====
/-
  Two arrays joined along an axis, as a function of the two arrays.

  A concatenation takes its operands as a list of pairs (shape, array).  Read as a function of a pair's array the
  pair is dependent — its second component's type is named by its first — which stops rewriting from reaching the
  array.  For two operands the same array written as a plain function `concat2` of the two arrays has no such
  obstacle; the two spellings are equal by definition.
-/
import Idealize.ShloMosaic.PureOps.ShapeOps

namespace Cert.LibConcat2

open Idealize.ShloMosaic

/-- The arrays `x` (of shape `s₁`) and `y` (of shape `s₂`) joined along axis `a` into shape `t`. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- For any element type, shapes and axis: the list spelling is `concat2`. -/
theorem concatenate_pair {α : Type} (t : Shape) (a : Fin t.rank) (s₁ s₂ : Shape)
    (h : Shape.Concatenates [s₁, s₂] t a) (x : s₁.Idx → α) (y : s₂.Idx → α) :
    concatenate t a [⟨s₁, x⟩, ⟨s₂, y⟩] h = concat2 t a s₁ s₂ h x y := rfl

end Cert.LibConcat2
-- ==== Proof.Clustering.lean ====
/-
  The spike clustering is one computation in both programs.

  Before anything that distinguishes them, the kernel's program and the reference run the same 161 host
  operations on the voltage traces: spikes (v ≥ 0), a running count of spikes, the spikes that start a cluster
  (no spike in the three steps before), each trace's number of clusters, each step's cluster index, per cluster
  its spike count and first and last step (three scatters over 16,777,216 segments), the smallest valid cluster
  (argmin), and that cluster's first and last step (two gathers).  Only the trace array enters.  So when the two
  trace arrays agree, the number of clusters, the first step and the last step agree, buffer by buffer: both
  sides are the same composed function of the same array.

  Each side is read by unfolding the operations' results outermost first; the one concatenation (a zero column in
  front of the running spike count) is read as a function of its two arrays so that the reading reaches inside it.
-/
import proofs.«107037_j80504866996731_1_alg».proof.Proof.Gen.KernelIdeal.Frame
import proofs.«107037_j80504866996731_1_alg».proof.Proof.RefOps
import proofs.«107037_j80504866996731_1_alg».proof.Proof.LibAfterAppend
import proofs.«107037_j80504866996731_1_alg».proof.Proof.LibConcat2
import Idealize.ShloMosaic.PureOps.Ideal

set_option maxRecDepth 16384

noncomputable section

namespace Cert.Clustering

open Idealize.ShloMosaic Idealize.ShloMosaic.TcCoe Idealize.SL.Sem Idealize.ShloMosaic.StableHlo

/-- The kernel program's clustering: its host operations up to the last step of each trace's smallest cluster. -/
abbrev opsK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]

/-- What the kernel's region finds in the buffers is the clustering followed by the seventeen operations that
    lay its results out as columns. -/
theorem V0_eq (m : (ℓ : Loc Cert.KernelIdeal.nD Cert.KernelIdeal.τ Cert.KernelIdeal.sig) → Buf (Elt Ideal) ℓ)
    (c : Dev Cert.KernelIdeal.nD) :
    Cert.KernelIdeal.Gen.V0 (F := Ideal) m c
      = after Cert.KernelIdeal.Gen.hostOps0_19 (after opsK (fun b => m (c, b))) := by
  rw [← Cert.LibAfterAppend.after_append]
  unfold Cert.KernelIdeal.Gen.V0 opsK
  simp only [List.flatten_cons, List.flatten_nil, List.append_nil, List.append_assoc]

set_option maxHeartbeats 8000000 in
/-- Each trace's number of clusters. -/
theorem clusters_eq (VK : Valuation Cert.KernelIdeal.τ Cert.KernelIdeal.sig (Elt Ideal))
    (VR : Valuation Cert.ReferenceIdeal.τ Cert.ReferenceIdeal.sig (Elt Ideal))
    (h : VR (Cert.ReferenceIdeal.main_arg0 : DevRef Cert.ReferenceIdeal.τ Cert.ReferenceIdeal.sig)
          = VK (Cert.KernelIdeal.main_arg0 : DevRef Cert.KernelIdeal.τ Cert.KernelIdeal.sig)) :
    after opsK VK (Cert.KernelIdeal.main_v18 : DevRef Cert.KernelIdeal.τ Cert.KernelIdeal.sig)
      = after Cert.ReferenceIdeal.Hand.opsA VR (Cert.ReferenceIdeal.main_v18 : DevRef Cert.ReferenceIdeal.τ Cert.ReferenceIdeal.sig) := by
  simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.ReferenceIdeal.Hand.opsA,
    List.flatten_cons, List.flatten_nil, List.append_nil, List.cons_append, List.nil_append,
    TRef.nullary, TRef.unary, TRef.binary, TRef.ternary, TRef.quaternary, TRef.reshape]
  after_results_simp
  simp only [Cert.LibConcat2.concatenate_pair]
  after_results_simp
  rw [h]
  rfl

set_option maxHeartbeats 8000000 in
/-- The first step of each trace's smallest cluster. -/
theorem first_eq (VK : Valuation Cert.KernelIdeal.τ Cert.KernelIdeal.sig (Elt Ideal))
    (VR : Valuation Cert.ReferenceIdeal.τ Cert.ReferenceIdeal.sig (Elt Ideal))
    (h : VR (Cert.ReferenceIdeal.main_arg0 : DevRef Cert.ReferenceIdeal.τ Cert.ReferenceIdeal.sig)
          = VK (Cert.KernelIdeal.main_arg0 : DevRef Cert.KernelIdeal.τ Cert.KernelIdeal.sig)) :
    after opsK VK (Cert.KernelIdeal.main_v59 : DevRef Cert.KernelIdeal.τ Cert.KernelIdeal.sig)
      = after Cert.ReferenceIdeal.Hand.opsA VR (Cert.ReferenceIdeal.main_v59 : DevRef Cert.ReferenceIdeal.τ Cert.ReferenceIdeal.sig) := by
  simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.ReferenceIdeal.Hand.opsA,
    List.flatten_cons, List.flatten_nil, List.append_nil, List.cons_append, List.nil_append,
    TRef.nullary, TRef.unary, TRef.binary, TRef.ternary, TRef.quaternary, TRef.reshape]
  after_results_simp
  simp only [Cert.LibConcat2.concatenate_pair]
  after_results_simp
  rw [h]
  rfl

set_option maxHeartbeats 8000000 in
/-- The last step of each trace's smallest cluster (as a column). -/
theorem last_eq (VK : Valuation Cert.KernelIdeal.τ Cert.KernelIdeal.sig (Elt Ideal))
    (VR : Valuation Cert.ReferenceIdeal.τ Cert.ReferenceIdeal.sig (Elt Ideal))
    (h : VR (Cert.ReferenceIdeal.main_arg0 : DevRef Cert.ReferenceIdeal.τ Cert.ReferenceIdeal.sig)
          = VK (Cert.KernelIdeal.main_arg0 : DevRef Cert.KernelIdeal.τ Cert.KernelIdeal.sig)) :
    after opsK VK (Cert.KernelIdeal.main_v61 : DevRef Cert.KernelIdeal.τ Cert.KernelIdeal.sig)
      = after Cert.ReferenceIdeal.Hand.opsA VR (Cert.ReferenceIdeal.main_v61 : DevRef Cert.ReferenceIdeal.τ Cert.ReferenceIdeal.sig) := by
  simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.ReferenceIdeal.Hand.opsA,
    List.flatten_cons, List.flatten_nil, List.append_nil, List.cons_append, List.nil_append,
    TRef.nullary, TRef.unary, TRef.binary, TRef.ternary, TRef.quaternary, TRef.reshape]
  after_results_simp
  simp only [Cert.LibConcat2.concatenate_pair]
  after_results_simp
  rw [h]
  rfl

end Cert.Clustering

end
-- ==== Proof.ClusteringKept.lean ====
/-
  What the clustering leaves alone, and the time-step words.

  The clustering's operations write only their own result buffers: the program's argument arrays hold after them
  what they held before.  And the array of time-step words the reference's span tests read is the step index
  broadcast over samples and neurons.
-/
import proofs.«107037_j80504866996731_1_alg».proof.Proof.Gen.KernelIdeal.Frame
import proofs.«107037_j80504866996731_1_alg».proof.Proof.RefOps
import Idealize.ShloMosaic.PureOps.Ideal

set_option maxRecDepth 16384

noncomputable section

namespace Cert.ClusteringKept

open Idealize.ShloMosaic Idealize.ShloMosaic.TcCoe Idealize.SL.Sem Idealize.ShloMosaic.StableHlo

/-- The kernel program's clustering (its host operations up to the last step of each trace's smallest cluster). -/
abbrev opsK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]

set_option maxHeartbeats 4000000 in
theorem keptK0 (VK : Valuation Cert.KernelIdeal.τ Cert.KernelIdeal.sig (Elt Ideal)) :
    after opsK VK (Cert.KernelIdeal.main_arg0 : DevRef Cert.KernelIdeal.τ Cert.KernelIdeal.sig)
      = VK (Cert.KernelIdeal.main_arg0 : DevRef Cert.KernelIdeal.τ Cert.KernelIdeal.sig) := by
  simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18,
    List.flatten_cons, List.flatten_nil, List.append_nil, List.cons_append, List.nil_append]
  after_results_simp

set_option maxHeartbeats 4000000 in
theorem keptK2 (VK : Valuation Cert.KernelIdeal.τ Cert.KernelIdeal.sig (Elt Ideal)) :
    after opsK VK (Cert.KernelIdeal.main_arg2 : DevRef Cert.KernelIdeal.τ Cert.KernelIdeal.sig)
      = VK (Cert.KernelIdeal.main_arg2 : DevRef Cert.KernelIdeal.τ Cert.KernelIdeal.sig) := by
  simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18,
    List.flatten_cons, List.flatten_nil, List.append_nil, List.cons_append, List.nil_append]
  after_results_simp

set_option maxHeartbeats 4000000 in
theorem keptA0 (VR : Valuation Cert.ReferenceIdeal.τ Cert.ReferenceIdeal.sig (Elt Ideal)) :
    after Cert.ReferenceIdeal.Hand.opsA VR (Cert.ReferenceIdeal.main_arg0 : DevRef Cert.ReferenceIdeal.τ Cert.ReferenceIdeal.sig)
      = VR (Cert.ReferenceIdeal.main_arg0 : DevRef Cert.ReferenceIdeal.τ Cert.ReferenceIdeal.sig) := by
  simp only [Cert.ReferenceIdeal.Hand.opsA]
  after_results_simp

set_option maxHeartbeats 4000000 in
theorem keptA1 (VR : Valuation Cert.ReferenceIdeal.τ Cert.ReferenceIdeal.sig (Elt Ideal)) :
    after Cert.ReferenceIdeal.Hand.opsA VR (Cert.ReferenceIdeal.main_arg1 : DevRef Cert.ReferenceIdeal.τ Cert.ReferenceIdeal.sig)
      = VR (Cert.ReferenceIdeal.main_arg1 : DevRef Cert.ReferenceIdeal.τ Cert.ReferenceIdeal.sig) := by
  simp only [Cert.ReferenceIdeal.Hand.opsA]
  after_results_simp

set_option maxHeartbeats 4000000 in
theorem keptA2 (VR : Valuation Cert.ReferenceIdeal.τ Cert.ReferenceIdeal.sig (Elt Ideal)) :
    after Cert.ReferenceIdeal.Hand.opsA VR (Cert.ReferenceIdeal.main_arg2 : DevRef Cert.ReferenceIdeal.τ Cert.ReferenceIdeal.sig)
      = VR (Cert.ReferenceIdeal.main_arg2 : DevRef Cert.ReferenceIdeal.τ Cert.ReferenceIdeal.sig) := by
  simp only [Cert.ReferenceIdeal.Hand.opsA]
  after_results_simp

set_option maxHeartbeats 4000000 in
/-- The time-step words: step t, for every sample and neuron. -/
theorem steps_eq (VR : Valuation Cert.ReferenceIdeal.τ Cert.ReferenceIdeal.sig (Elt Ideal)) :
    after Cert.ReferenceIdeal.Hand.opsA VR (Cert.ReferenceIdeal.main_v31 : DevRef Cert.ReferenceIdeal.τ Cert.ReferenceIdeal.sig)
      = broadcastInDim Cert.ReferenceIdeal.S128x256x2048 ![2] Cert.ReferenceIdeal.Gen.bcast_S2048_S128x256x2048_2
          (iotaInDim Cert.ReferenceIdeal.S2048 32 0) := by
  simp only [Cert.ReferenceIdeal.Hand.opsA]
  after_results_simp

end Cert.ClusteringKept

end
-- ==== Proof.lean ====
/-
  The certificate.

  Three frames: the two kernel programs' by the frame proof of their one region; the reference's from its run — a
  straight line of host operations terminates, faults nowhere and writes none of its arguments.

  The idealization rewrote nothing, so there is nothing to preserve.

  Equal results at the ideal values.  Both programs first run the same spike clustering on the voltage traces; it
  leaves each trace's number of clusters and the first and last step of its smallest cluster, the same arrays in
  both (Clustering).  The kernel program lays these out as columns of 32768 rows, the kernel leaves one row loss
  per row — minus the row maximum for a labelled neuron without a cluster, the mean of the positive voltages over
  the smallest cluster's span for an unlabelled neuron with one, zero otherwise — and the program sums the column;
  the reference computes the same two kinds of terms over (sample, neuron) in two separate masked sums and adds
  them.  Row by row the nested selection is the sum of the two separate ones, the two span counts (in reals; in
  32-bit words, converted) are one number, and a finite sum of sums is the sum of the sums (Bridge).  The second
  result, the cluster counts as floats, is the same conversion of the same array.
-/
import proofs.«107037_j80504866996731_1_alg».proof.Defs
import proofs.«107037_j80504866996731_1_alg».proof.Proof.Gen.Kernel
import proofs.«107037_j80504866996731_1_alg».proof.Proof.Gen.Kernel.Skeleton
import proofs.«107037_j80504866996731_1_alg».proof.Proof.Gen.Kernel.Launch
import proofs.«107037_j80504866996731_1_alg».proof.Proof.Gen.Kernel.Points
import proofs.«107037_j80504866996731_1_alg».proof.Proof.Gen.Kernel.Frame
import proofs.«107037_j80504866996731_1_alg».proof.Proof.Gen.KernelIdeal
import proofs.«107037_j80504866996731_1_alg».proof.Proof.Gen.KernelIdeal.Skeleton
import proofs.«107037_j80504866996731_1_alg».proof.Proof.Gen.KernelIdeal.Launch
import proofs.«107037_j80504866996731_1_alg».proof.Proof.Gen.KernelIdeal.Points
import proofs.«107037_j80504866996731_1_alg».proof.Proof.Gen.KernelIdeal.Frame
import proofs.«107037_j80504866996731_1_alg».proof.Proof.Gen.ReferenceIdeal
import proofs.«107037_j80504866996731_1_alg».proof.Proof.Gen.Pre_finite_inputs
import proofs.«107037_j80504866996731_1_alg».proof.Proof.KernelLoss
import proofs.«107037_j80504866996731_1_alg».proof.Proof.RefRun
import proofs.«107037_j80504866996731_1_alg».proof.Proof.RefTail
import proofs.«107037_j80504866996731_1_alg».proof.Proof.Clustering
import proofs.«107037_j80504866996731_1_alg».proof.Proof.ClusteringKept
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference writes none of its arguments: neither the clustering nor the operations after it. -/
theorem frame_referenceIdeal : Cert.frame_ReferenceIdeal := fun m ρ _ =>
  (θ_run Cert.ReferenceIdeal.defs _ _).mono
    (fun _ h c =>
      ⟨(h c Cert.ReferenceIdeal.main_arg0).trans
          ((Cert.ReferenceIdeal.Hand.keptB0 _).trans (Cert.ClusteringKept.keptA0 _)),
        (h c Cert.ReferenceIdeal.main_arg1).trans
          ((Cert.ReferenceIdeal.Hand.keptB1 _).trans (Cert.ClusteringKept.keptA1 _)),
        (h c Cert.ReferenceIdeal.main_arg2).trans
          ((Cert.ReferenceIdeal.Hand.keptB2 _).trans (Cert.ClusteringKept.keptA2 _))⟩)
    (Cert.ReferenceIdeal.Hand.run (F := Ideal) m ρ)

theorem preserves : Cert.preserves_Kernel_KernelIdeal := trivial

theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun r h c => ?_)
    (Cert.ReferenceIdeal.Hand.run (F := Ideal) m' ρ')
  obtain ⟨h0, h1, h2⟩ := hagree c
  -- what the kernel's region finds: the clustering's contents, laid out as columns
  have hV : ∀ b : Ref Cert.KernelIdeal.sig .tc, Cert.KernelIdeal.Gen.V (F := Ideal) m c b
      = after Cert.KernelIdeal.Gen.hostOps0_19 (after Cert.Clustering.opsK fun b => m (c, b)) (b : DevRef _ _) :=
    fun b => congrFun (Cert.Clustering.V0_eq m c) _
  -- the two clusterings start from the same traces and labels
  have e0 : launchContents m' c (Cert.ReferenceIdeal.main_arg0 : DevRef _ _)
      = (fun b => m (c, b)) (Cert.KernelIdeal.main_arg0 : DevRef _ _) := h0
  have e2 : launchContents m' c (Cert.ReferenceIdeal.main_arg2 : DevRef _ _)
      = (fun b => m (c, b)) (Cert.KernelIdeal.main_arg2 : DevRef _ _) := h2
  refine ⟨?_, ?_, ?_, ?_, ?_⟩
  · rw [h c Cert.ReferenceIdeal.main_v99,
      Cert.ReferenceIdeal.Hand.loss_eq _ (Cert.ClusteringKept.steps_eq _),
      Cert.KernelIdeal.Hand.loss_of_columns m c _ hV,
      Cert.Clustering.clusters_eq _ _ e0, Cert.Clustering.first_eq _ _ e0, Cert.Clustering.last_eq _ _ e0,
      Cert.ClusteringKept.keptA0, Cert.ClusteringKept.keptA2]
    rw [show after Cert.Clustering.opsK (fun b => m (c, b)) (Cert.KernelIdeal.main_arg0 : DevRef _ _) = _ from
        Cert.ClusteringKept.keptK0 _,
      show after Cert.Clustering.opsK (fun b => m (c, b)) (Cert.KernelIdeal.main_arg2 : DevRef _ _) = _ from
        Cert.ClusteringKept.keptK2 _, e0, e2]
    rfl
  · rw [h c Cert.ReferenceIdeal.main_v100, Cert.ReferenceIdeal.Hand.count_eq,
      Cert.KernelIdeal.Hand.counts_of_columns m c _ hV, Cert.Clustering.clusters_eq _ _ e0]
  · exact (h c Cert.ReferenceIdeal.main_arg0).trans
      ((Cert.ReferenceIdeal.Hand.keptB0 _).trans (Cert.ClusteringKept.keptA0 _))
  · exact (h c Cert.ReferenceIdeal.main_arg1).trans
      ((Cert.ReferenceIdeal.Hand.keptB1 _).trans (Cert.ClusteringKept.keptA1 _))
  · exact (h c Cert.ReferenceIdeal.main_arg2).trans
      ((Cert.ReferenceIdeal.Hand.keptB2 _).trans (Cert.ClusteringKept.keptA2 _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
